-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)) (v7 : (c : Dev Cert.KernelIdeal.nD) → Buf (Elt Ideal) ((c.tc : Thread Cert.KernelIdeal.nD Cert.KernelIdeal.τ).loc Cert.KernelIdeal.main_v0_7)) (v8 : (c : Dev Cert.KernelIdeal.nD) → Buf (Elt Ideal) ((c.tc : Thread Cert.KernelIdeal.nD Cert.KernelIdeal.τ).loc Cert.KernelIdeal.main_v0_8)) (v9 : (c : Dev Cert.KernelIdeal.nD) → Buf (Elt Ideal) ((c.tc : Thread Cert.KernelIdeal.nD Cert.KernelIdeal.τ).loc Cert.KernelIdeal.main_v0_9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_v0_6) = v6 c
          ∧ r.2.mem ((c.tc : Thread Cert.KernelIdeal.nD Cert.KernelIdeal.τ).loc Cert.KernelIdeal.main_v0_7) = v7 c
          ∧ r.2.mem ((c.tc : Thread Cert.KernelIdeal.nD Cert.KernelIdeal.τ).loc Cert.KernelIdeal.main_v0_8) = v8 c
          ∧ r.2.mem ((c.tc : Thread Cert.KernelIdeal.nD Cert.KernelIdeal.τ).loc Cert.KernelIdeal.main_v0_9) = v9 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_v62) = v2 c
          ∧ r.2.mem ((c.tc : Thread Cert.ReferenceIdeal.nD Cert.ReferenceIdeal.τ).loc Cert.ReferenceIdeal.main_v77) = v3 c
          ∧ r.2.mem ((c.tc : Thread Cert.ReferenceIdeal.nD Cert.ReferenceIdeal.τ).loc Cert.ReferenceIdeal.main_v89) = v4 c
          ∧ r.2.mem ((c.tc : Thread Cert.ReferenceIdeal.nD Cert.ReferenceIdeal.τ).loc Cert.ReferenceIdeal.main_v101) = v5 c
          ∧ r.2.mem ((c.tc : Thread Cert.ReferenceIdeal.nD Cert.ReferenceIdeal.τ).loc Cert.ReferenceIdeal.main_v118) = v6 c
          ∧ r.2.mem ((c.tc : Thread Cert.ReferenceIdeal.nD Cert.ReferenceIdeal.τ).loc Cert.ReferenceIdeal.main_v127) = v7 c
          ∧ r.2.mem ((c.tc : Thread Cert.ReferenceIdeal.nD Cert.ReferenceIdeal.τ).loc Cert.ReferenceIdeal.main_v136) = v8 c
          ∧ r.2.mem ((c.tc : Thread Cert.ReferenceIdeal.nD Cert.ReferenceIdeal.τ).loc Cert.ReferenceIdeal.main_v150) = v9 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x256 : Shape := ⟨2, ![128, 256]⟩
abbrev S128x256x256 : Shape := ⟨3, ![128, 256, 256]⟩
abbrev S1x256 : Shape := ⟨2, ![1, 256]⟩
abbrev S256x256 : Shape := ⟨2, ![256, 256]⟩
abbrev S_ : Shape := ⟨0, ![]⟩

class Facts : Prop where
  bcast_S_S128x256 : S_.BroadcastsInDim S128x256 (![] : Fin 0 → Fin S128x256.rank)
  reducesTo_S128x256_S_d0_1 : S128x256.ReducesTo [0, 1] S_
  h_S_ : 0 < S_.numel
  bcast_S_S128x256x256 : S_.BroadcastsInDim S128x256x256 (![] : Fin 0 → Fin S128x256x256.rank)
  reducesTo_S128x256x256_S_d0_1_2 : S128x256x256.ReducesTo [0, 1, 2] S_
  bcast_S_S1x256 : S_.BroadcastsInDim S1x256 (![] : Fin 0 → Fin S1x256.rank)
  reducesTo_S1x256_S_d0_1 : S1x256.ReducesTo [0, 1] S_
  bcast_S_S256x256 : S_.BroadcastsInDim S256x256 (![] : Fin 0 → Fin S256x256.rank)
  reducesTo_S256x256_S_d0_1 : S256x256.ReducesTo [0, 1] S_

variable [Facts]

def fn_part4 {F : FTy → Type} [FloatOps F] (main_arg14 : FVec F S256x256 .f32) (main_v63 : IVec S_ 1) (main_v67 : IVec S_ 1) : IVec S_ 1 :=
  let main_v68 : IVec S_ 1 := andi main_v63 main_v67
  let main_v69 : FVec F S256x256 .f32 := Host.absf main_arg14
  let main_cst_26 : FVec F S_ .f32 := constant S_ .f32 0x7F800000#32
  let main_v70 : FVec F S256x256 .f32 := broadcastInDim S256x256 ![] bcast_S_S256x256 main_cst_26
  let main_v71 : IVec S256x256 1 := cmpf .olt main_v69 main_v70
  let main_c_27 : IVec S_ 1 := constantI S_ 1 1#1
  let main_v72 : IVec S_ 1 := (fun x v => Host.reduce IntOp.andi x v reducesTo_S256x256_S_d0_1 h_S_) main_v71 main_c_27
  let main_v73 : IVec S_ 1 := andi main_v68 main_v72
  main_v73

def fn_part3 {F : FTy → Type} [FloatOps F] (main_arg11 : FVec F S1x256 .f32) (main_arg12 : FVec F S1x256 .f32) (main_arg13 : FVec F S256x256 .f32) (main_arg14 : FVec F S256x256 .f32) (main_v48 : IVec S_ 1) (main_v49 : FVec F S128x256x256 .f32) (main_v50 : FVec F S128x256x256 .f32) : IVec S_ 1 :=
  let main_v51 : IVec S128x256x256 1 := cmpf .olt main_v49 main_v50
  let main_c_19 : IVec S_ 1 := constantI S_ 1 1#1
  let main_v52 : IVec S_ 1 := (fun x v => Host.reduce IntOp.andi x v reducesTo_S128x256x256_S_d0_1_2 h_S_) main_v51 main_c_19
  let main_v53 : IVec S_ 1 := andi main_v48 main_v52
  let main_v54 : FVec F S1x256 .f32 := Host.absf main_arg11
  let main_cst_20 : FVec F S_ .f32 := constant S_ .f32 0x7F800000#32
  let main_v55 : FVec F S1x256 .f32 := broadcastInDim S1x256 ![] bcast_S_S1x256 main_cst_20
  let main_v56 : IVec S1x256 1 := cmpf .olt main_v54 main_v55
  let main_c_21 : IVec S_ 1 := constantI S_ 1 1#1
  let main_v57 : IVec S_ 1 := (fun x v => Host.reduce IntOp.andi x v reducesTo_S1x256_S_d0_1 h_S_) main_v56 main_c_21
  let main_v58 : IVec S_ 1 := andi main_v53 main_v57
  let main_v59 : FVec F S1x256 .f32 := Host.absf main_arg12
  let main_cst_22 : FVec F S_ .f32 := constant S_ .f32 0x7F800000#32
  let main_v60 : FVec F S1x256 .f32 := broadcastInDim S1x256 ![] bcast_S_S1x256 main_cst_22
  let main_v61 : IVec S1x256 1 := cmpf .olt main_v59 main_v60
  let main_c_23 : IVec S_ 1 := constantI S_ 1 1#1
  let main_v62 : IVec S_ 1 := (fun x v => Host.reduce IntOp.andi x v reducesTo_S1x256_S_d0_1 h_S_) main_v61 main_c_23
  let main_v63 : IVec S_ 1 := andi main_v58 main_v62
  let main_v64 : FVec F S256x256 .f32 := Host.absf main_arg13
  let main_cst_24 : FVec F S_ .f32 := constant S_ .f32 0x7F800000#32
  let main_v65 : FVec F S256x256 .f32 := broadcastInDim S256x256 ![] bcast_S_S256x256 main_cst_24
  let main_v66 : IVec S256x256 1 := cmpf .olt main_v64 main_v65
  let main_c_25 : IVec S_ 1 := constantI S_ 1 1#1
  let main_v67 : IVec S_ 1 := (fun x v => Host.reduce IntOp.andi x v reducesTo_S256x256_S_d0_1 h_S_) main_v66 main_c_25
  fn_part4 (F := F) main_arg14 main_v63 main_v67

def fn_part2 {F : FTy → Type} [FloatOps F] (main_arg7 : FVec F S128x256x256 .f32) (main_arg8 : FVec F S128x256x256 .f32) (main_arg9 : FVec F S128x256x256 .f32) (main_arg10 : FVec F S128x256x256 .f32) (main_arg11 : FVec F S1x256 .f32) (main_arg12 : FVec F S1x256 .f32) (main_arg13 : FVec F S256x256 .f32) (main_arg14 : FVec F S256x256 .f32) (main_v33 : IVec S_ 1) : IVec S_ 1 :=
  let main_v34 : FVec F S128x256x256 .f32 := Host.absf main_arg7
  let main_cst_12 : FVec F S_ .f32 := constant S_ .f32 0x7F800000#32
  let main_v35 : FVec F S128x256x256 .f32 := broadcastInDim S128x256x256 ![] bcast_S_S128x256x256 main_cst_12
  let main_v36 : IVec S128x256x256 1 := cmpf .olt main_v34 main_v35
  let main_c_13 : IVec S_ 1 := constantI S_ 1 1#1
  let main_v37 : IVec S_ 1 := (fun x v => Host.reduce IntOp.andi x v reducesTo_S128x256x256_S_d0_1_2 h_S_) main_v36 main_c_13
  let main_v38 : IVec S_ 1 := andi main_v33 main_v37
  let main_v39 : FVec F S128x256x256 .f32 := Host.absf main_arg8
  let main_cst_14 : FVec F S_ .f32 := constant S_ .f32 0x7F800000#32
  let main_v40 : FVec F S128x256x256 .f32 := broadcastInDim S128x256x256 ![] bcast_S_S128x256x256 main_cst_14
  let main_v41 : IVec S128x256x256 1 := cmpf .olt main_v39 main_v40
  let main_c_15 : IVec S_ 1 := constantI S_ 1 1#1
  let main_v42 : IVec S_ 1 := (fun x v => Host.reduce IntOp.andi x v reducesTo_S128x256x256_S_d0_1_2 h_S_) main_v41 main_c_15
  let main_v43 : IVec S_ 1 := andi main_v38 main_v42
  let main_v44 : FVec F S128x256x256 .f32 := Host.absf main_arg9
  let main_cst_16 : FVec F S_ .f32 := constant S_ .f32 0x7F800000#32
  let main_v45 : FVec F S128x256x256 .f32 := broadcastInDim S128x256x256 ![] bcast_S_S128x256x256 main_cst_16
  let main_v46 : IVec S128x256x256 1 := cmpf .olt main_v44 main_v45
  let main_c_17 : IVec S_ 1 := constantI S_ 1 1#1
  let main_v47 : IVec S_ 1 := (fun x v => Host.reduce IntOp.andi x v reducesTo_S128x256x256_S_d0_1_2 h_S_) main_v46 main_c_17
  let main_v48 : IVec S_ 1 := andi main_v43 main_v47
  let main_v49 : FVec F S128x256x256 .f32 := Host.absf main_arg10
  let main_cst_18 : FVec F S_ .f32 := constant S_ .f32 0x7F800000#32
  let main_v50 : FVec F S128x256x256 .f32 := broadcastInDim S128x256x256 ![] bcast_S_S128x256x256 main_cst_18
  fn_part3 (F := F) main_arg11 main_arg12 main_arg13 main_arg14 main_v48 main_v49 main_v50

def fn_part1 {F : FTy → Type} [FloatOps F] (main_arg4 : FVec F S128x256 .f32) (main_arg5 : FVec F S128x256 .f32) (main_arg6 : FVec F S128x256 .f32) (main_arg7 : FVec F S128x256x256 .f32) (main_arg8 : FVec F S128x256x256 .f32) (main_arg9 : FVec F S128x256x256 .f32) (main_arg10 : FVec F S128x256x256 .f32) (main_arg11 : FVec F S1x256 .f32) (main_arg12 : FVec F S1x256 .f32) (main_arg13 : FVec F S256x256 .f32) (main_arg14 : FVec F S256x256 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S128x256 .f32 := Host.absf main_arg4
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S128x256 .f32 := Host.absf main_arg5
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S128x256 .f32 := Host.absf main_arg6
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S128x256 .f32) (main_arg1 : FVec F S128x256 .f32) (main_arg2 : FVec F S128x256 .f32) (main_arg3 : FVec F S128x256 .f32) (main_arg4 : FVec F S128x256 .f32) (main_arg5 : FVec F S128x256 .f32) (main_arg6 : FVec F S128x256 .f32) (main_arg7 : FVec F S128x256x256 .f32) (main_arg8 : FVec F S128x256x256 .f32) (main_arg9 : FVec F S128x256x256 .f32) (main_arg10 : FVec F S128x256x256 .f32) (main_arg11 : FVec F S1x256 .f32) (main_arg12 : FVec F S1x256 .f32) (main_arg13 : FVec F S256x256 .f32) (main_arg14 : FVec F S256x256 .f32) : IVec S_ 1 :=
  let main_v0 : FVec F S128x256 .f32 := Host.absf main_arg0
  let main_cst : FVec F S_ .f32 := constant S_ .f32 0x7F800000#32
  let main_v1 : FVec F S128x256 .f32 := broadcastInDim S128x256 ![] bcast_S_S128x256 main_cst
  let main_v2 : IVec S128x256 1 := cmpf .olt main_v0 main_v1
  let main_c : IVec S_ 1 := constantI S_ 1 1#1
  let main_v3 : IVec S_ 1 := (fun x v => Host.reduce IntOp.andi x v reducesTo_S128x256_S_d0_1 h_S_) main_v2 main_c
  let main_v4 : FVec F S128x256 .f32 := Host.absf main_arg1
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128x256 .f32 := Host.absf main_arg2
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S128x256 .f32 := Host.absf main_arg3
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S128x256 : Shape := ⟨2, ![128, 256]⟩
abbrev S128x256x256 : Shape := ⟨3, ![128, 256, 256]⟩
abbrev S1x256 : Shape := ⟨2, ![1, 256]⟩
abbrev S256x256 : Shape := ⟨2, ![256, 256]⟩
abbrev S128x16x256 : Shape := ⟨3, ![128, 16, 256]⟩
abbrev S128x16 : Shape := ⟨2, ![128, 16]⟩
abbrev S1x1x256 : Shape := ⟨3, ![1, 1, 256]⟩
abbrev S128x1x256 : Shape := ⟨3, ![128, 1, 256]⟩
abbrev S128x16x1 : Shape := ⟨3, ![128, 16, 1]⟩

abbrev nBuf : Space → Nat
  | .hbm => 25
  | .vmem => 33
  | .smem => 0
  | _ => 0

abbrev bufTy : (tb : Table) → Fin (tcTables nBuf tb) → BufTy
  | .hbm, ⟨0, _⟩ => ⟨S128x256, .f32⟩
  | .hbm, ⟨1, _⟩ => ⟨S128x256, .f32⟩
  | .hbm, ⟨2, _⟩ => ⟨S128x256, .f32⟩
  | .hbm, ⟨3, _⟩ => ⟨S128x256, .f32⟩
  | .hbm, ⟨4, _⟩ => ⟨S128x256, .f32⟩
  | .hbm, ⟨5, _⟩ => ⟨S128x256, .f32⟩
  | .hbm, ⟨6, _⟩ => ⟨S128x256, .f32⟩
  | .hbm, ⟨7, _⟩ => ⟨S128x256x256, .f32⟩
  | .hbm, ⟨8, _⟩ => ⟨S128x256x256, .f32⟩
  | .hbm, ⟨9, _⟩ => ⟨S128x256x256, .f32⟩
  | .hbm, ⟨10, _⟩ => ⟨S128x256x256, .f32⟩
  | .hbm, ⟨11, _⟩ => ⟨S1x256, .f32⟩
  | .hbm, ⟨12, _⟩ => ⟨S1x256, .f32⟩
  | .hbm, ⟨13, _⟩ => ⟨S256x256, .f32⟩
  | .hbm, ⟨14, _⟩ => ⟨S256x256, .f32⟩
  | .hbm, ⟨15, _⟩ => ⟨S128x256, .f32⟩
  | .hbm, ⟨16, _⟩ => ⟨S128x256, .f32⟩
  | .hbm, ⟨17, _⟩ => ⟨S128x256, .f32⟩
  | .hbm, ⟨18, _⟩ => ⟨S128x256, .f32⟩
  | .hbm, ⟨19, _⟩ => ⟨S128x256, .f32⟩
  | .hbm, ⟨20, _⟩ => ⟨S128x256, .f32⟩
  | .hbm, ⟨21, _⟩ => ⟨S128x256x256, .f32⟩
  | .hbm, ⟨22, _⟩ => ⟨S128x256x256, .f32⟩
  | .hbm, ⟨23, _⟩ => ⟨S128x256x256, .f32⟩
  | .hbm, ⟨24, _⟩ => ⟨S128x256x256, .f32⟩
  | .local _ .vmem, ⟨0, _⟩ => ⟨S128x256, .f32⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S1x256, .f32⟩
  | .local _ .vmem, ⟨8, _⟩ => ⟨S1x256, .f32⟩
  | .local _ .vmem, ⟨9, _⟩ => ⟨S256x256, .f32⟩
  | .local _ .vmem, ⟨10, _⟩ => ⟨S256x256, .f32⟩
  | .local _ .vmem, ⟨11, _⟩ => ⟨S128x16x256, .f32⟩
  | .local _ .vmem, ⟨12, _⟩ => ⟨S128x16x256, .f32⟩
  | .local _ .vmem, ⟨13, _⟩ => ⟨S128x16x256, .f32⟩
  | .local _ .vmem, ⟨14, _⟩ => ⟨S128x16x256, .f32⟩
  | .local _ .vmem, ⟨15, _⟩ => ⟨S128x16x256, .f32⟩
  | .local _ .vmem, ⟨16, _⟩ => ⟨S128x16x256, .f32⟩
  | .local _ .vmem, ⟨17, _⟩ => ⟨S128x16x256, .f32⟩
  | .local _ .vmem, ⟨18, _⟩ => ⟨S128x16x256, .f32⟩
  | .local _ .vmem, ⟨19, _⟩ => ⟨S128x256, .f32⟩
  | .local _ .vmem, ⟨20, _⟩ => ⟨S128x256, .f32⟩
  | .local _ .vmem, ⟨21, _⟩ => ⟨S128x256, .f32⟩
  | .local _ .vmem, ⟨22, _⟩ => ⟨S128x256, .f32⟩
  | .local _ .vmem, ⟨23, _⟩ => ⟨S128x256, .f32⟩
  | .local _ .vmem, ⟨24, _⟩ => ⟨S128x256, .f32⟩
  | .local _ .vmem, ⟨25, _⟩ => ⟨S128x16x256, .f32⟩
  | .local _ .vmem, ⟨26, _⟩ => ⟨S128x16x256, .f32⟩
  | .local _ .vmem, ⟨27, _⟩ => ⟨S128x16x256, .f32⟩
  | .local _ .vmem, ⟨28, _⟩ => ⟨S128x16x256, .f32⟩
  | .local _ .vmem, ⟨29, _⟩ => ⟨S128x16x256, .f32⟩
  | .local _ .vmem, ⟨30, _⟩ => ⟨S128x16x256, .f32⟩
  | .local _ .vmem, ⟨31, _⟩ => ⟨S128x16x256, .f32⟩
  | .local _ .vmem, ⟨32, _⟩ => ⟨S128x16x256, .f32⟩
  | _, _ => ⟨S128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0_0 : Ref sig .tc := ⟨.hbm, 15, rfl⟩
abbrev main_v0_1 : Ref sig .tc := ⟨.hbm, 16, rfl⟩
abbrev main_v0_2 : Ref sig .tc := ⟨.hbm, 17, rfl⟩
abbrev main_v0_3 : Ref sig .tc := ⟨.hbm, 18, rfl⟩
abbrev main_v0_4 : Ref sig .tc := ⟨.hbm, 19, rfl⟩
abbrev main_v0_5 : Ref sig .tc := ⟨.hbm, 20, rfl⟩
abbrev main_v0_6 : Ref sig .tc := ⟨.hbm, 21, rfl⟩
abbrev main_v0_7 : Ref sig .tc := ⟨.hbm, 22, rfl⟩
abbrev main_v0_8 : Ref sig .tc := ⟨.hbm, 23, rfl⟩
abbrev main_v0_9 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg11_1 : Ref sig .tc := ⟨.vmem, 12, rfl⟩
abbrev cc0_stg12_0 : Ref sig .tc := ⟨.vmem, 13, rfl⟩
abbrev cc0_stg12_1 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg17_0 : Ref sig .tc := ⟨.vmem, 21, rfl⟩
abbrev cc0_stg18_0 : Ref sig .tc := ⟨.vmem, 22, rfl⟩
abbrev cc0_stg19_0 : Ref sig .tc := ⟨.vmem, 23, rfl⟩
abbrev cc0_stg20_0 : Ref sig .tc := ⟨.vmem, 24, rfl⟩
abbrev cc0_stg21_0 : Ref sig .tc := ⟨.vmem, 25, rfl⟩
abbrev cc0_stg21_1 : Ref sig .tc := ⟨.vmem, 26, rfl⟩
abbrev cc0_stg22_0 : Ref sig .tc := ⟨.vmem, 27, rfl⟩
abbrev cc0_stg22_1 : Ref sig .tc := ⟨.vmem, 28, rfl⟩
abbrev cc0_stg23_0 : Ref sig .tc := ⟨.vmem, 29, rfl⟩
abbrev cc0_stg23_1 : Ref sig .tc := ⟨.vmem, 30, rfl⟩
abbrev cc0_stg24_0 : Ref sig .tc := ⟨.vmem, 31, rfl⟩
abbrev cc0_stg24_1 : Ref sig .tc := ⟨.vmem, 32, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem11_1 : DmaSem sig := 12
abbrev cc0_sem12_0 : DmaSem sig := 13
abbrev cc0_sem12_1 : DmaSem sig := 14
abbrev cc0_sem13_0 : DmaSem sig := 15
abbrev cc0_sem13_1 : DmaSem sig := 16
abbrev cc0_sem14_0 : DmaSem sig := 17
abbrev cc0_sem14_1 : DmaSem sig := 18
abbrev cc0_sem15_0 : DmaSem sig := 19
abbrev cc0_sem16_0 : DmaSem sig := 20
abbrev cc0_sem17_0 : DmaSem sig := 21
abbrev cc0_sem18_0 : DmaSem sig := 22
abbrev cc0_sem19_0 : DmaSem sig := 23
abbrev cc0_sem20_0 : DmaSem sig := 24
abbrev cc0_sem21_0 : DmaSem sig := 25
abbrev cc0_sem21_1 : DmaSem sig := 26
abbrev cc0_sem22_0 : DmaSem sig := 27
abbrev cc0_sem22_1 : DmaSem sig := 28
abbrev cc0_sem23_0 : DmaSem sig := 29
abbrev cc0_sem23_1 : DmaSem sig := 30
abbrev cc0_sem24_0 : DmaSem sig := 31
abbrev cc0_sem24_1 : DmaSem sig := 32

abbrev nD : Nat := 1
abbrev τ : Topo := Topo.v7x

variable {F : FTy → Type} [FloatOps F]

abbrev grid0 : Pipeline.Grid := ⟨1, ![16], ![false]⟩

def k0_mult1 (i : grid0.Coords) : BitVec 32 :=
  let arg0 : BitVec 32 := BitVec.ofNat 32 (i 0).val
  let c16_i32 : BitVec 32 := 16#32
  let v127 : BitVec 32 := Scalar.muli arg0 c16_i32
  v127
def k0_off1 (i : grid0.Coords) : Fin 2 → Nat :=
  let c0_43 : Index := 0#32
  let arg0 : BitVec 32 := BitVec.ofNat 32 (i 0).val
  let c16_i32 : BitVec 32 := 16#32
  let v127 : BitVec 32 := Scalar.muli arg0 c16_i32
  let v128 : BitVec 32 := v127
  let v129 : Index := Scalar.indexCast v128
  ![0, v129.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_23 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_24 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S128x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S128x16x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x16x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x16x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x16x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S128x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S128x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S128x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S128x256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S128x256 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 2 → Memref sig .tc .vmem S128x16x256 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S128x16x256 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S128x16x256 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S128x16x256 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

class Facts₀ : Prop where
  inb_S1x256_S1x256_0_0 : ∀ a, (![0, 0] : Fin 2 → Nat) a + S1x256.size a ≤ S1x256.size a
  h_S1x256 : 0 < S1x256.numel
  inb_S128x256_S128x256_0_0 : ∀ a, (![0, 0] : Fin 2 → Nat) a + S128x256.size a ≤ S128x256.size a
  h_S128x256 : 0 < S128x256.numel
  inb_S256x256_S256x256_0_0 : ∀ a, (![0, 0] : Fin 2 → Nat) a + S256x256.size a ≤ S256x256.size a
  h_S256x256 : 0 < S256x256.numel
  broadcasts_S1x256_S128x256 : S1x256.Broadcasts S128x256
  natLt_1_32 : 1 < 32
  h_S128x16 : 0 < S128x16.numel
  shapeCasts_S1x256_S1x1x256 : S1x256.ShapeCasts S1x1x256
  shapeCasts_S128x256_S128x1x256 : S128x256.ShapeCasts S128x1x256
  shapeCasts_S128x16_S128x16x1 : S128x16.ShapeCasts S128x16x1
  broadcasts_S1x1x256_S128x16x256 : S1x1x256.Broadcasts S128x16x256
  broadcasts_S128x16x1_S128x16x256 : S128x16x1.Broadcasts S128x16x256
  inb_S128x16x256_S128x16x256_0_0_0 : ∀ a, (![0, 0, 0] : Fin 3 → Nat) a + S128x16x256.size a ≤ S128x16x256.size a
  h_S128x16x256 : 0 < S128x16x256.numel
  broadcasts_S128x1x256_S128x16x256 : S128x1x256.Broadcasts S128x16x256
  dot_S128x256_S256x256_S128x256_1_0_0_1_n_n_wf : DotDims.WF S128x256 S256x256 S128x256 [1] [0] [0] [1] [] []
  hrank0 : 0 < grid0.rank
  k0_mult1_dvd : ∀ i : grid0.Coords, 16 ∣ (k0_mult1 i).toNat
  k0_off1_inb : ∀ i : grid0.Coords, ∀ a, (k0_off1 i) a + S128x16.size a ≤ S128x256.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128x256.size a ≤ S128x256.size a
  hwx0_0 : ∀ i : grid0.Coords, EltTy.bits .f32 = 32 ∨ (Rect.block (s := S128x256) S128x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x256.size a ≤ S128x256.size a
  hwx0_5 : ∀ i : grid0.Coords, EltTy.bits .f32 = 32 ∨ (Rect.block (s := S128x256) S128x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x256.size a ≤ S128x256.size a
  hwx0_6 : ∀ i : grid0.Coords, EltTy.bits .f32 = 32 ∨ (Rect.block (s := S128x256) S128x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x256.size a ≤ S256x256.size a
  hwx0_9 : ∀ i : grid0.Coords, EltTy.bits .f32 = 32 ∨ (Rect.block (s := S256x256) S256x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256x256.size a ≤ S256x256.size a
  hwx0_10 : ∀ i : grid0.Coords, EltTy.bits .f32 = 32 ∨ (Rect.block (s := S256x256) S256x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S128x16x256.size a ≤ S128x256x256.size a
  hwx0_11 : ∀ i : grid0.Coords, EltTy.bits .f32 = 32 ∨ (Rect.block (s := S128x256x256) S128x16x256.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S128x16x256.size a ≤ S128x256x256.size a
  hwx0_12 : ∀ i : grid0.Coords, EltTy.bits .f32 = 32 ∨ (Rect.block (s := S128x256x256) S128x16x256.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S128x16x256.size a ≤ S128x256x256.size a
  hwx0_13 : ∀ i : grid0.Coords, EltTy.bits .f32 = 32 ∨ (Rect.block (s := S128x256x256) S128x16x256.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S128x16x256.size a ≤ S128x256x256.size a
  hwx0_14 : ∀ i : grid0.Coords, EltTy.bits .f32 = 32 ∨ (Rect.block (s := S128x256x256) S128x16x256.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S128x256.size a ≤ S128x256.size a
  hwx0_15 : ∀ i : grid0.Coords, EltTy.bits .f32 = 32 ∨ (Rect.block (s := S128x256) S128x256.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S128x256.size a ≤ S128x256.size a
  hwx0_16 : ∀ i : grid0.Coords, EltTy.bits .f32 = 32 ∨ (Rect.block (s := S128x256) S128x256.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S128x256.size a ≤ S128x256.size a
  hwx0_17 : ∀ i : grid0.Coords, EltTy.bits .f32 = 32 ∨ (Rect.block (s := S128x256) S128x256.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S128x256.size a ≤ S128x256.size a
  hwx0_18 : ∀ i : grid0.Coords, EltTy.bits .f32 = 32 ∨ (Rect.block (s := S128x256) S128x256.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S128x256.size a ≤ S128x256.size a
  hwx0_19 : ∀ i : grid0.Coords, EltTy.bits .f32 = 32 ∨ (Rect.block (s := S128x256) S128x256.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S128x256.size a ≤ S128x256.size a
  hwx0_20 : ∀ i : grid0.Coords, EltTy.bits .f32 = 32 ∨ (Rect.block (s := S128x256) S128x256.size (cc0_transform_20 i) (hinb0_20 i)).WholeWords (EltTy.packing .f32)
  hstage0_21 : ∀ j, (stage0_21 j).IsWhole
  nbuf0_21 : grid0.bufCount reads0_21 false = 2
  hreads0_21 : ∀ i i' : grid0.Coords, (∀ a, reads0_21 a = true → i a = i' a) → cc0_transform_21 i = cc0_transform_21 i'
  hinb0_21 : ∀ (i : grid0.Coords) a, (cc0_transform_21 i a + 1) * S128x16x256.size a ≤ S128x256x256.size a
  hwx0_21 : ∀ i : grid0.Coords, EltTy.bits .f32 = 32 ∨ (Rect.block (s := S128x256x256) S128x16x256.size (cc0_transform_21 i) (hinb0_21 i)).WholeWords (EltTy.packing .f32)
  hstage0_22 : ∀ j, (stage0_22 j).IsWhole
  nbuf0_22 : grid0.bufCount reads0_22 false = 2
  hreads0_22 : ∀ i i' : grid0.Coords, (∀ a, reads0_22 a = true → i a = i' a) → cc0_transform_22 i = cc0_transform_22 i'
  hinb0_22 : ∀ (i : grid0.Coords) a, (cc0_transform_22 i a + 1) * S128x16x256.size a ≤ S128x256x256.size a
  hwx0_22 : ∀ i : grid0.Coords, EltTy.bits .f32 = 32 ∨ (Rect.block (s := S128x256x256) S128x16x256.size (cc0_transform_22 i) (hinb0_22 i)).WholeWords (EltTy.packing .f32)
  hstage0_23 : ∀ j, (stage0_23 j).IsWhole
  nbuf0_23 : grid0.bufCount reads0_23 false = 2
  hreads0_23 : ∀ i i' : grid0.Coords, (∀ a, reads0_23 a = true → i a = i' a) → cc0_transform_23 i = cc0_transform_23 i'
  hinb0_23 : ∀ (i : grid0.Coords) a, (cc0_transform_23 i a + 1) * S128x16x256.size a ≤ S128x256x256.size a
  hwx0_23 : ∀ i : grid0.Coords, EltTy.bits .f32 = 32 ∨ (Rect.block (s := S128x256x256) S128x16x256.size (cc0_transform_23 i) (hinb0_23 i)).WholeWords (EltTy.packing .f32)
  hstage0_24 : ∀ j, (stage0_24 j).IsWhole
  nbuf0_24 : grid0.bufCount reads0_24 false = 2
  hreads0_24 : ∀ i i' : grid0.Coords, (∀ a, reads0_24 a = true → i a = i' a) → cc0_transform_24 i = cc0_transform_24 i'
  hinb0_24 : ∀ (i : grid0.Coords) a, (cc0_transform_24 i a + 1) * S128x16x256.size a ≤ S128x256x256.size a
  hwx0_24 : ∀ i : grid0.Coords, EltTy.bits .f32 = 32 ∨ (Rect.block (s := S128x256x256) S128x16x256.size (cc0_transform_24 i) (hinb0_24 i)).WholeWords (EltTy.packing .f32)

variable [Facts₀]

def dot_S128x256_S256x256_S128x256_1_0_0_1_n_n : DotDims S128x256 S256x256 S128x256 where
  lhsContracting := [1]
  rhsContracting := [0]
  lhsNonContracting := [0]
  rhsNonContracting := [1]
  lhsBatch := []
  rhsBatch := []
  wf := dot_S128x256_S256x256_S128x256_1_0_0_1_n_n_wf

abbrev win0_0 : Pipeline.Window sig grid0 :=
  Pipeline.Window.ofSpec (Memref.whole main_arg0) S128x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg11) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg12) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg13) S256x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg14) S256x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg7) S128x16x256.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_arg8) S128x16x256.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_arg9) S128x16x256.size cc0_transform_13 reads0_13 false false 2 stage0_13 sem0_13
    hrank0 hreads0_13 hinb0_13 nbuf0_13 (Memref.isWhole_whole _) hwx0_13 hstage0_13

abbrev win0_14 : Pipeline.Window sig grid0 :=
  Pipeline.Window.ofSpec (Memref.whole main_arg10) S128x16x256.size cc0_transform_14 reads0_14 false false 2 stage0_14 sem0_14
    hrank0 hreads0_14 hinb0_14 nbuf0_14 (Memref.isWhole_whole _) hwx0_14 hstage0_14

abbrev win0_15 : Pipeline.Window sig grid0 :=
  Pipeline.Window.ofSpec (Memref.whole main_v0_0) S128x256.size cc0_transform_15 reads0_15 true true 1 stage0_15 sem0_15
    hrank0 hreads0_15 hinb0_15 nbuf0_15 (Memref.isWhole_whole _) hwx0_15 hstage0_15

abbrev win0_16 : Pipeline.Window sig grid0 :=
  Pipeline.Window.ofSpec (Memref.whole main_v0_1) S128x256.size cc0_transform_16 reads0_16 true true 1 stage0_16 sem0_16
    hrank0 hreads0_16 hinb0_16 nbuf0_16 (Memref.isWhole_whole _) hwx0_16 hstage0_16

abbrev win0_17 : Pipeline.Window sig grid0 :=
  Pipeline.Window.ofSpec (Memref.whole main_v0_2) S128x256.size cc0_transform_17 reads0_17 true true 1 stage0_17 sem0_17
    hrank0 hreads0_17 hinb0_17 nbuf0_17 (Memref.isWhole_whole _) hwx0_17 hstage0_17

abbrev win0_18 : Pipeline.Window sig grid0 :=
  Pipeline.Window.ofSpec (Memref.whole main_v0_3) S128x256.size cc0_transform_18 reads0_18 true true 1 stage0_18 sem0_18
    hrank0 hreads0_18 hinb0_18 nbuf0_18 (Memref.isWhole_whole _) hwx0_18 hstage0_18

abbrev win0_19 : Pipeline.Window sig grid0 :=
  Pipeline.Window.ofSpec (Memref.whole main_v0_4) S128x256.size cc0_transform_19 reads0_19 true true 1 stage0_19 sem0_19
    hrank0 hreads0_19 hinb0_19 nbuf0_19 (Memref.isWhole_whole _) hwx0_19 hstage0_19

abbrev win0_20 : Pipeline.Window sig grid0 :=
  Pipeline.Window.ofSpec (Memref.whole main_v0_5) S128x256.size cc0_transform_20 reads0_20 true true 1 stage0_20 sem0_20
    hrank0 hreads0_20 hinb0_20 nbuf0_20 (Memref.isWhole_whole _) hwx0_20 hstage0_20

abbrev win0_21 : Pipeline.Window sig grid0 :=
  Pipeline.Window.ofSpec (Memref.whole main_v0_6) S128x16x256.size cc0_transform_21 reads0_21 true false 2 stage0_21 sem0_21
    hrank0 hreads0_21 hinb0_21 nbuf0_21 (Memref.isWhole_whole _) hwx0_21 hstage0_21

abbrev win0_22 : Pipeline.Window sig grid0 :=
  Pipeline.Window.ofSpec (Memref.whole main_v0_7) S128x16x256.size cc0_transform_22 reads0_22 true false 2 stage0_22 sem0_22
    hrank0 hreads0_22 hinb0_22 nbuf0_22 (Memref.isWhole_whole _) hwx0_22 hstage0_22

abbrev win0_23 : Pipeline.Window sig grid0 :=
  Pipeline.Window.ofSpec (Memref.whole main_v0_8) S128x16x256.size cc0_transform_23 reads0_23 true false 2 stage0_23 sem0_23
    hrank0 hreads0_23 hinb0_23 nbuf0_23 (Memref.isWhole_whole _) hwx0_23 hstage0_23

abbrev win0_24 : Pipeline.Window sig grid0 :=
  Pipeline.Window.ofSpec (Memref.whole main_v0_9) S128x16x256.size cc0_transform_24 reads0_24 true false 2 stage0_24 sem0_24
    hrank0 hreads0_24 hinb0_24 nbuf0_24 (Memref.isWhole_whole _) hwx0_24 hstage0_24

abbrev win0 : Fin 25 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | ⟨_ + 25, h⟩ => absurd h (Nat.not_lt.2 (Nat.le_add_left _ _))
abbrev spec0 : Fin 25 → Pipeline.WinSpec sig grid0.rank := fun w => (win0 w).toWinSpec

class Facts : Prop extends Facts₀ where
  halias0_21 : Pipeline.Aliased win0 11 21
  halias0_22 : Pipeline.Aliased win0 12 22
  halias0_23 : Pipeline.Aliased win0 13 23
  halias0_24 : Pipeline.Aliased win0 14 24

variable [Facts]
-- ==== ReferenceIdeal.lean ====
abbrev S128x256 : Shape := ⟨2, ![128, 256]⟩
abbrev S128x256x256 : Shape := ⟨3, ![128, 256, 256]⟩
abbrev S1x256 : Shape := ⟨2, ![1, 256]⟩
abbrev S256x256 : Shape := ⟨2, ![256, 256]⟩
abbrev S_ : Shape := ⟨0, ![]⟩
abbrev S128x256x1 : Shape := ⟨3, ![128, 256, 1]⟩
abbrev S128x1x256 : Shape := ⟨3, ![128, 1, 256]⟩
abbrev S1x1x256 : Shape := ⟨3, ![1, 1, 256]⟩

abbrev nBuf : Space → Nat
  | .hbm => 173
  | .vmem => 0
  | .smem => 0
  | _ => 0

abbrev hbmTy0_0 (i : Nat) : BufTy := match i % 128 with
  | 0 => ⟨S128x256, .f32⟩
  | 1 => ⟨S128x256, .f32⟩
  | 2 => ⟨S128x256, .f32⟩
  | 3 => ⟨S128x256, .f32⟩
  | 4 => ⟨S128x256, .f32⟩
  | 5 => ⟨S128x256, .f32⟩
  | 6 => ⟨S128x256, .f32⟩
  | 7 => ⟨S128x256x256, .f32⟩
  | 8 => ⟨S128x256x256, .f32⟩
  | 9 => ⟨S128x256x256, .f32⟩
  | 10 => ⟨S128x256x256, .f32⟩
  | 11 => ⟨S1x256, .f32⟩
  | 12 => ⟨S1x256, .f32⟩
  | 13 => ⟨S256x256, .f32⟩
  | 14 => ⟨S256x256, .f32⟩
  | 15 => ⟨S1x256, .f32⟩
  | 16 => ⟨S1x256, .f32⟩
  | 17 => ⟨S1x256, .f32⟩
  | 18 => ⟨S1x256, .f32⟩
  | 19 => ⟨S1x256, .f32⟩
  | 20 => ⟨S1x256, .f32⟩
  | 21 => ⟨S1x256, .f32⟩
  | 22 => ⟨S1x256, .f32⟩
  | 23 => ⟨S1x256, .f32⟩
  | 24 => ⟨S_, .f32⟩
  | 25 => ⟨S1x256, .f32⟩
  | 26 => ⟨S1x256, .f32⟩
  | 27 => ⟨S1x256, .f32⟩
  | 28 => ⟨S128x256, .f32⟩
  | 29 => ⟨S128x256, .f32⟩
  | 30 => ⟨S128x256, .f32⟩
  | 31 => ⟨S128x256, .f32⟩
  | 32 => ⟨S128x256, .f32⟩
  | 33 => ⟨S128x256, .f32⟩
  | 34 => ⟨S128x256, .f32⟩
  | 35 => ⟨S128x256, .f32⟩
  | 36 => ⟨S128x256, .f32⟩
  | 37 => ⟨S128x256, .f32⟩
  | 38 => ⟨S128x256, .f32⟩
  | 39 => ⟨S128x256, .f32⟩
  | 40 => ⟨S128x256, .f32⟩
  | 41 => ⟨S128x256, .f32⟩
  | 42 => ⟨S128x256, .f32⟩
  | 43 => ⟨S128x256, .f32⟩
  | 44 => ⟨S128x256, .f32⟩
  | 45 => ⟨S128x256, .f32⟩
  | 46 => ⟨S_, .f32⟩
  | 47 => ⟨S128x256, .f32⟩
  | 48 => ⟨S128x256, .f32⟩
  | 49 => ⟨S_, .f32⟩
  | 50 => ⟨S128x256, .f32⟩
  | 51 => ⟨S128x256, .f32⟩
  | 52 => ⟨S_, .f32⟩
  | 53 => ⟨S128x256, .f32⟩
  | 54 => ⟨S128x256, .i1⟩
  | 55 => ⟨S128x256, .f32⟩
  | 56 => ⟨S_, .f32⟩
  | 57 => ⟨S128x256, .f32⟩
  | 58 => ⟨S128x256, .i1⟩
  | 59 => ⟨S128x256, .f32⟩
  | 60 => ⟨S1x256, .f32⟩
  | 61 => ⟨S1x256, .f32⟩
  | 62 => ⟨S1x256, .f32⟩
  | 63 => ⟨S1x256, .f32⟩
  | 64 => ⟨S1x256, .f32⟩
  | 65 => ⟨S1x256, .f32⟩
  | 66 => ⟨S1x256, .f32⟩
  | 67 => ⟨S1x256, .f32⟩
  | 68 => ⟨S1x256, .f32⟩
  | 69 => ⟨S1x256, .f32⟩
  | 70 => ⟨S128x256, .f32⟩
  | 71 => ⟨S128x256, .f32⟩
  | 72 => ⟨S128x256, .f32⟩
  | 73 => ⟨S128x256, .f32⟩
  | 74 => ⟨S128x256, .f32⟩
  | 75 => ⟨S128x256, .f32⟩
  | 76 => ⟨S128x256, .f32⟩
  | 77 => ⟨S128x256, .f32⟩
  | 78 => ⟨S128x256, .f32⟩
  | 79 => ⟨S128x256, .f32⟩
  | 80 => ⟨S128x256, .f32⟩
  | 81 => ⟨S128x256, .f32⟩
  | 82 => ⟨S128x256, .f32⟩
  | 83 => ⟨S128x256, .f32⟩
  | 84 => ⟨S128x256, .f32⟩
  | 85 => ⟨S128x256, .f32⟩
  | 86 => ⟨S128x256, .f32⟩
  | 87 => ⟨S128x256, .f32⟩
  | 88 => ⟨S128x256, .f32⟩
  | 89 => ⟨S128x256, .f32⟩
  | 90 => ⟨S128x256, .f32⟩
  | 91 => ⟨S128x256, .f32⟩
  | 92 => ⟨S128x256, .f32⟩
  | 93 => ⟨S128x256, .f32⟩
  | 94 => ⟨S128x256, .f32⟩
  | 95 => ⟨S128x256, .f32⟩
  | 96 => ⟨S128x256, .f32⟩
  | 97 => ⟨S128x256, .f32⟩
  | 98 => ⟨S128x256, .f32⟩
  | 99 => ⟨S128x256, .f32⟩
  | 100 => ⟨S128x256, .f32⟩
  | 101 => ⟨S128x256, .f32⟩
  | 102 => ⟨S128x256, .f32⟩
  | 103 => ⟨S128x256, .f32⟩
  | 104 => ⟨S128x256, .f32⟩
  | 105 => ⟨S128x256, .f32⟩
  | 106 => ⟨S128x256, .f32⟩
  | 107 => ⟨S128x256, .f32⟩
  | 108 => ⟨S128x256, .f32⟩
  | 109 => ⟨S128x256, .f32⟩
  | 110 => ⟨S128x256, .f32⟩
  | 111 => ⟨S128x256, .f32⟩
  | 112 => ⟨S128x256, .f32⟩
  | 113 => ⟨S128x256, .f32⟩
  | 114 => ⟨S128x256, .f32⟩
  | 115 => ⟨S128x256, .f32⟩
  | 116 => ⟨S128x256, .f32⟩
  | 117 => ⟨S128x256, .f32⟩
  | 118 => ⟨S128x256, .f32⟩
  | 119 => ⟨S128x256, .f32⟩
  | 120 => ⟨S128x256, .f32⟩
  | 121 => ⟨S128x256, .f32⟩
  | 122 => ⟨S128x256, .f32⟩
  | 123 => ⟨S128x256, .f32⟩
  | 124 => ⟨S128x256x1, .f32⟩
  | 125 => ⟨S128x1x256, .f32⟩
  | 126 => ⟨S128x1x256, .f32⟩
  | 127 => ⟨S1x1x256, .f32⟩
  | _ => ⟨S128x256, .f32⟩

abbrev hbmTy0_1 (i : Nat) : BufTy := match i % 128 with
  | 0 => ⟨S128x256x256, .f32⟩
  | 1 => ⟨S128x256x256, .f32⟩
  | 2 => ⟨S1x1x256, .f32⟩
  | 3 => ⟨S128x256x256, .f32⟩
  | 4 => ⟨S128x256x256, .f32⟩
  | 5 => ⟨S128x256x256, .f32⟩
  | 6 => ⟨S1x1x256, .f32⟩
  | 7 => ⟨S128x256x256, .f32⟩
  | 8 => ⟨S128x256x256, .f32⟩
  | 9 => ⟨S128x256x256, .f32⟩
  | 10 => ⟨S128x256x256, .f32⟩
  | 11 => ⟨S128x256x256, .f32⟩
  | 12 => ⟨S128x256x256, .f32⟩
  | 13 => ⟨S1x1x256, .f32⟩
  | 14 => ⟨S128x256x256, .f32⟩
  | 15 => ⟨S128x256x256, .f32⟩
  | 16 => ⟨S1x1x256, .f32⟩
  | 17 => ⟨S128x256x256, .f32⟩
  | 18 => ⟨S128x256x256, .f32⟩
  | 19 => ⟨S128x256x256, .f32⟩
  | 20 => ⟨S128x256x256, .f32⟩
  | 21 => ⟨S128x256x256, .f32⟩
  | 22 => ⟨S1x1x256, .f32⟩
  | 23 => ⟨S128x256x256, .f32⟩
  | 24 => ⟨S128x256x256, .f32⟩
  | 25 => ⟨S1x1x256, .f32⟩
  | 26 => ⟨S128x256x256, .f32⟩
  | 27 => ⟨S128x256x256, .f32⟩
  | 28 => ⟨S128x256x256, .f32⟩
  | 29 => ⟨S128x256x256, .f32⟩
  | 30 => ⟨S128x256x256, .f32⟩
  | 31 => ⟨S1x1x256, .f32⟩
  | 32 => ⟨S128x256x256, .f32⟩
  | 33 => ⟨S128x256x256, .f32⟩
  | 34 => ⟨S1x1x256, .f32⟩
  | 35 => ⟨S128x256x256, .f32⟩
  | 36 => ⟨S128x256x256, .f32⟩
  | 37 => ⟨S128x256x256, .f32⟩
  | 38 => ⟨S1x1x256, .f32⟩
  | 39 => ⟨S128x256x256, .f32⟩
  | 40 => ⟨S128x256x256, .f32⟩
  | 41 => ⟨S128x256x256, .f32⟩
  | 42 => ⟨S128x256x256, .f32⟩
  | 43 => ⟨S128x256x256, .f32⟩
  | 44 => ⟨S128x256x256, .f32⟩
  | _ => ⟨S128x256, .f32⟩

abbrev hbmTy (i : Nat) : BufTy := match i / 128 with
  | 0 => hbmTy0_0 i
  | 1 => hbmTy0_1 i
  | _ => ⟨S128x256, .f32⟩

abbrev bufTy : (tb : Table) → Fin (tcTables nBuf tb) → BufTy
  | .hbm, ⟨i, _⟩ => hbmTy i
  | _, _ => ⟨S128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_call0_cst : Ref sig .tc := ⟨.hbm, 46, rfl⟩
abbrev main_call0_v0 : Ref sig .tc := ⟨.hbm, 47, rfl⟩
abbrev main_v30 : Ref sig .tc := ⟨.hbm, 48, rfl⟩
abbrev main_call1_cst : Ref sig .tc := ⟨.hbm, 49, rfl⟩
abbrev main_call1_v0 : Ref sig .tc := ⟨.hbm, 50, rfl⟩
abbrev main_v31 : Ref sig .tc := ⟨.hbm, 51, rfl⟩
abbrev main_cst_0 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_1 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_v144 : Ref sig .tc := ⟨.hbm, 166, rfl⟩
abbrev main_v145 : Ref sig .tc := ⟨.hbm, 167, rfl⟩
abbrev main_v146 : Ref sig .tc := ⟨.hbm, 168, rfl⟩
abbrev main_v147 : Ref sig .tc := ⟨.hbm, 169, rfl⟩
abbrev main_v148 : Ref sig .tc := ⟨.hbm, 170, rfl⟩
abbrev main_v149 : Ref sig .tc := ⟨.hbm, 171, rfl⟩
abbrev main_v150 : Ref sig .tc := ⟨.hbm, 172, rfl⟩

abbrev nD : Nat := 1
abbrev τ : Topo := Topo.v7x

variable {F : FTy → Type} [FloatOps F]

class Facts₀ : Prop where
  bcast_S_S1x256 : S_.BroadcastsInDim S1x256 (![] : Fin 0 → Fin S1x256.rank)
  bcast_S1x256_S128x256_0_1 : S1x256.BroadcastsInDim S128x256 (![0, 1] : Fin 2 → Fin S128x256.rank)
  bcast_S_S128x256 : S_.BroadcastsInDim S128x256 (![] : Fin 0 → Fin S128x256.rank)
  bcast_S128x256_S128x256x1_0_1 : S128x256.BroadcastsInDim S128x256x1 (![0, 1] : Fin 2 → Fin S128x256x1.rank)
  bcast_S128x256_S128x1x256_0_2 : S128x256.BroadcastsInDim S128x1x256 (![0, 2] : Fin 2 → Fin S128x1x256.rank)
  bcast_S1x256_S1x1x256_1_2 : S1x256.BroadcastsInDim S1x1x256 (![1, 2] : Fin 2 → Fin S1x1x256.rank)
  bcast_S1x1x256_S128x256x256_0_1_2 : S1x1x256.BroadcastsInDim S128x256x256 (![0, 1, 2] : Fin 3 → Fin S128x256x256.rank)
  bcast_S128x256x1_S128x256x256_0_1_2 : S128x256x1.BroadcastsInDim S128x256x256 (![0, 1, 2] : Fin 3 → Fin S128x256x256.rank)
  bcast_S128x1x256_S128x256x256_0_1_2 : S128x1x256.BroadcastsInDim S128x256x256 (![0, 1, 2] : Fin 3 → Fin S128x256x256.rank)
  dot_S128x256_S256x256_S128x256_1_0_0_1_n_n_wf : DotDims.WF S128x256 S256x256 S128x256 [1] [0] [0] [1] [] []

variable [Facts₀]

def dot_S128x256_S256x256_S128x256_1_0_0_1_n_n : DotDims S128x256 S256x256 S128x256 where
  lhsContracting := [1]
  rhsContracting := [0]
  lhsNonContracting := [0]
  rhsNonContracting := [1]
  lhsBatch := []
  rhsBatch := []
  wf := dot_S128x256_S256x256_S128x256_1_0_0_1_n_n_wf

class Facts : Prop extends Facts₀ where

variable [Facts]
-- ==== Proof.KernelBlocks.lean ====
/-
  The blocks the body is handed at a grid point, read off the argument arrays. Eleven operands — the input, the old
  state, the four parameter traces, the two parameter rows and the two weight matrices — are staged whole at every point:
  their block IS the array. The four input-weight traces `[128, 256, 256]` are staged 16 features at a time: point `t`'s
  block is the tile of features `16·t … 16·t + 15`. The body also reads, out of the whole input, the 16 features of its
  own point.
-/
import proofs.«131562_j54863912239692_2_alg».proof.Proof.Gen.KernelIdeal.Frame
import Idealize.ShloMosaic.Lib.Pipeline.Value
import Idealize.ShloMosaic.Lib.ValueIdx

set_option maxRecDepth 16384

noncomputable section

namespace Cert.KernelBlocks

open Cert.KernelIdeal Cert.KernelIdeal.Gen Idealize.ShloMosaic Idealize.ShloMosaic.TcCoe Idealize.SL.Sem Idealize.ShloMosaic.ValueIdx

variable {F : FTy → Type} [FloatOps F]
variable (m : (ℓ : Loc nD τ sig) → Buf (Elt F) ℓ)

/-- The grid has 16 points. -/
theorem lt16 (t : Fin cfg0.N) : t.val < 16 := by
  have h := t.isLt
  have hN : cfg0.N = 16 := N_0
  omega

/-- A point's one coordinate is its number. -/
theorem coord_val : ∀ t : Fin cfg0.N, (grid0.coords t 0).val = t.val :=
  (by decide +kernel : ∀ t : Fin grid0.N, (grid0.coords t 0).val = t.val)

/-- Window 0's block index is `(0, 0)` at every point. -/
theorem idx_0 : ∀ t : Fin cfg0.N, win0_0.index t (0 : Fin 2) = 0 ∧ win0_0.index t (1 : Fin 2) = 0 :=
  (by decide +kernel : ∀ t : Fin grid0.N, win0_0.index t (0 : Fin 2) = 0 ∧ win0_0.index t (1 : Fin 2) = 0)

/-- Window 1's block index is `(0, 0)` at every point. -/
theorem idx_1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)

/-- Window 2's block index is `(0, 0)` at every point. -/
theorem idx_2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

/-- Window 3's block index is `(0, 0)` at every point. -/
theorem idx_3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)

/-- Window 4's block index is `(0, 0)` at every point. -/
theorem idx_4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

/-- Window 5's block index is `(0, 0)` at every point. -/
theorem idx_5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)

/-- Window 6's block index is `(0, 0)` at every point. -/
theorem idx_6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)

/-- Window 7's block index is `(0, 0)` at every point. -/
theorem idx_7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)

/-- Window 8's block index is `(0, 0)` at every point. -/
theorem idx_8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)

/-- Window 9's block index is `(0, 0)` at every point. -/
theorem idx_9 : ∀ t : Fin cfg0.N, win0_9.index t (0 : Fin 2) = 0 ∧ win0_9.index t (1 : Fin 2) = 0 :=
  (by decide +kernel : ∀ t : Fin grid0.N, win0_9.index t (0 : Fin 2) = 0 ∧ win0_9.index t (1 : Fin 2) = 0)

/-- Window 10's block index is `(0, 0)` at every point. -/
theorem idx_10 : ∀ t : Fin cfg0.N, win0_10.index t (0 : Fin 2) = 0 ∧ win0_10.index t (1 : Fin 2) = 0 :=
  (by decide +kernel : ∀ t : Fin grid0.N, win0_10.index t (0 : Fin 2) = 0 ∧ win0_10.index t (1 : Fin 2) = 0)

/-- Window 11's block index is `(0, t, 0)` at point `t`. -/
theorem idx_11 : ∀ t : Fin cfg0.N, win0_11.index t (0 : Fin 3) = 0 ∧ win0_11.index t (1 : Fin 3) = t.val ∧ win0_11.index t (2 : Fin 3) = 0 :=
  (by decide +kernel : ∀ t : Fin grid0.N, win0_11.index t (0 : Fin 3) = 0 ∧ win0_11.index t (1 : Fin 3) = t.val ∧ win0_11.index t (2 : Fin 3) = 0)

/-- Window 12's block index is `(0, t, 0)` at point `t`. -/
theorem idx_12 : ∀ t : Fin cfg0.N, win0_12.index t (0 : Fin 3) = 0 ∧ win0_12.index t (1 : Fin 3) = t.val ∧ win0_12.index t (2 : Fin 3) = 0 :=
  (by decide +kernel : ∀ t : Fin grid0.N, win0_12.index t (0 : Fin 3) = 0 ∧ win0_12.index t (1 : Fin 3) = t.val ∧ win0_12.index t (2 : Fin 3) = 0)

/-- Window 13's block index is `(0, t, 0)` at point `t`. -/
theorem idx_13 : ∀ t : Fin cfg0.N, win0_13.index t (0 : Fin 3) = 0 ∧ win0_13.index t (1 : Fin 3) = t.val ∧ win0_13.index t (2 : Fin 3) = 0 :=
  (by decide +kernel : ∀ t : Fin grid0.N, win0_13.index t (0 : Fin 3) = 0 ∧ win0_13.index t (1 : Fin 3) = t.val ∧ win0_13.index t (2 : Fin 3) = 0)

/-- Window 14's block index is `(0, t, 0)` at point `t`. -/
theorem idx_14 : ∀ t : Fin cfg0.N, win0_14.index t (0 : Fin 3) = 0 ∧ win0_14.index t (1 : Fin 3) = t.val ∧ win0_14.index t (2 : Fin 3) = 0 :=
  (by decide +kernel : ∀ t : Fin grid0.N, win0_14.index t (0 : Fin 3) = 0 ∧ win0_14.index t (1 : Fin 3) = t.val ∧ win0_14.index t (2 : Fin 3) = 0)

/-- Window 0 is staged whole: its block at any point is the array `main_arg0` as launched. -/
theorem block_0 (c : Dev nD) (t : Fin cfg0.N) :
    (iblk m c 0 t : Vec F S128x256 .f32) = (m ((c : Thread nD τ).loc main_arg0) : S128x256.Idx → Elt F .f32) := by
  funext y
  obtain ⟨e0, e1⟩ := idx_0 t
  unfold iblk
  rw [View.read_apply]
  show V m c main_arg0 _ = m ((c : Thread nD τ).loc main_arg0) y
  rw [V_main_arg0]
  refine congrArg _ (funext fun a => Fin.ext ?_)
  match a with
  | ⟨0, _⟩ => show win0_0.index t (0 : Fin 2) * 128 + 1 * (y 0).val = (y 0).val; rw [e0]; omega
  | ⟨1, _⟩ => show win0_0.index t (1 : Fin 2) * 256 + 1 * (y 1).val = (y 1).val; rw [e1]; omega

/-- Window 1 is staged whole: its block at any point is the array `main_arg1` as launched. -/
theorem block_1 (c : Dev nD) (t : Fin cfg0.N) :
    (iblk m c 1 t : Vec F S128x256 .f32) = (m ((c : Thread nD τ).loc main_arg1) : S128x256.Idx → Elt F .f32) := by
  funext y
  obtain ⟨e0, e1⟩ := idx_1 t
  unfold iblk
  rw [View.read_apply]
  show V m c main_arg1 _ = m ((c : Thread nD τ).loc main_arg1) y
  rw [V_main_arg1]
  refine congrArg _ (funext fun a => Fin.ext ?_)
  match a with
  | ⟨0, _⟩ => show win0_1.index t (0 : Fin 2) * 128 + 1 * (y 0).val = (y 0).val; rw [e0]; omega
  | ⟨1, _⟩ => show win0_1.index t (1 : Fin 2) * 256 + 1 * (y 1).val = (y 1).val; rw [e1]; omega

/-- Window 2 is staged whole: its block at any point is the array `main_arg2` as launched. -/
theorem block_2 (c : Dev nD) (t : Fin cfg0.N) :
    (iblk m c 2 t : Vec F S128x256 .f32) = (m ((c : Thread nD τ).loc main_arg2) : S128x256.Idx → Elt F .f32) := by
  funext y
  obtain ⟨e0, e1⟩ := idx_2 t
  unfold iblk
  rw [View.read_apply]
  show V m c main_arg2 _ = m ((c : Thread nD τ).loc main_arg2) y
  rw [V_main_arg2]
  refine congrArg _ (funext fun a => Fin.ext ?_)
  match a with
  | ⟨0, _⟩ => show win0_2.index t (0 : Fin 2) * 128 + 1 * (y 0).val = (y 0).val; rw [e0]; omega
  | ⟨1, _⟩ => show win0_2.index t (1 : Fin 2) * 256 + 1 * (y 1).val = (y 1).val; rw [e1]; omega

/-- Window 3 is staged whole: its block at any point is the array `main_arg3` as launched. -/
theorem block_3 (c : Dev nD) (t : Fin cfg0.N) :
    (iblk m c 3 t : Vec F S128x256 .f32) = (m ((c : Thread nD τ).loc main_arg3) : S128x256.Idx → Elt F .f32) := by
  funext y
  obtain ⟨e0, e1⟩ := idx_3 t
  unfold iblk
  rw [View.read_apply]
  show V m c main_arg3 _ = m ((c : Thread nD τ).loc main_arg3) y
  rw [V_main_arg3]
  refine congrArg _ (funext fun a => Fin.ext ?_)
  match a with
  | ⟨0, _⟩ => show win0_3.index t (0 : Fin 2) * 128 + 1 * (y 0).val = (y 0).val; rw [e0]; omega
  | ⟨1, _⟩ => show win0_3.index t (1 : Fin 2) * 256 + 1 * (y 1).val = (y 1).val; rw [e1]; omega

/-- Window 4 is staged whole: its block at any point is the array `main_arg4` as launched. -/
theorem block_4 (c : Dev nD) (t : Fin cfg0.N) :
    (iblk m c 4 t : Vec F S128x256 .f32) = (m ((c : Thread nD τ).loc main_arg4) : S128x256.Idx → Elt F .f32) := by
  funext y
  obtain ⟨e0, e1⟩ := idx_4 t
  unfold iblk
  rw [View.read_apply]
  show V m c main_arg4 _ = m ((c : Thread nD τ).loc main_arg4) y
  rw [V_main_arg4]
  refine congrArg _ (funext fun a => Fin.ext ?_)
  match a with
  | ⟨0, _⟩ => show win0_4.index t (0 : Fin 2) * 128 + 1 * (y 0).val = (y 0).val; rw [e0]; omega
  | ⟨1, _⟩ => show win0_4.index t (1 : Fin 2) * 256 + 1 * (y 1).val = (y 1).val; rw [e1]; omega

/-- Window 5 is staged whole: its block at any point is the array `main_arg5` as launched. -/
theorem block_5 (c : Dev nD) (t : Fin cfg0.N) :
    (iblk m c 5 t : Vec F S128x256 .f32) = (m ((c : Thread nD τ).loc main_arg5) : S128x256.Idx → Elt F .f32) := by
  funext y
  obtain ⟨e0, e1⟩ := idx_5 t
  unfold iblk
  rw [View.read_apply]
  show V m c main_arg5 _ = m ((c : Thread nD τ).loc main_arg5) y
  rw [V_main_arg5]
  refine congrArg _ (funext fun a => Fin.ext ?_)
  match a with
  | ⟨0, _⟩ => show win0_5.index t (0 : Fin 2) * 128 + 1 * (y 0).val = (y 0).val; rw [e0]; omega
  | ⟨1, _⟩ => show win0_5.index t (1 : Fin 2) * 256 + 1 * (y 1).val = (y 1).val; rw [e1]; omega

/-- Window 6 is staged whole: its block at any point is the array `main_arg6` as launched. -/
theorem block_6 (c : Dev nD) (t : Fin cfg0.N) :
    (iblk m c 6 t : Vec F S128x256 .f32) = (m ((c : Thread nD τ).loc main_arg6) : S128x256.Idx → Elt F .f32) := by
  funext y
  obtain ⟨e0, e1⟩ := idx_6 t
  unfold iblk
  rw [View.read_apply]
  show V m c main_arg6 _ = m ((c : Thread nD τ).loc main_arg6) y
  rw [V_main_arg6]
  refine congrArg _ (funext fun a => Fin.ext ?_)
  match a with
  | ⟨0, _⟩ => show win0_6.index t (0 : Fin 2) * 128 + 1 * (y 0).val = (y 0).val; rw [e0]; omega
  | ⟨1, _⟩ => show win0_6.index t (1 : Fin 2) * 256 + 1 * (y 1).val = (y 1).val; rw [e1]; omega

/-- Window 7 is staged whole: its block at any point is the array `main_arg11` as launched. -/
theorem block_7 (c : Dev nD) (t : Fin cfg0.N) :
    (iblk m c 7 t : Vec F S1x256 .f32) = (m ((c : Thread nD τ).loc main_arg11) : S1x256.Idx → Elt F .f32) := by
  funext y
  obtain ⟨e0, e1⟩ := idx_7 t
  unfold iblk
  rw [View.read_apply]
  show V m c main_arg11 _ = m ((c : Thread nD τ).loc main_arg11) y
  rw [V_main_arg11]
  refine congrArg _ (funext fun a => Fin.ext ?_)
  match a with
  | ⟨0, _⟩ => show win0_7.index t (0 : Fin 2) * 1 + 1 * (y 0).val = (y 0).val; rw [e0]; omega
  | ⟨1, _⟩ => show win0_7.index t (1 : Fin 2) * 256 + 1 * (y 1).val = (y 1).val; rw [e1]; omega

/-- Window 8 is staged whole: its block at any point is the array `main_arg12` as launched. -/
theorem block_8 (c : Dev nD) (t : Fin cfg0.N) :
    (iblk m c 8 t : Vec F S1x256 .f32) = (m ((c : Thread nD τ).loc main_arg12) : S1x256.Idx → Elt F .f32) := by
  funext y
  obtain ⟨e0, e1⟩ := idx_8 t
  unfold iblk
  rw [View.read_apply]
  show V m c main_arg12 _ = m ((c : Thread nD τ).loc main_arg12) y
  rw [V_main_arg12]
  refine congrArg _ (funext fun a => Fin.ext ?_)
  match a with
  | ⟨0, _⟩ => show win0_8.index t (0 : Fin 2) * 1 + 1 * (y 0).val = (y 0).val; rw [e0]; omega
  | ⟨1, _⟩ => show win0_8.index t (1 : Fin 2) * 256 + 1 * (y 1).val = (y 1).val; rw [e1]; omega

/-- Window 9 is staged whole: its block at any point is the array `main_arg13` as launched. -/
theorem block_9 (c : Dev nD) (t : Fin cfg0.N) :
    (iblk m c 9 t : Vec F S256x256 .f32) = (m ((c : Thread nD τ).loc main_arg13) : S256x256.Idx → Elt F .f32) := by
  funext y
  obtain ⟨e0, e1⟩ := idx_9 t
  unfold iblk
  rw [View.read_apply]
  show V m c main_arg13 _ = m ((c : Thread nD τ).loc main_arg13) y
  rw [V_main_arg13]
  refine congrArg _ (funext fun a => Fin.ext ?_)
  match a with
  | ⟨0, _⟩ => show win0_9.index t (0 : Fin 2) * 256 + 1 * (y 0).val = (y 0).val; rw [e0]; omega
  | ⟨1, _⟩ => show win0_9.index t (1 : Fin 2) * 256 + 1 * (y 1).val = (y 1).val; rw [e1]; omega

/-- Window 10 is staged whole: its block at any point is the array `main_arg14` as launched. -/
theorem block_10 (c : Dev nD) (t : Fin cfg0.N) :
    (iblk m c 10 t : Vec F S256x256 .f32) = (m ((c : Thread nD τ).loc main_arg14) : S256x256.Idx → Elt F .f32) := by
  funext y
  obtain ⟨e0, e1⟩ := idx_10 t
  unfold iblk
  rw [View.read_apply]
  show V m c main_arg14 _ = m ((c : Thread nD τ).loc main_arg14) y
  rw [V_main_arg14]
  refine congrArg _ (funext fun a => Fin.ext ?_)
  match a with
  | ⟨0, _⟩ => show win0_10.index t (0 : Fin 2) * 256 + 1 * (y 0).val = (y 0).val; rw [e0]; omega
  | ⟨1, _⟩ => show win0_10.index t (1 : Fin 2) * 256 + 1 * (y 1).val = (y 1).val; rw [e1]; omega

/-- Window 11 is staged 16 features at a time: its block at point `t` reads `main_arg7` as launched at feature `16·t + ·`. -/
theorem block_11 (c : Dev nD) (t : Fin cfg0.N) :
    (iblk m c 11 t : Vec F S128x16x256 .f32) = fun y => (m ((c : Thread nD τ).loc main_arg7) : S128x256x256.Idx → Elt F .f32)
      (ix3 (y 0) (⟨16 * t.val + (y 1).val, by have h : (y 1).val < 16 := (y 1).isLt; have := lt16 t; omega⟩ : Fin 256) (y 2)) := by
  funext y
  obtain ⟨e0, e1, e2⟩ := idx_11 t
  unfold iblk
  rw [View.read_apply]
  show V m c main_arg7 _ = m ((c : Thread nD τ).loc main_arg7) _
  rw [V_main_arg7]
  refine congrArg _ (funext fun a => Fin.ext ?_)
  match a with
  | ⟨0, _⟩ => show win0_11.index t (0 : Fin 3) * 128 + 1 * (y 0).val = (y 0).val; rw [e0]; omega
  | ⟨1, _⟩ => show win0_11.index t (1 : Fin 3) * 16 + 1 * (y 1).val = 16 * t.val + (y 1).val; rw [e1]; omega
  | ⟨2, _⟩ => show win0_11.index t (2 : Fin 3) * 256 + 1 * (y 2).val = (y 2).val; rw [e2]; omega

/-- Window 12 is staged 16 features at a time: its block at point `t` reads `main_arg8` as launched at feature `16·t + ·`. -/
theorem block_12 (c : Dev nD) (t : Fin cfg0.N) :
    (iblk m c 12 t : Vec F S128x16x256 .f32) = fun y => (m ((c : Thread nD τ).loc main_arg8) : S128x256x256.Idx → Elt F .f32)
      (ix3 (y 0) (⟨16 * t.val + (y 1).val, by have h : (y 1).val < 16 := (y 1).isLt; have := lt16 t; omega⟩ : Fin 256) (y 2)) := by
  funext y
  obtain ⟨e0, e1, e2⟩ := idx_12 t
  unfold iblk
  rw [View.read_apply]
  show V m c main_arg8 _ = m ((c : Thread nD τ).loc main_arg8) _
  rw [V_main_arg8]
  refine congrArg _ (funext fun a => Fin.ext ?_)
  match a with
  | ⟨0, _⟩ => show win0_12.index t (0 : Fin 3) * 128 + 1 * (y 0).val = (y 0).val; rw [e0]; omega
  | ⟨1, _⟩ => show win0_12.index t (1 : Fin 3) * 16 + 1 * (y 1).val = 16 * t.val + (y 1).val; rw [e1]; omega
  | ⟨2, _⟩ => show win0_12.index t (2 : Fin 3) * 256 + 1 * (y 2).val = (y 2).val; rw [e2]; omega

/-- Window 13 is staged 16 features at a time: its block at point `t` reads `main_arg9` as launched at feature `16·t + ·`. -/
theorem block_13 (c : Dev nD) (t : Fin cfg0.N) :
    (iblk m c 13 t : Vec F S128x16x256 .f32) = fun y => (m ((c : Thread nD τ).loc main_arg9) : S128x256x256.Idx → Elt F .f32)
      (ix3 (y 0) (⟨16 * t.val + (y 1).val, by have h : (y 1).val < 16 := (y 1).isLt; have := lt16 t; omega⟩ : Fin 256) (y 2)) := by
  funext y
  obtain ⟨e0, e1, e2⟩ := idx_13 t
  unfold iblk
  rw [View.read_apply]
  show V m c main_arg9 _ = m ((c : Thread nD τ).loc main_arg9) _
  rw [V_main_arg9]
  refine congrArg _ (funext fun a => Fin.ext ?_)
  match a with
  | ⟨0, _⟩ => show win0_13.index t (0 : Fin 3) * 128 + 1 * (y 0).val = (y 0).val; rw [e0]; omega
  | ⟨1, _⟩ => show win0_13.index t (1 : Fin 3) * 16 + 1 * (y 1).val = 16 * t.val + (y 1).val; rw [e1]; omega
  | ⟨2, _⟩ => show win0_13.index t (2 : Fin 3) * 256 + 1 * (y 2).val = (y 2).val; rw [e2]; omega

/-- Window 14 is staged 16 features at a time: its block at point `t` reads `main_arg10` as launched at feature `16·t + ·`. -/
theorem block_14 (c : Dev nD) (t : Fin cfg0.N) :
    (iblk m c 14 t : Vec F S128x16x256 .f32) = fun y => (m ((c : Thread nD τ).loc main_arg10) : S128x256x256.Idx → Elt F .f32)
      (ix3 (y 0) (⟨16 * t.val + (y 1).val, by have h : (y 1).val < 16 := (y 1).isLt; have := lt16 t; omega⟩ : Fin 256) (y 2)) := by
  funext y
  obtain ⟨e0, e1, e2⟩ := idx_14 t
  unfold iblk
  rw [View.read_apply]
  show V m c main_arg10 _ = m ((c : Thread nD τ).loc main_arg10) _
  rw [V_main_arg10]
  refine congrArg _ (funext fun a => Fin.ext ?_)
  match a with
  | ⟨0, _⟩ => show win0_14.index t (0 : Fin 3) * 128 + 1 * (y 0).val = (y 0).val; rw [e0]; omega
  | ⟨1, _⟩ => show win0_14.index t (1 : Fin 3) * 16 + 1 * (y 1).val = 16 * t.val + (y 1).val; rw [e1]; omega
  | ⟨2, _⟩ => show win0_14.index t (2 : Fin 3) * 256 + 1 * (y 2).val = (y 2).val; rw [e2]; omega

/-- The 16 features of the input the body reads at point `t`: features `16·t … 16·t + 15` of the whole input. -/
theorem input_slice (x : Vec F S128x256 .f32) (t : Fin cfg0.N) :
    View.ld x (Rect.unit (s := S128x256) (k0_off1 (grid0.coords t)) S128x16.size (k0_off1_inb (grid0.coords t)))
      = fun y : S128x16.Idx => x (ix2 (y 0) (⟨16 * t.val + (y 1).val, by have h : (y 1).val < 16 := (y 1).isLt; have := lt16 t; omega⟩ : Fin 256)) := by
  funext y
  show x _ = x _
  refine congrArg x (funext fun a => Fin.ext ?_)
  have h0 : (k0_off1 (grid0.coords t)) 0 = 0 := by rw [k0_off1_eq]; rfl
  have h1 : (k0_off1 (grid0.coords t)) 1 = 16 * t.val := by
    rw [k0_off1_eq]; show 16 * (grid0.coords t 0).val = 16 * t.val; rw [coord_val t]
  match a with
  | ⟨0, _⟩ => show (k0_off1 (grid0.coords t)) 0 + 1 * (y 0).val = (y 0).val; omega
  | ⟨1, _⟩ => show (k0_off1 (grid0.coords t)) 1 + 1 * (y 1).val = 16 * t.val + (y 1).val; omega

end Cert.KernelBlocks

end
-- ==== Proof.Quantities.lean ====
/-
  The quantities of one step of the recurrence, as whole vectors, under the names of the mathematics. The hidden state
  is a pair `(h1, h2)` per batch row and hidden unit, driven through a complex pole `g + i·φ` of modulus
  `r = exp(−exp ρ)` and angle `θ = exp ϑ` (`ρ`, `ϑ` the two parameter rows), with input normalisation `n = √(1 − r²)`:
      c1 = g·h1 − φ·h2 + n·(x·W1),      c2 = g·h2 + φ·h1 + n·(x·W2),
  the new state `max(c, 0)`, the activity indicator `[c > 0]`, and the four traces of the parameters. Each name below is
  the body's own term for the quantity (a definition of the generated skeleton), so a statement about the kernel's stores
  and a statement about the reference's stages can both be made in these words.
-/
import proofs.«131562_j54863912239692_2_alg».proof.Proof.Gen.KernelIdeal.Skeleton

noncomputable section

namespace Cert.Step

open Cert.KernelIdeal Cert.KernelIdeal.Gen Idealize.ShloMosaic

variable {F : FTy → Type} [FloatOps F]

/-- `exp ρ`. -/
abbrev expRho (rp : Vec F S1x256 .f32) : FVec F S1x256 .f32 := k0_pay3 rp
/-- The pole's modulus `r = exp(−exp ρ)`, the negation written `0 − ·`. -/
abbrev modulus (rp : Vec F S1x256 .f32) : FVec F S1x256 .f32 := k0_pay4 rp
/-- The pole's angle `θ = exp ϑ`. -/
abbrev angle (thp : Vec F S1x256 .f32) : FVec F S1x256 .f32 := k0_pay5 thp
/-- The pole's real part `g = r·cos θ`. -/
abbrev poleRe (rp thp : Vec F S1x256 .f32) : FVec F S1x256 .f32 := k0_pay6 rp thp
/-- The pole's imaginary part `φ = r·sin θ`. -/
abbrev poleIm (rp thp : Vec F S1x256 .f32) : FVec F S1x256 .f32 := k0_pay7 rp thp
/-- The input normalisation `n = √(1 − r·r)`. -/
abbrev inNorm (rp : Vec F S1x256 .f32) : FVec F S1x256 .f32 := k0_pay8 rp
/-- The input through the first weight matrix, `x·W1`. -/
abbrev drive1 (x : Vec F S128x256 .f32) (wx1 : Vec F S256x256 .f32) : FVec F S128x256 .f32 := k0_pay9 x wx1
/-- The input through the second weight matrix, `x·W2`. -/
abbrev drive2 (x : Vec F S128x256 .f32) (wx2 : Vec F S256x256 .f32) : FVec F S128x256 .f32 := k0_pay10 x wx2
/-- `c1 = g·h1 − φ·h2 + n·(x·W1)`. -/
abbrev pre1 (rp thp : Vec F S1x256 .f32) (x : Vec F S128x256 .f32) (wx1 : Vec F S256x256 .f32) (h1 h2 : Vec F S128x256 .f32) :
    FVec F S128x256 .f32 := k0_pay11 rp thp x wx1 h1 h2
/-- `c2 = g·h2 + φ·h1 + n·(x·W2)`. -/
abbrev pre2 (rp thp : Vec F S1x256 .f32) (x : Vec F S128x256 .f32) (wx2 : Vec F S256x256 .f32) (h1 h2 : Vec F S128x256 .f32) :
    FVec F S128x256 .f32 := k0_pay12 rp thp x wx2 h1 h2
/-- The new first state `max(c1, 0)`. -/
abbrev post1 (rp thp : Vec F S1x256 .f32) (x : Vec F S128x256 .f32) (wx1 : Vec F S256x256 .f32) (h1 h2 : Vec F S128x256 .f32) :
    FVec F S128x256 .f32 := k0_pay13 rp thp x wx1 h1 h2
/-- The new second state `max(c2, 0)`. -/
abbrev post2 (rp thp : Vec F S1x256 .f32) (x : Vec F S128x256 .f32) (wx2 : Vec F S256x256 .f32) (h1 h2 : Vec F S128x256 .f32) :
    FVec F S128x256 .f32 := k0_pay14 (pre2 rp thp x wx2 h1 h2)
/-- The indicator `[c1 > 0]` as 0 or 1. -/
abbrev act1 (rp thp : Vec F S1x256 .f32) (x : Vec F S128x256 .f32) (wx1 : Vec F S256x256 .f32) (h1 h2 : Vec F S128x256 .f32) :
    FVec F S128x256 .f32 := k0_pay15 (pre1 rp thp x wx1 h1 h2)
/-- The indicator `[c2 > 0]` as 0 or 1. -/
abbrev act2 (rp thp : Vec F S1x256 .f32) (x : Vec F S128x256 .f32) (wx2 : Vec F S256x256 .f32) (h1 h2 : Vec F S128x256 .f32) :
    FVec F S128x256 .f32 := k0_pay16 (pre2 rp thp x wx2 h1 h2)
/-- `∂g/∂ρ = −exp ρ · g`. -/
abbrev dRe_dRho (rp thp : Vec F S1x256 .f32) : FVec F S1x256 .f32 := k0_pay17 (expRho rp) (poleRe rp thp)
/-- `∂φ/∂ρ = −exp ρ · φ`. -/
abbrev dIm_dRho (rp thp : Vec F S1x256 .f32) : FVec F S1x256 .f32 := k0_pay18 (expRho rp) (poleIm rp thp)
/-- `∂g/∂ϑ = −θ·φ`. -/
abbrev dRe_dTheta (rp thp : Vec F S1x256 .f32) : FVec F S1x256 .f32 := k0_pay19 (angle thp) (poleIm rp thp)
/-- `∂φ/∂ϑ = θ·g`. -/
abbrev dIm_dTheta (rp thp : Vec F S1x256 .f32) : FVec F S1x256 .f32 := k0_pay20 (angle thp) (poleRe rp thp)
/-- `∂n/∂ρ = exp ρ · (r·r) / n`. -/
abbrev dNorm_dRho (rp : Vec F S1x256 .f32) : FVec F S1x256 .f32 := k0_pay21 (expRho rp) (modulus rp) (inNorm rp)

/-- The trace of `c1` with respect to `ρ`:
    `[c1 > 0] · (∂g/∂ρ·h1 + g·T0 − ∂φ/∂ρ·h2 − φ·T1 + ∂n/∂ρ·(x·W1))`. -/
abbrev trace0 (rp thp : Vec F S1x256 .f32) (x : Vec F S128x256 .f32) (wx1 : Vec F S256x256 .f32)
    (h1 h2 t0 t1 : Vec F S128x256 .f32) : FVec F S128x256 .f32 :=
  k0_pay22 (expRho rp) (modulus rp) (poleRe rp thp) (poleIm rp thp) (inNorm rp) (drive1 x wx1) h1 h2 (pre1 rp thp x wx1 h1 h2) t0 t1
/-- The trace of `c2` with respect to `ρ`:
    `[c2 > 0] · (∂g/∂ρ·h2 + g·T1 + ∂φ/∂ρ·h1 + φ·T0 + ∂n/∂ρ·(x·W2))`. -/
abbrev trace1 (rp thp : Vec F S1x256 .f32) (x : Vec F S128x256 .f32) (wx2 : Vec F S256x256 .f32)
    (h1 h2 t0 t1 : Vec F S128x256 .f32) : FVec F S128x256 .f32 :=
  k0_pay25 (poleIm rp thp) (drive2 x wx2) h1 (act2 rp thp x wx2 h1 h2) (dIm_dRho rp thp) (dNorm_dRho rp) t0
    (k0_pay23 (expRho rp) (poleRe rp thp) h2) (k0_pay24 (poleRe rp thp) t1)
/-- The trace of `c1` with respect to `ϑ`: `[c1 > 0] · (∂g/∂ϑ·h1 + g·T2 − ∂φ/∂ϑ·h2 − φ·T3)`. -/
abbrev trace2 (rp thp : Vec F S1x256 .f32) (x : Vec F S128x256 .f32) (wx1 : Vec F S256x256 .f32)
    (h1 h2 t2 t3 : Vec F S128x256 .f32) : FVec F S128x256 .f32 :=
  k0_pay26 (poleRe rp thp) (poleIm rp thp) h1 h2 (act1 rp thp x wx1 h1 h2) (dRe_dTheta rp thp) (dIm_dTheta rp thp) t2 t3
/-- The trace of `c2` with respect to `ϑ`: `[c2 > 0] · (∂g/∂ϑ·h2 + g·T3 + ∂φ/∂ϑ·h1 + φ·T2)`. -/
abbrev trace3 (rp thp : Vec F S1x256 .f32) (x : Vec F S128x256 .f32) (wx2 : Vec F S256x256 .f32)
    (h1 h2 t2 t3 : Vec F S128x256 .f32) : FVec F S128x256 .f32 :=
  k0_pay27 (poleRe rp thp) (poleIm rp thp) h1 h2 (act2 rp thp x wx2 h1 h2) (dRe_dTheta rp thp) (dIm_dTheta rp thp) t2 t3

end Cert.Step

end
-- ==== Proof.KernelStores.lean ====
/-
  What the body leaves in each of the six `[128, 256]` outputs at a grid point, as a function of the blocks it loaded:
  the body stores each of them once, whole, and the stored value is the step's quantity of that name — the two new states
  and the four parameter traces — of the whole parameter rows, input, weights, old state and old traces.
-/
import proofs.«131562_j54863912239692_2_alg».proof.Proof.Gen.KernelIdeal.Frame
import proofs.«131562_j54863912239692_2_alg».proof.Proof.Quantities
import Idealize.ShloMosaic.Lib.Pipeline.Value

set_option maxRecDepth 16384

noncomputable section

namespace Cert.KernelStores

open Cert.KernelIdeal Cert.KernelIdeal.Gen Cert.Step Idealize.ShloMosaic Idealize.ShloMosaic.TcCoe Idealize.SL.Sem Idealize.ShloMosaic.Tactic

variable {F : FTy → Type} [FloatOps F]

theorem hz2 : (![0, 0] : Fin 2 → Nat) = fun _ => 0 := funext fun a => by fin_cases a <;> rfl

/-- The first output holds the new first state `max(c1, 0)`. -/
theorem store_post1 (c : Dev nD) (i : grid0.Coords) (a1 : Memref sig .tc .vmem S128x256 .f32) (h1 : a1.IsWhole) (a2 : Memref sig .tc .vmem S128x256 .f32) (h2 : a2.IsWhole) (a3 : Memref sig .tc .vmem S128x256 .f32) (h3 : a3.IsWhole) (a4 : Memref sig .tc .vmem S128x256 .f32) (h4 : a4.IsWhole) (a5 : Memref sig .tc .vmem S128x256 .f32) (h5 : a5.IsWhole) (a6 : Memref sig .tc .vmem S128x256 .f32) (h6 : a6.IsWhole) (a7 : Memref sig .tc .vmem S128x256 .f32) (h7 : a7.IsWhole) (a8 : Memref sig .tc .vmem S1x256 .f32) (h8 : a8.IsWhole) (a9 : Memref sig .tc .vmem S1x256 .f32) (h9 : a9.IsWhole) (a10 : Memref sig .tc .vmem S256x256 .f32) (h10 : a10.IsWhole) (a11 : Memref sig .tc .vmem S256x256 .f32) (h11 : a11.IsWhole) (a12 : Memref sig .tc .vmem S128x16x256 .f32) (h12 : a12.IsWhole) (a13 : Memref sig .tc .vmem S128x16x256 .f32) (h13 : a13.IsWhole) (a14 : Memref sig .tc .vmem S128x16x256 .f32) (h14 : a14.IsWhole) (a15 : Memref sig .tc .vmem S128x16x256 .f32) (h15 : a15.IsWhole) (a16 : Memref sig .tc .vmem S128x256 .f32) (h16 : a16.IsWhole) (a17 : Memref sig .tc .vmem S128x256 .f32) (h17 : a17.IsWhole) (a18 : Memref sig .tc .vmem S128x256 .f32) (h18 : a18.IsWhole) (a19 : Memref sig .tc .vmem S128x256 .f32) (h19 : a19.IsWhole) (a20 : Memref sig .tc .vmem S128x256 .f32) (h20 : a20.IsWhole) (a21 : Memref sig .tc .vmem S128x256 .f32) (h21 : a21.IsWhole) (a22 : Memref sig .tc .vmem S128x16x256 .f32) (h22 : a22.IsWhole) (a23 : Memref sig .tc .vmem S128x16x256 .f32) (h23 : a23.IsWhole) (a24 : Memref sig .tc .vmem S128x16x256 .f32) (h24 : a24.IsWhole) (a25 : Memref sig .tc .vmem S128x16x256 .f32) (h25 : a25.IsWhole)
    (x0 : Vec F S128x256 .f32) (x1 : Vec F S128x256 .f32) (x2 : Vec F S128x256 .f32) (x3 : Vec F S128x256 .f32) (x4 : Vec F S128x256 .f32) (x5 : Vec F S128x256 .f32) (x6 : Vec F S128x256 .f32) (x7 : Vec F S1x256 .f32) (x8 : Vec F S1x256 .f32) (x9 : Vec F S256x256 .f32) (x10 : Vec F S256x256 .f32) (x11 : Vec F S128x16x256 .f32) (x12 : Vec F S128x16x256 .f32) (x13 : Vec F S128x16x256 .f32) (x14 : Vec F S128x16x256 .f32) :
    out0_A_15 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 x0 x1 x2 x3 x4 x5 x6 x7 x8 x9 x10 x11 x12 x13 x14 = post1 x7 x8 x0 x9 x1 x2 := by
  unfold out0_A_15
  rw [View.read_writes_eq_canon _ _ _ (cover0_A_15 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 x0 x1 x2 x3 x4 x5 x6 x7 x8 x9 x10 x11 x12 x13 x14)]
  unfold kernelRun0_A
  dsimp only
  sl_unfold_words
  rw [View.canon_unit_zero hz2]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, View.ld_unit_zero (S := S128x256) hz2, View.ld_unit_zero (S := S1x256) hz2, View.ld_unit_zero (S := S256x256) hz2]

/-- The second output holds the new second state `max(c2, 0)`. -/
theorem store_post2 (c : Dev nD) (i : grid0.Coords) (a1 : Memref sig .tc .vmem S128x256 .f32) (h1 : a1.IsWhole) (a2 : Memref sig .tc .vmem S128x256 .f32) (h2 : a2.IsWhole) (a3 : Memref sig .tc .vmem S128x256 .f32) (h3 : a3.IsWhole) (a4 : Memref sig .tc .vmem S128x256 .f32) (h4 : a4.IsWhole) (a5 : Memref sig .tc .vmem S128x256 .f32) (h5 : a5.IsWhole) (a6 : Memref sig .tc .vmem S128x256 .f32) (h6 : a6.IsWhole) (a7 : Memref sig .tc .vmem S128x256 .f32) (h7 : a7.IsWhole) (a8 : Memref sig .tc .vmem S1x256 .f32) (h8 : a8.IsWhole) (a9 : Memref sig .tc .vmem S1x256 .f32) (h9 : a9.IsWhole) (a10 : Memref sig .tc .vmem S256x256 .f32) (h10 : a10.IsWhole) (a11 : Memref sig .tc .vmem S256x256 .f32) (h11 : a11.IsWhole) (a12 : Memref sig .tc .vmem S128x16x256 .f32) (h12 : a12.IsWhole) (a13 : Memref sig .tc .vmem S128x16x256 .f32) (h13 : a13.IsWhole) (a14 : Memref sig .tc .vmem S128x16x256 .f32) (h14 : a14.IsWhole) (a15 : Memref sig .tc .vmem S128x16x256 .f32) (h15 : a15.IsWhole) (a16 : Memref sig .tc .vmem S128x256 .f32) (h16 : a16.IsWhole) (a17 : Memref sig .tc .vmem S128x256 .f32) (h17 : a17.IsWhole) (a18 : Memref sig .tc .vmem S128x256 .f32) (h18 : a18.IsWhole) (a19 : Memref sig .tc .vmem S128x256 .f32) (h19 : a19.IsWhole) (a20 : Memref sig .tc .vmem S128x256 .f32) (h20 : a20.IsWhole) (a21 : Memref sig .tc .vmem S128x256 .f32) (h21 : a21.IsWhole) (a22 : Memref sig .tc .vmem S128x16x256 .f32) (h22 : a22.IsWhole) (a23 : Memref sig .tc .vmem S128x16x256 .f32) (h23 : a23.IsWhole) (a24 : Memref sig .tc .vmem S128x16x256 .f32) (h24 : a24.IsWhole) (a25 : Memref sig .tc .vmem S128x16x256 .f32) (h25 : a25.IsWhole)
    (x0 : Vec F S128x256 .f32) (x1 : Vec F S128x256 .f32) (x2 : Vec F S128x256 .f32) (x3 : Vec F S128x256 .f32) (x4 : Vec F S128x256 .f32) (x5 : Vec F S128x256 .f32) (x6 : Vec F S128x256 .f32) (x7 : Vec F S1x256 .f32) (x8 : Vec F S1x256 .f32) (x9 : Vec F S256x256 .f32) (x10 : Vec F S256x256 .f32) (x11 : Vec F S128x16x256 .f32) (x12 : Vec F S128x16x256 .f32) (x13 : Vec F S128x16x256 .f32) (x14 : Vec F S128x16x256 .f32) :
    out0_A_16 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 x0 x1 x2 x3 x4 x5 x6 x7 x8 x9 x10 x11 x12 x13 x14 = post2 x7 x8 x0 x10 x1 x2 := by
  unfold out0_A_16
  rw [View.read_writes_eq_canon _ _ _ (cover0_A_16 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 x0 x1 x2 x3 x4 x5 x6 x7 x8 x9 x10 x11 x12 x13 x14)]
  unfold kernelRun0_A
  dsimp only
  sl_unfold_words
  rw [View.canon_unit_zero hz2]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, View.ld_unit_zero (S := S128x256) hz2, View.ld_unit_zero (S := S1x256) hz2, View.ld_unit_zero (S := S256x256) hz2]

/-- The third output holds the trace of `c1` with respect to the modulus parameter. -/
theorem store_trace0 (c : Dev nD) (i : grid0.Coords) (a1 : Memref sig .tc .vmem S128x256 .f32) (h1 : a1.IsWhole) (a2 : Memref sig .tc .vmem S128x256 .f32) (h2 : a2.IsWhole) (a3 : Memref sig .tc .vmem S128x256 .f32) (h3 : a3.IsWhole) (a4 : Memref sig .tc .vmem S128x256 .f32) (h4 : a4.IsWhole) (a5 : Memref sig .tc .vmem S128x256 .f32) (h5 : a5.IsWhole) (a6 : Memref sig .tc .vmem S128x256 .f32) (h6 : a6.IsWhole) (a7 : Memref sig .tc .vmem S128x256 .f32) (h7 : a7.IsWhole) (a8 : Memref sig .tc .vmem S1x256 .f32) (h8 : a8.IsWhole) (a9 : Memref sig .tc .vmem S1x256 .f32) (h9 : a9.IsWhole) (a10 : Memref sig .tc .vmem S256x256 .f32) (h10 : a10.IsWhole) (a11 : Memref sig .tc .vmem S256x256 .f32) (h11 : a11.IsWhole) (a12 : Memref sig .tc .vmem S128x16x256 .f32) (h12 : a12.IsWhole) (a13 : Memref sig .tc .vmem S128x16x256 .f32) (h13 : a13.IsWhole) (a14 : Memref sig .tc .vmem S128x16x256 .f32) (h14 : a14.IsWhole) (a15 : Memref sig .tc .vmem S128x16x256 .f32) (h15 : a15.IsWhole) (a16 : Memref sig .tc .vmem S128x256 .f32) (h16 : a16.IsWhole) (a17 : Memref sig .tc .vmem S128x256 .f32) (h17 : a17.IsWhole) (a18 : Memref sig .tc .vmem S128x256 .f32) (h18 : a18.IsWhole) (a19 : Memref sig .tc .vmem S128x256 .f32) (h19 : a19.IsWhole) (a20 : Memref sig .tc .vmem S128x256 .f32) (h20 : a20.IsWhole) (a21 : Memref sig .tc .vmem S128x256 .f32) (h21 : a21.IsWhole) (a22 : Memref sig .tc .vmem S128x16x256 .f32) (h22 : a22.IsWhole) (a23 : Memref sig .tc .vmem S128x16x256 .f32) (h23 : a23.IsWhole) (a24 : Memref sig .tc .vmem S128x16x256 .f32) (h24 : a24.IsWhole) (a25 : Memref sig .tc .vmem S128x16x256 .f32) (h25 : a25.IsWhole)
    (x0 : Vec F S128x256 .f32) (x1 : Vec F S128x256 .f32) (x2 : Vec F S128x256 .f32) (x3 : Vec F S128x256 .f32) (x4 : Vec F S128x256 .f32) (x5 : Vec F S128x256 .f32) (x6 : Vec F S128x256 .f32) (x7 : Vec F S1x256 .f32) (x8 : Vec F S1x256 .f32) (x9 : Vec F S256x256 .f32) (x10 : Vec F S256x256 .f32) (x11 : Vec F S128x16x256 .f32) (x12 : Vec F S128x16x256 .f32) (x13 : Vec F S128x16x256 .f32) (x14 : Vec F S128x16x256 .f32) :
    out0_A_17 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 x0 x1 x2 x3 x4 x5 x6 x7 x8 x9 x10 x11 x12 x13 x14 = trace0 x7 x8 x0 x9 x1 x2 x3 x4 := by
  unfold out0_A_17
  rw [View.read_writes_eq_canon _ _ _ (cover0_A_17 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 x0 x1 x2 x3 x4 x5 x6 x7 x8 x9 x10 x11 x12 x13 x14)]
  unfold kernelRun0_A
  dsimp only
  sl_unfold_words
  rw [View.canon_unit_zero hz2]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, View.ld_unit_zero (S := S128x256) hz2, View.ld_unit_zero (S := S1x256) hz2, View.ld_unit_zero (S := S256x256) hz2]

/-- The fourth output holds the trace of `c2` with respect to the modulus parameter. -/
theorem store_trace1 (c : Dev nD) (i : grid0.Coords) (a1 : Memref sig .tc .vmem S128x256 .f32) (h1 : a1.IsWhole) (a2 : Memref sig .tc .vmem S128x256 .f32) (h2 : a2.IsWhole) (a3 : Memref sig .tc .vmem S128x256 .f32) (h3 : a3.IsWhole) (a4 : Memref sig .tc .vmem S128x256 .f32) (h4 : a4.IsWhole) (a5 : Memref sig .tc .vmem S128x256 .f32) (h5 : a5.IsWhole) (a6 : Memref sig .tc .vmem S128x256 .f32) (h6 : a6.IsWhole) (a7 : Memref sig .tc .vmem S128x256 .f32) (h7 : a7.IsWhole) (a8 : Memref sig .tc .vmem S1x256 .f32) (h8 : a8.IsWhole) (a9 : Memref sig .tc .vmem S1x256 .f32) (h9 : a9.IsWhole) (a10 : Memref sig .tc .vmem S256x256 .f32) (h10 : a10.IsWhole) (a11 : Memref sig .tc .vmem S256x256 .f32) (h11 : a11.IsWhole) (a12 : Memref sig .tc .vmem S128x16x256 .f32) (h12 : a12.IsWhole) (a13 : Memref sig .tc .vmem S128x16x256 .f32) (h13 : a13.IsWhole) (a14 : Memref sig .tc .vmem S128x16x256 .f32) (h14 : a14.IsWhole) (a15 : Memref sig .tc .vmem S128x16x256 .f32) (h15 : a15.IsWhole) (a16 : Memref sig .tc .vmem S128x256 .f32) (h16 : a16.IsWhole) (a17 : Memref sig .tc .vmem S128x256 .f32) (h17 : a17.IsWhole) (a18 : Memref sig .tc .vmem S128x256 .f32) (h18 : a18.IsWhole) (a19 : Memref sig .tc .vmem S128x256 .f32) (h19 : a19.IsWhole) (a20 : Memref sig .tc .vmem S128x256 .f32) (h20 : a20.IsWhole) (a21 : Memref sig .tc .vmem S128x256 .f32) (h21 : a21.IsWhole) (a22 : Memref sig .tc .vmem S128x16x256 .f32) (h22 : a22.IsWhole) (a23 : Memref sig .tc .vmem S128x16x256 .f32) (h23 : a23.IsWhole) (a24 : Memref sig .tc .vmem S128x16x256 .f32) (h24 : a24.IsWhole) (a25 : Memref sig .tc .vmem S128x16x256 .f32) (h25 : a25.IsWhole)
    (x0 : Vec F S128x256 .f32) (x1 : Vec F S128x256 .f32) (x2 : Vec F S128x256 .f32) (x3 : Vec F S128x256 .f32) (x4 : Vec F S128x256 .f32) (x5 : Vec F S128x256 .f32) (x6 : Vec F S128x256 .f32) (x7 : Vec F S1x256 .f32) (x8 : Vec F S1x256 .f32) (x9 : Vec F S256x256 .f32) (x10 : Vec F S256x256 .f32) (x11 : Vec F S128x16x256 .f32) (x12 : Vec F S128x16x256 .f32) (x13 : Vec F S128x16x256 .f32) (x14 : Vec F S128x16x256 .f32) :
    out0_A_18 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 x0 x1 x2 x3 x4 x5 x6 x7 x8 x9 x10 x11 x12 x13 x14 = trace1 x7 x8 x0 x10 x1 x2 x3 x4 := by
  unfold out0_A_18
  rw [View.read_writes_eq_canon _ _ _ (cover0_A_18 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 x0 x1 x2 x3 x4 x5 x6 x7 x8 x9 x10 x11 x12 x13 x14)]
  unfold kernelRun0_A
  dsimp only
  sl_unfold_words
  rw [View.canon_unit_zero hz2]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, View.ld_unit_zero (S := S128x256) hz2, View.ld_unit_zero (S := S1x256) hz2, View.ld_unit_zero (S := S256x256) hz2]

/-- The fifth output holds the trace of `c1` with respect to the angle parameter. -/
theorem store_trace2 (c : Dev nD) (i : grid0.Coords) (a1 : Memref sig .tc .vmem S128x256 .f32) (h1 : a1.IsWhole) (a2 : Memref sig .tc .vmem S128x256 .f32) (h2 : a2.IsWhole) (a3 : Memref sig .tc .vmem S128x256 .f32) (h3 : a3.IsWhole) (a4 : Memref sig .tc .vmem S128x256 .f32) (h4 : a4.IsWhole) (a5 : Memref sig .tc .vmem S128x256 .f32) (h5 : a5.IsWhole) (a6 : Memref sig .tc .vmem S128x256 .f32) (h6 : a6.IsWhole) (a7 : Memref sig .tc .vmem S128x256 .f32) (h7 : a7.IsWhole) (a8 : Memref sig .tc .vmem S1x256 .f32) (h8 : a8.IsWhole) (a9 : Memref sig .tc .vmem S1x256 .f32) (h9 : a9.IsWhole) (a10 : Memref sig .tc .vmem S256x256 .f32) (h10 : a10.IsWhole) (a11 : Memref sig .tc .vmem S256x256 .f32) (h11 : a11.IsWhole) (a12 : Memref sig .tc .vmem S128x16x256 .f32) (h12 : a12.IsWhole) (a13 : Memref sig .tc .vmem S128x16x256 .f32) (h13 : a13.IsWhole) (a14 : Memref sig .tc .vmem S128x16x256 .f32) (h14 : a14.IsWhole) (a15 : Memref sig .tc .vmem S128x16x256 .f32) (h15 : a15.IsWhole) (a16 : Memref sig .tc .vmem S128x256 .f32) (h16 : a16.IsWhole) (a17 : Memref sig .tc .vmem S128x256 .f32) (h17 : a17.IsWhole) (a18 : Memref sig .tc .vmem S128x256 .f32) (h18 : a18.IsWhole) (a19 : Memref sig .tc .vmem S128x256 .f32) (h19 : a19.IsWhole) (a20 : Memref sig .tc .vmem S128x256 .f32) (h20 : a20.IsWhole) (a21 : Memref sig .tc .vmem S128x256 .f32) (h21 : a21.IsWhole) (a22 : Memref sig .tc .vmem S128x16x256 .f32) (h22 : a22.IsWhole) (a23 : Memref sig .tc .vmem S128x16x256 .f32) (h23 : a23.IsWhole) (a24 : Memref sig .tc .vmem S128x16x256 .f32) (h24 : a24.IsWhole) (a25 : Memref sig .tc .vmem S128x16x256 .f32) (h25 : a25.IsWhole)
    (x0 : Vec F S128x256 .f32) (x1 : Vec F S128x256 .f32) (x2 : Vec F S128x256 .f32) (x3 : Vec F S128x256 .f32) (x4 : Vec F S128x256 .f32) (x5 : Vec F S128x256 .f32) (x6 : Vec F S128x256 .f32) (x7 : Vec F S1x256 .f32) (x8 : Vec F S1x256 .f32) (x9 : Vec F S256x256 .f32) (x10 : Vec F S256x256 .f32) (x11 : Vec F S128x16x256 .f32) (x12 : Vec F S128x16x256 .f32) (x13 : Vec F S128x16x256 .f32) (x14 : Vec F S128x16x256 .f32) :
    out0_A_19 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 x0 x1 x2 x3 x4 x5 x6 x7 x8 x9 x10 x11 x12 x13 x14 = trace2 x7 x8 x0 x9 x1 x2 x5 x6 := by
  unfold out0_A_19
  rw [View.read_writes_eq_canon _ _ _ (cover0_A_19 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 x0 x1 x2 x3 x4 x5 x6 x7 x8 x9 x10 x11 x12 x13 x14)]
  unfold kernelRun0_A
  dsimp only
  sl_unfold_words
  rw [View.canon_unit_zero hz2]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, View.ld_unit_zero (S := S128x256) hz2, View.ld_unit_zero (S := S1x256) hz2, View.ld_unit_zero (S := S256x256) hz2]

/-- The sixth output holds the trace of `c2` with respect to the angle parameter. -/
theorem store_trace3 (c : Dev nD) (i : grid0.Coords) (a1 : Memref sig .tc .vmem S128x256 .f32) (h1 : a1.IsWhole) (a2 : Memref sig .tc .vmem S128x256 .f32) (h2 : a2.IsWhole) (a3 : Memref sig .tc .vmem S128x256 .f32) (h3 : a3.IsWhole) (a4 : Memref sig .tc .vmem S128x256 .f32) (h4 : a4.IsWhole) (a5 : Memref sig .tc .vmem S128x256 .f32) (h5 : a5.IsWhole) (a6 : Memref sig .tc .vmem S128x256 .f32) (h6 : a6.IsWhole) (a7 : Memref sig .tc .vmem S128x256 .f32) (h7 : a7.IsWhole) (a8 : Memref sig .tc .vmem S1x256 .f32) (h8 : a8.IsWhole) (a9 : Memref sig .tc .vmem S1x256 .f32) (h9 : a9.IsWhole) (a10 : Memref sig .tc .vmem S256x256 .f32) (h10 : a10.IsWhole) (a11 : Memref sig .tc .vmem S256x256 .f32) (h11 : a11.IsWhole) (a12 : Memref sig .tc .vmem S128x16x256 .f32) (h12 : a12.IsWhole) (a13 : Memref sig .tc .vmem S128x16x256 .f32) (h13 : a13.IsWhole) (a14 : Memref sig .tc .vmem S128x16x256 .f32) (h14 : a14.IsWhole) (a15 : Memref sig .tc .vmem S128x16x256 .f32) (h15 : a15.IsWhole) (a16 : Memref sig .tc .vmem S128x256 .f32) (h16 : a16.IsWhole) (a17 : Memref sig .tc .vmem S128x256 .f32) (h17 : a17.IsWhole) (a18 : Memref sig .tc .vmem S128x256 .f32) (h18 : a18.IsWhole) (a19 : Memref sig .tc .vmem S128x256 .f32) (h19 : a19.IsWhole) (a20 : Memref sig .tc .vmem S128x256 .f32) (h20 : a20.IsWhole) (a21 : Memref sig .tc .vmem S128x256 .f32) (h21 : a21.IsWhole) (a22 : Memref sig .tc .vmem S128x16x256 .f32) (h22 : a22.IsWhole) (a23 : Memref sig .tc .vmem S128x16x256 .f32) (h23 : a23.IsWhole) (a24 : Memref sig .tc .vmem S128x16x256 .f32) (h24 : a24.IsWhole) (a25 : Memref sig .tc .vmem S128x16x256 .f32) (h25 : a25.IsWhole)
    (x0 : Vec F S128x256 .f32) (x1 : Vec F S128x256 .f32) (x2 : Vec F S128x256 .f32) (x3 : Vec F S128x256 .f32) (x4 : Vec F S128x256 .f32) (x5 : Vec F S128x256 .f32) (x6 : Vec F S128x256 .f32) (x7 : Vec F S1x256 .f32) (x8 : Vec F S1x256 .f32) (x9 : Vec F S256x256 .f32) (x10 : Vec F S256x256 .f32) (x11 : Vec F S128x16x256 .f32) (x12 : Vec F S128x16x256 .f32) (x13 : Vec F S128x16x256 .f32) (x14 : Vec F S128x16x256 .f32) :
    out0_A_20 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 x0 x1 x2 x3 x4 x5 x6 x7 x8 x9 x10 x11 x12 x13 x14 = trace3 x7 x8 x0 x10 x1 x2 x5 x6 := by
  unfold out0_A_20
  rw [View.read_writes_eq_canon _ _ _ (cover0_A_20 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 x0 x1 x2 x3 x4 x5 x6 x7 x8 x9 x10 x11 x12 x13 x14)]
  unfold kernelRun0_A
  dsimp only
  sl_unfold_words
  rw [View.canon_unit_zero hz2]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, View.ld_unit_zero (S := S128x256) hz2, View.ld_unit_zero (S := S1x256) hz2, View.ld_unit_zero (S := S256x256) hz2]

end Cert.KernelStores

end
-- ==== Proof.KernelTileStores.lean ====
/-
  What the body leaves in each of the four `[128, 16, 256]` output tiles at a grid point, as a function of the blocks it
  loaded: one whole store each, of the tile payload over the pole, the normalisation, the activity indicator, the
  16 features of the input that the point's offset selects, and the point's tiles of the old traces.
-/
import proofs.«131562_j54863912239692_2_alg».proof.Proof.Gen.KernelIdeal.Frame
import proofs.«131562_j54863912239692_2_alg».proof.Proof.Quantities
import Idealize.ShloMosaic.Lib.Pipeline.Value

set_option maxRecDepth 16384

noncomputable section

namespace Cert.KernelTileStores

open Cert.KernelIdeal Cert.KernelIdeal.Gen Cert.Step Idealize.ShloMosaic Idealize.ShloMosaic.TcCoe Idealize.SL.Sem Idealize.ShloMosaic.Tactic

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The seventh output's tile: the first input-weight trace. -/
theorem store_tile4 (c : Dev nD) (i : grid0.Coords) (a1 : Memref sig .tc .vmem S128x256 .f32) (h1 : a1.IsWhole) (a2 : Memref sig .tc .vmem S128x256 .f32) (h2 : a2.IsWhole) (a3 : Memref sig .tc .vmem S128x256 .f32) (h3 : a3.IsWhole) (a4 : Memref sig .tc .vmem S128x256 .f32) (h4 : a4.IsWhole) (a5 : Memref sig .tc .vmem S128x256 .f32) (h5 : a5.IsWhole) (a6 : Memref sig .tc .vmem S128x256 .f32) (h6 : a6.IsWhole) (a7 : Memref sig .tc .vmem S128x256 .f32) (h7 : a7.IsWhole) (a8 : Memref sig .tc .vmem S1x256 .f32) (h8 : a8.IsWhole) (a9 : Memref sig .tc .vmem S1x256 .f32) (h9 : a9.IsWhole) (a10 : Memref sig .tc .vmem S256x256 .f32) (h10 : a10.IsWhole) (a11 : Memref sig .tc .vmem S256x256 .f32) (h11 : a11.IsWhole) (a12 : Memref sig .tc .vmem S128x16x256 .f32) (h12 : a12.IsWhole) (a13 : Memref sig .tc .vmem S128x16x256 .f32) (h13 : a13.IsWhole) (a14 : Memref sig .tc .vmem S128x16x256 .f32) (h14 : a14.IsWhole) (a15 : Memref sig .tc .vmem S128x16x256 .f32) (h15 : a15.IsWhole) (a16 : Memref sig .tc .vmem S128x256 .f32) (h16 : a16.IsWhole) (a17 : Memref sig .tc .vmem S128x256 .f32) (h17 : a17.IsWhole) (a18 : Memref sig .tc .vmem S128x256 .f32) (h18 : a18.IsWhole) (a19 : Memref sig .tc .vmem S128x256 .f32) (h19 : a19.IsWhole) (a20 : Memref sig .tc .vmem S128x256 .f32) (h20 : a20.IsWhole) (a21 : Memref sig .tc .vmem S128x256 .f32) (h21 : a21.IsWhole) (a22 : Memref sig .tc .vmem S128x16x256 .f32) (h22 : a22.IsWhole) (a23 : Memref sig .tc .vmem S128x16x256 .f32) (h23 : a23.IsWhole) (a24 : Memref sig .tc .vmem S128x16x256 .f32) (h24 : a24.IsWhole) (a25 : Memref sig .tc .vmem S128x16x256 .f32) (h25 : a25.IsWhole)
    (x0 : Vec F S128x256 .f32) (x1 : Vec F S128x256 .f32) (x2 : Vec F S128x256 .f32) (x3 : Vec F S128x256 .f32) (x4 : Vec F S128x256 .f32) (x5 : Vec F S128x256 .f32) (x6 : Vec F S128x256 .f32) (x7 : Vec F S1x256 .f32) (x8 : Vec F S1x256 .f32) (x9 : Vec F S256x256 .f32) (x10 : Vec F S256x256 .f32) (x11 : Vec F S128x16x256 .f32) (x12 : Vec F S128x16x256 .f32) (x13 : Vec F S128x16x256 .f32) (x14 : Vec F S128x16x256 .f32) :
    out0_A_21 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 x0 x1 x2 x3 x4 x5 x6 x7 x8 x9 x10 x11 x12 x13 x14 = k0_pay33 (poleRe x7 x8) (poleIm x7 x8) (inNorm x7) (act1 x7 x8 x0 x9 x1 x2) (View.ld x0 (Rect.unit (s := S128x256) (k0_off1 i) S128x16.size (k0_off1_inb i))) x11 x12 := by
  unfold out0_A_21
  rw [View.read_writes_eq_canon _ _ _ (cover0_A_21 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 x0 x1 x2 x3 x4 x5 x6 x7 x8 x9 x10 x11 x12 x13 x14)]
  unfold kernelRun0_A
  dsimp only
  sl_unfold_words
  rw [View.canon_unit_zero hz3]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, View.ld_unit_zero (S := S128x256) hz2, View.ld_unit_zero (S := S1x256) hz2, View.ld_unit_zero (S := S256x256) hz2, View.ld_unit_zero (S := S128x16x256) hz3]

/-- The eighth output's tile: the second input-weight trace. -/
theorem store_tile5 (c : Dev nD) (i : grid0.Coords) (a1 : Memref sig .tc .vmem S128x256 .f32) (h1 : a1.IsWhole) (a2 : Memref sig .tc .vmem S128x256 .f32) (h2 : a2.IsWhole) (a3 : Memref sig .tc .vmem S128x256 .f32) (h3 : a3.IsWhole) (a4 : Memref sig .tc .vmem S128x256 .f32) (h4 : a4.IsWhole) (a5 : Memref sig .tc .vmem S128x256 .f32) (h5 : a5.IsWhole) (a6 : Memref sig .tc .vmem S128x256 .f32) (h6 : a6.IsWhole) (a7 : Memref sig .tc .vmem S128x256 .f32) (h7 : a7.IsWhole) (a8 : Memref sig .tc .vmem S1x256 .f32) (h8 : a8.IsWhole) (a9 : Memref sig .tc .vmem S1x256 .f32) (h9 : a9.IsWhole) (a10 : Memref sig .tc .vmem S256x256 .f32) (h10 : a10.IsWhole) (a11 : Memref sig .tc .vmem S256x256 .f32) (h11 : a11.IsWhole) (a12 : Memref sig .tc .vmem S128x16x256 .f32) (h12 : a12.IsWhole) (a13 : Memref sig .tc .vmem S128x16x256 .f32) (h13 : a13.IsWhole) (a14 : Memref sig .tc .vmem S128x16x256 .f32) (h14 : a14.IsWhole) (a15 : Memref sig .tc .vmem S128x16x256 .f32) (h15 : a15.IsWhole) (a16 : Memref sig .tc .vmem S128x256 .f32) (h16 : a16.IsWhole) (a17 : Memref sig .tc .vmem S128x256 .f32) (h17 : a17.IsWhole) (a18 : Memref sig .tc .vmem S128x256 .f32) (h18 : a18.IsWhole) (a19 : Memref sig .tc .vmem S128x256 .f32) (h19 : a19.IsWhole) (a20 : Memref sig .tc .vmem S128x256 .f32) (h20 : a20.IsWhole) (a21 : Memref sig .tc .vmem S128x256 .f32) (h21 : a21.IsWhole) (a22 : Memref sig .tc .vmem S128x16x256 .f32) (h22 : a22.IsWhole) (a23 : Memref sig .tc .vmem S128x16x256 .f32) (h23 : a23.IsWhole) (a24 : Memref sig .tc .vmem S128x16x256 .f32) (h24 : a24.IsWhole) (a25 : Memref sig .tc .vmem S128x16x256 .f32) (h25 : a25.IsWhole)
    (x0 : Vec F S128x256 .f32) (x1 : Vec F S128x256 .f32) (x2 : Vec F S128x256 .f32) (x3 : Vec F S128x256 .f32) (x4 : Vec F S128x256 .f32) (x5 : Vec F S128x256 .f32) (x6 : Vec F S128x256 .f32) (x7 : Vec F S1x256 .f32) (x8 : Vec F S1x256 .f32) (x9 : Vec F S256x256 .f32) (x10 : Vec F S256x256 .f32) (x11 : Vec F S128x16x256 .f32) (x12 : Vec F S128x16x256 .f32) (x13 : Vec F S128x16x256 .f32) (x14 : Vec F S128x16x256 .f32) :
    out0_A_22 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 x0 x1 x2 x3 x4 x5 x6 x7 x8 x9 x10 x11 x12 x13 x14 = k0_pay34 (poleRe x7 x8) (poleIm x7 x8) (act2 x7 x8 x0 x10 x1 x2) x11 x12 := by
  unfold out0_A_22
  rw [View.read_writes_eq_canon _ _ _ (cover0_A_22 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 x0 x1 x2 x3 x4 x5 x6 x7 x8 x9 x10 x11 x12 x13 x14)]
  unfold kernelRun0_A
  dsimp only
  sl_unfold_words
  rw [View.canon_unit_zero hz3]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, View.ld_unit_zero (S := S128x256) hz2, View.ld_unit_zero (S := S1x256) hz2, View.ld_unit_zero (S := S256x256) hz2, View.ld_unit_zero (S := S128x16x256) hz3]

/-- The ninth output's tile: the third input-weight trace. -/
theorem store_tile6 (c : Dev nD) (i : grid0.Coords) (a1 : Memref sig .tc .vmem S128x256 .f32) (h1 : a1.IsWhole) (a2 : Memref sig .tc .vmem S128x256 .f32) (h2 : a2.IsWhole) (a3 : Memref sig .tc .vmem S128x256 .f32) (h3 : a3.IsWhole) (a4 : Memref sig .tc .vmem S128x256 .f32) (h4 : a4.IsWhole) (a5 : Memref sig .tc .vmem S128x256 .f32) (h5 : a5.IsWhole) (a6 : Memref sig .tc .vmem S128x256 .f32) (h6 : a6.IsWhole) (a7 : Memref sig .tc .vmem S128x256 .f32) (h7 : a7.IsWhole) (a8 : Memref sig .tc .vmem S1x256 .f32) (h8 : a8.IsWhole) (a9 : Memref sig .tc .vmem S1x256 .f32) (h9 : a9.IsWhole) (a10 : Memref sig .tc .vmem S256x256 .f32) (h10 : a10.IsWhole) (a11 : Memref sig .tc .vmem S256x256 .f32) (h11 : a11.IsWhole) (a12 : Memref sig .tc .vmem S128x16x256 .f32) (h12 : a12.IsWhole) (a13 : Memref sig .tc .vmem S128x16x256 .f32) (h13 : a13.IsWhole) (a14 : Memref sig .tc .vmem S128x16x256 .f32) (h14 : a14.IsWhole) (a15 : Memref sig .tc .vmem S128x16x256 .f32) (h15 : a15.IsWhole) (a16 : Memref sig .tc .vmem S128x256 .f32) (h16 : a16.IsWhole) (a17 : Memref sig .tc .vmem S128x256 .f32) (h17 : a17.IsWhole) (a18 : Memref sig .tc .vmem S128x256 .f32) (h18 : a18.IsWhole) (a19 : Memref sig .tc .vmem S128x256 .f32) (h19 : a19.IsWhole) (a20 : Memref sig .tc .vmem S128x256 .f32) (h20 : a20.IsWhole) (a21 : Memref sig .tc .vmem S128x256 .f32) (h21 : a21.IsWhole) (a22 : Memref sig .tc .vmem S128x16x256 .f32) (h22 : a22.IsWhole) (a23 : Memref sig .tc .vmem S128x16x256 .f32) (h23 : a23.IsWhole) (a24 : Memref sig .tc .vmem S128x16x256 .f32) (h24 : a24.IsWhole) (a25 : Memref sig .tc .vmem S128x16x256 .f32) (h25 : a25.IsWhole)
    (x0 : Vec F S128x256 .f32) (x1 : Vec F S128x256 .f32) (x2 : Vec F S128x256 .f32) (x3 : Vec F S128x256 .f32) (x4 : Vec F S128x256 .f32) (x5 : Vec F S128x256 .f32) (x6 : Vec F S128x256 .f32) (x7 : Vec F S1x256 .f32) (x8 : Vec F S1x256 .f32) (x9 : Vec F S256x256 .f32) (x10 : Vec F S256x256 .f32) (x11 : Vec F S128x16x256 .f32) (x12 : Vec F S128x16x256 .f32) (x13 : Vec F S128x16x256 .f32) (x14 : Vec F S128x16x256 .f32) :
    out0_A_23 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 x0 x1 x2 x3 x4 x5 x6 x7 x8 x9 x10 x11 x12 x13 x14 = k0_pay1 (k0_pay30 (act1 x7 x8 x0 x9 x1 x2)) (k0_pay35 (poleRe x7 x8) (poleIm x7 x8) x13 x14) := by
  unfold out0_A_23
  rw [View.read_writes_eq_canon _ _ _ (cover0_A_23 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 x0 x1 x2 x3 x4 x5 x6 x7 x8 x9 x10 x11 x12 x13 x14)]
  unfold kernelRun0_A
  dsimp only
  sl_unfold_words
  rw [View.canon_unit_zero hz3]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, View.ld_unit_zero (S := S128x256) hz2, View.ld_unit_zero (S := S1x256) hz2, View.ld_unit_zero (S := S256x256) hz2, View.ld_unit_zero (S := S128x16x256) hz3]

/-- The tenth output's tile: the fourth input-weight trace. -/
theorem store_tile7 (c : Dev nD) (i : grid0.Coords) (a1 : Memref sig .tc .vmem S128x256 .f32) (h1 : a1.IsWhole) (a2 : Memref sig .tc .vmem S128x256 .f32) (h2 : a2.IsWhole) (a3 : Memref sig .tc .vmem S128x256 .f32) (h3 : a3.IsWhole) (a4 : Memref sig .tc .vmem S128x256 .f32) (h4 : a4.IsWhole) (a5 : Memref sig .tc .vmem S128x256 .f32) (h5 : a5.IsWhole) (a6 : Memref sig .tc .vmem S128x256 .f32) (h6 : a6.IsWhole) (a7 : Memref sig .tc .vmem S128x256 .f32) (h7 : a7.IsWhole) (a8 : Memref sig .tc .vmem S1x256 .f32) (h8 : a8.IsWhole) (a9 : Memref sig .tc .vmem S1x256 .f32) (h9 : a9.IsWhole) (a10 : Memref sig .tc .vmem S256x256 .f32) (h10 : a10.IsWhole) (a11 : Memref sig .tc .vmem S256x256 .f32) (h11 : a11.IsWhole) (a12 : Memref sig .tc .vmem S128x16x256 .f32) (h12 : a12.IsWhole) (a13 : Memref sig .tc .vmem S128x16x256 .f32) (h13 : a13.IsWhole) (a14 : Memref sig .tc .vmem S128x16x256 .f32) (h14 : a14.IsWhole) (a15 : Memref sig .tc .vmem S128x16x256 .f32) (h15 : a15.IsWhole) (a16 : Memref sig .tc .vmem S128x256 .f32) (h16 : a16.IsWhole) (a17 : Memref sig .tc .vmem S128x256 .f32) (h17 : a17.IsWhole) (a18 : Memref sig .tc .vmem S128x256 .f32) (h18 : a18.IsWhole) (a19 : Memref sig .tc .vmem S128x256 .f32) (h19 : a19.IsWhole) (a20 : Memref sig .tc .vmem S128x256 .f32) (h20 : a20.IsWhole) (a21 : Memref sig .tc .vmem S128x256 .f32) (h21 : a21.IsWhole) (a22 : Memref sig .tc .vmem S128x16x256 .f32) (h22 : a22.IsWhole) (a23 : Memref sig .tc .vmem S128x16x256 .f32) (h23 : a23.IsWhole) (a24 : Memref sig .tc .vmem S128x16x256 .f32) (h24 : a24.IsWhole) (a25 : Memref sig .tc .vmem S128x16x256 .f32) (h25 : a25.IsWhole)
    (x0 : Vec F S128x256 .f32) (x1 : Vec F S128x256 .f32) (x2 : Vec F S128x256 .f32) (x3 : Vec F S128x256 .f32) (x4 : Vec F S128x256 .f32) (x5 : Vec F S128x256 .f32) (x6 : Vec F S128x256 .f32) (x7 : Vec F S1x256 .f32) (x8 : Vec F S1x256 .f32) (x9 : Vec F S256x256 .f32) (x10 : Vec F S256x256 .f32) (x11 : Vec F S128x16x256 .f32) (x12 : Vec F S128x16x256 .f32) (x13 : Vec F S128x16x256 .f32) (x14 : Vec F S128x16x256 .f32) :
    out0_A_24 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 x0 x1 x2 x3 x4 x5 x6 x7 x8 x9 x10 x11 x12 x13 x14 = k0_pay2 (k0_pay28 (poleRe x7 x8)) (k0_pay29 (poleIm x7 x8)) (k0_pay31 (act2 x7 x8 x0 x10 x1 x2)) (k0_pay32 (inNorm x7) (View.ld x0 (Rect.unit (s := S128x256) (k0_off1 i) S128x16.size (k0_off1_inb i)))) x13 x14 := by
  unfold out0_A_24
  rw [View.read_writes_eq_canon _ _ _ (cover0_A_24 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 x0 x1 x2 x3 x4 x5 x6 x7 x8 x9 x10 x11 x12 x13 x14)]
  unfold kernelRun0_A
  dsimp only
  sl_unfold_words
  rw [View.canon_unit_zero hz3]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, View.ld_unit_zero (S := S128x256) hz2, View.ld_unit_zero (S := S1x256) hz2, View.ld_unit_zero (S := S256x256) hz2, View.ld_unit_zero (S := S128x16x256) hz3]

end Cert.KernelTileStores

end
-- ==== Proof.Spec.lean ====
/-
  One step of the recurrence's eligibility traces for the input weights, entry by entry on the extended reals.

  With the pole `g + i·φ` (one value per hidden unit `c`), the input normalisation `n`, the 0/1 indicator `d` of an
  active unit (per batch row `a` and hidden unit `c`) and the input `x` (per batch row `a` and input feature `b`), a
  trace entry `(a, b, c)` is updated from the old traces `A`, `B` of the same entry by one of four formulas:
      d · (g·A − φ·B + n·x),   d · (g·A + φ·B),   d · (g·A − φ·B),   d · (g·A + φ·B + n·x).
  Every formula reads `A`, `B` and `x` only at the entry's own `(a, b)`, so it makes sense for ANY extent `D` of the
  feature axis: for the whole arrays (`D = 256`) and for a tile of them (`D = 16`) it is the same function, and a tile of
  the result is the result of the tiles (`restrict` below).
-/
import Idealize.ShloMosaic.PureOps.Ideal
import Idealize.ShloMosaic.Lib.ValueIdx

noncomputable section

namespace Cert.Spec

open Idealize.ShloMosaic Idealize.ShloMosaic.ValueIdx

variable {D : ℕ}

/-- `d · (g·A − φ·B + n·x)` at entry `(a, b, c)`. -/
def traceSubIn (d : (⟨2, ![128, 256]⟩ : Shape).Idx → EReal) (g p n : (⟨2, ![1, 256]⟩ : Shape).Idx → EReal)
    (x : (⟨2, ![128, D]⟩ : Shape).Idx → EReal) (A B : (⟨3, ![128, D, 256]⟩ : Shape).Idx → EReal) :
    (⟨3, ![128, D, 256]⟩ : Shape).Idx → EReal :=
  fun i => d (ix2 (i 0) (i 2)) * (g (ix2 (0 : Fin 1) (i 2)) * A i - p (ix2 (0 : Fin 1) (i 2)) * B i
    + n (ix2 (0 : Fin 1) (i 2)) * x (ix2 (i 0) (i 1)))

/-- `d · (g·A + φ·B)` at entry `(a, b, c)`. -/
def traceAdd (d : (⟨2, ![128, 256]⟩ : Shape).Idx → EReal) (g p : (⟨2, ![1, 256]⟩ : Shape).Idx → EReal)
    (A B : (⟨3, ![128, D, 256]⟩ : Shape).Idx → EReal) : (⟨3, ![128, D, 256]⟩ : Shape).Idx → EReal :=
  fun i => d (ix2 (i 0) (i 2)) * (g (ix2 (0 : Fin 1) (i 2)) * A i + p (ix2 (0 : Fin 1) (i 2)) * B i)

/-- `d · (g·A − φ·B)` at entry `(a, b, c)`. -/
def traceSub (d : (⟨2, ![128, 256]⟩ : Shape).Idx → EReal) (g p : (⟨2, ![1, 256]⟩ : Shape).Idx → EReal)
    (A B : (⟨3, ![128, D, 256]⟩ : Shape).Idx → EReal) : (⟨3, ![128, D, 256]⟩ : Shape).Idx → EReal :=
  fun i => d (ix2 (i 0) (i 2)) * (g (ix2 (0 : Fin 1) (i 2)) * A i - p (ix2 (0 : Fin 1) (i 2)) * B i)

/-- `d · (g·A + φ·B + n·x)` at entry `(a, b, c)`. -/
def traceAddIn (d : (⟨2, ![128, 256]⟩ : Shape).Idx → EReal) (g p n : (⟨2, ![1, 256]⟩ : Shape).Idx → EReal)
    (x : (⟨2, ![128, D]⟩ : Shape).Idx → EReal) (A B : (⟨3, ![128, D, 256]⟩ : Shape).Idx → EReal) :
    (⟨3, ![128, D, 256]⟩ : Shape).Idx → EReal :=
  fun i => d (ix2 (i 0) (i 2)) * (g (ix2 (0 : Fin 1) (i 2)) * A i + p (ix2 (0 : Fin 1) (i 2)) * B i
    + n (ix2 (0 : Fin 1) (i 2)) * x (ix2 (i 0) (i 1)))

/-- Tile `t` (16 consecutive features, starting at `16·t`) of an array over `(batch, feature, hidden)`. -/
def tile3 (t : ℕ) (ht : t < 16) (A : (⟨3, ![128, 256, 256]⟩ : Shape).Idx → EReal) :
    (⟨3, ![128, 16, 256]⟩ : Shape).Idx → EReal :=
  fun y => A (ix3 (y 0) (⟨16 * t + (y 1).val, by have h : (y 1).val < 16 := (y 1).isLt; omega⟩ : Fin 256) (y 2))

/-- Tile `t` of an array over `(batch, feature)`. -/
def tile2 (t : ℕ) (ht : t < 16) (x : (⟨2, ![128, 256]⟩ : Shape).Idx → EReal) :
    (⟨2, ![128, 16]⟩ : Shape).Idx → EReal :=
  fun y => x (ix2 (y 0) (⟨16 * t + (y 1).val, by have h : (y 1).val < 16 := (y 1).isLt; omega⟩ : Fin 256))

variable (d : (⟨2, ![128, 256]⟩ : Shape).Idx → EReal) (g p n : (⟨2, ![1, 256]⟩ : Shape).Idx → EReal)
  (x : (⟨2, ![128, 256]⟩ : Shape).Idx → EReal) (A B : (⟨3, ![128, 256, 256]⟩ : Shape).Idx → EReal)
  (t : ℕ) (ht : t < 16)

/-- A tile of the updated trace is the update of the tiles: each formula reads its operands at the entry's own
    coordinates only. -/
theorem tile3_traceSubIn : tile3 t ht (traceSubIn d g p n x A B)
    = traceSubIn (D := 16) d g p n (tile2 t ht x) (tile3 t ht A) (tile3 t ht B) := rfl
theorem tile3_traceAdd : tile3 t ht (traceAdd d g p A B) = traceAdd (D := 16) d g p (tile3 t ht A) (tile3 t ht B) := rfl
theorem tile3_traceSub : tile3 t ht (traceSub d g p A B) = traceSub (D := 16) d g p (tile3 t ht A) (tile3 t ht B) := rfl
theorem tile3_traceAddIn : tile3 t ht (traceAddIn d g p n x A B)
    = traceAddIn (D := 16) d g p n (tile2 t ht x) (tile3 t ht A) (tile3 t ht B) := rfl

end Cert.Spec

end
-- ==== Proof.LibKeepAxis.lean ====
/-
  Layout operations read at an index given by coordinates, for the forms a "keep the axis" reduction and a
  per-head broadcast along the lanes meet:

  • a matrix [a, c] viewed [a, 1, c] (a unit axis put in the middle), and that view broadcast to [a, b, c]:
    at (i, j, k) both read the matrix at (i, k) — what subtracting a row-wise maximum, or dividing by a row-wise
    sum taken over the middle axis, does;
  • an array [a, b, c] viewed [a, b, c, 1] (a trailing unit axis), and that view broadcast to [a, b, c, d]:
    at (i, j, k, l) both read the array at (i, j, k);
  • an array [a, b, c, d] viewed [a, b, e] with e = c * d (the last two axes merged): at (i, j, m) with
    m = d * k + l it reads the array at (i, j, k, l).

  Each is the library's general lemma for the operation (a shape cast reads the operand at the same row-major
  position; a broadcast reads it at the trailing coordinates, 0 on the operand's unit axes) with both indices
  written by coordinates and the arithmetic done.
-/
import Idealize.ShloMosaic.Lib.ValueIdx
import Idealize.ShloMosaic.Lib.Pipeline.Value

namespace Idealize.ShloMosaic.ValueIdx

open Idealize.ShloMosaic

variable {α : Type}

/-- A matrix [a, c] cast to [a, 1, c] reads, at (i, u, k), the matrix at (i, k). -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_two, Shape.rowMajor_val_three]
    show i.val * c + k.val = (i.val * 1 + u.val) * c + k.val
    rw [hu, Nat.mul_one, Nat.add_zero])

/-- An array [a, 1, c] broadcast to [a, b, c] reads, at (i, j, k), the operand at (i, 0, k). -/
theorem broadcastTo_a1c_abc_apply {a b c : ℕ} (x : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ x h (ix3 i j k) = x (ix3 i (0 : Fin 1) k) :=
  broadcastTo_apply x h _ _ (fun ax => by
    match ax with
    | ⟨0, _⟩ =>
      show i.val = if a = 1 then 0 else i.val
      split
      · have := i.isLt; omega
      · rfl
    | ⟨1, _⟩ => rfl
    | ⟨2, _⟩ =>
      show k.val = if c = 1 then 0 else k.val
      split
      · have := k.isLt; omega
      · rfl)

/-- An array [a, b, c] cast to [a, b, c, 1] reads, at (i, j, k, u), the array at (i, j, k). -/
theorem shapeCast_abc_abc1_apply {a b c : ℕ} (x : (⟨3, ![a, b, c]⟩ : Shape).Idx → α)
    (h : (⟨3, ![a, b, c]⟩ : Shape).ShapeCasts ⟨4, ![a, b, c, 1]⟩) (i : Fin a) (j : Fin b) (k : Fin c) (u : Fin 1) :
    shapeCast ⟨4, ![a, b, c, 1]⟩ x h (ix4 i j k u) = x (ix3 i j k) :=
  shapeCast_apply x h _ _ (by
    have hu : u.val = 0 := by omega
    rw [Shape.rowMajor_val_three, Shape.rowMajor_val_four]
    show (i.val * b + j.val) * c + k.val = ((i.val * b + j.val) * c + k.val) * 1 + u.val
    rw [hu, Nat.mul_one, Nat.add_zero])

/-- An array [a, b, c, 1] broadcast to [a, b, c, d] reads, at (i, j, k, l), the operand at (i, j, k, 0). -/
theorem broadcastTo_abc1_abcd_apply {a b c d : ℕ} (x : (⟨4, ![a, b, c, 1]⟩ : Shape).Idx → α)
    (h : (⟨4, ![a, b, c, 1]⟩ : Shape).Broadcasts ⟨4, ![a, b, c, d]⟩) (i : Fin a) (j : Fin b) (k : Fin c) (l : Fin d) :
    broadcastTo ⟨4, ![a, b, c, d]⟩ x h (ix4 i j k l) = x (ix4 i j k (0 : Fin 1)) :=
  broadcastTo_apply x h _ _ (fun ax => by
    match ax with
    | ⟨0, _⟩ =>
      show i.val = if a = 1 then 0 else i.val
      split
      · have := i.isLt; omega
      · rfl
    | ⟨1, _⟩ =>
      show j.val = if b = 1 then 0 else j.val
      split
      · have := j.isLt; omega
      · rfl
    | ⟨2, _⟩ =>
      show k.val = if c = 1 then 0 else k.val
      split
      · have := k.isLt; omega
      · rfl
    | ⟨3, _⟩ => rfl)

/-- An array [a, b, c, d] cast to [a, b, e] with `e = c * d` reads, at (i, j, m) with `m = d * k + l`, the array
    at (i, j, k, l): the last two axes laid end to end. -/
theorem shapeCast_abcd_abe_apply {a b c d e : ℕ} (x : (⟨4, ![a, b, c, d]⟩ : Shape).Idx → α)
    (h : (⟨4, ![a, b, c, d]⟩ : Shape).ShapeCasts ⟨3, ![a, b, e]⟩) (hcd : c * d = e)
    (i : Fin a) (j : Fin b) (k : Fin c) (l : Fin d) (m : Fin e) (hm : m.val = d * k.val + l.val) :
    shapeCast ⟨3, ![a, b, e]⟩ x h (ix3 i j m) = x (ix4 i j k l) :=
  shapeCast_apply x h _ _ (by
    rw [Shape.rowMajor_val_four, Shape.rowMajor_val_three]
    show ((i.val * b + j.val) * c + k.val) * d + l.val = (i.val * b + j.val) * e + m.val
    rw [hm, ← hcd]
    ring)

end Idealize.ShloMosaic.ValueIdx
-- ==== Proof.LibTrailingAxis.lean ====
/-
  Layout operations read at an index given by coordinates, for the forms a per-row statistic broadcast along a
  trailing axis meets, and for a trailing axis split in two:

  • a matrix [a, b] viewed [a, b, 1] (a unit axis put last), and that view broadcast to [a, b, c]: at (i, j, k)
    both read the matrix at (i, j) — what multiplying every entry of row (i, j) by one number per row does;
  • an array [a, b, e] viewed [a, b, c, d] with c * d = e (the last axis split in two): at (i, j, k, l) it reads
    the array at (i, j, m) with m = d * k + l, the row-major number of (k, l).

  Each is the general lemma for the operation (a shape cast reads the operand at the same row-major position; a
  broadcast reads it at the result's coordinates, 0 on the operand's unit axes) with both indices written by
  coordinates and the arithmetic done.
-/
import Idealize.ShloMosaic.Lib.ValueIdx
import Idealize.ShloMosaic.Lib.Pipeline.Value

namespace Cert.Lib.TrailingAxis

open Idealize.ShloMosaic Idealize.ShloMosaic.ValueIdx

variable {α : Type}

/-- A matrix [a, b] cast to [a, b, 1] reads, at (i, j, u), the matrix at (i, j): both indices sit at row-major
    position i * b + j. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    rw [hu, Nat.mul_one, Nat.add_zero])

/-- An array [a, b, 1] broadcast to [a, b, c] reads, at (i, j, k), the operand at (i, j, 0): the unit axis is read
    at 0, the other two at the result's own coordinates. -/
theorem broadcastTo_ab1_abc_apply {a b c : ℕ} (x : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ x h (ix3 i j k) = x (ix3 i j (0 : Fin 1)) :=
  broadcastTo_apply x h _ _ (fun ax => by
    match ax with
    | ⟨0, _⟩ =>
      show i.val = if a = 1 then 0 else i.val
      split
      · have := i.isLt; omega
      · rfl
    | ⟨1, _⟩ =>
      show j.val = if b = 1 then 0 else j.val
      split
      · have := j.isLt; omega
      · rfl
    | ⟨2, _⟩ => rfl)

/-- The two steps together: a matrix given a trailing unit axis and repeated along it reads, at (i, j, k), the
    matrix at (i, j). -/
theorem broadcastTo_shapeCast_trailing_apply {a b c : ℕ} (x : (⟨2, ![a, b]⟩ : Shape).Idx → α)
    (hc : (⟨2, ![a, b]⟩ : Shape).ShapeCasts ⟨3, ![a, b, 1]⟩) (hb : (⟨3, ![a, b, 1]⟩ : Shape).Broadcasts ⟨3, ![a, b, c]⟩)
    (i : Fin a) (j : Fin b) (k : Fin c) :
    broadcastTo ⟨3, ![a, b, c]⟩ (shapeCast ⟨3, ![a, b, 1]⟩ x hc) hb (ix3 i j k) = x (ix2 i j) := by
  rw [broadcastTo_ab1_abc_apply, shapeCast_ab_ab1_apply]

/-- An array [a, b, e] cast to [a, b, c, d] with `c * d = e` reads, at (i, j, k, l), the array at (i, j, m) with
    `m = d * k + l`: the last axis cut into c runs of d. -/
theorem shapeCast_abe_abcd_apply {a b c d e : ℕ} (x : (⟨3, ![a, b, e]⟩ : Shape).Idx → α)
    (h : (⟨3, ![a, b, e]⟩ : Shape).ShapeCasts ⟨4, ![a, b, c, d]⟩) (hcd : c * d = e)
    (i : Fin a) (j : Fin b) (k : Fin c) (l : Fin d) (m : Fin e) (hm : m.val = d * k.val + l.val) :
    shapeCast ⟨4, ![a, b, c, d]⟩ x h (ix4 i j k l) = x (ix3 i j m) :=
  shapeCast_apply x h _ _ (by
    rw [Shape.rowMajor_val_three, Shape.rowMajor_val_four]
    show (i.val * b + j.val) * e + m.val = ((i.val * b + j.val) * c + k.val) * d + l.val
    rw [hm, ← hcd]
    ring)

end Cert.Lib.TrailingAxis
-- ==== Proof.KernelTiles.lean ====
/-
  What the body stores for a tile of the four input-weight traces, as a function of the tile's index: each of the four
  payloads is one of the four update formulas (Spec.lean) at the tile's extent, with the pole, the normalisation and the
  activity indicator read through the body's layout operations — a row `[1, 256]` and a matrix `[128, 256]` given a unit
  axis and repeated along the tile's 16 features, and the tile `[128, 16]` of the input repeated along the 256 hidden
  units.
-/
import proofs.«131562_j54863912239692_2_alg».proof.Proof.Gen.KernelIdeal.Skeleton
import proofs.«131562_j54863912239692_2_alg».proof.Proof.Spec
import proofs.«131562_j54863912239692_2_alg».proof.Proof.LibKeepAxis
import proofs.«131562_j54863912239692_2_alg».proof.Proof.LibTrailingAxis
import Idealize.ShloMosaic.Lib.ValueIdx
import Idealize.ShloMosaic.Lib.Pipeline.Value

noncomputable section

namespace Cert.KernelTiles

open Cert.KernelIdeal Cert.KernelIdeal.Gen Idealize.ShloMosaic Idealize.ShloMosaic.ValueIdx

variable {α : Type}

/-- An array `[1, 1, c]` repeated to `[a, b, c]` reads, at `(i, j, k)`, its one row at `k`. -/
theorem broadcastTo_11c_abc_apply {a b c : ℕ} (x : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ x h (ix3 i j k) = x (ix3 (0 : Fin 1) (0 : Fin 1) k) :=
  broadcastTo_apply x h _ _ (fun ax => by
    match ax with
    | ⟨0, _⟩ => rfl
    | ⟨1, _⟩ => rfl
    | ⟨2, _⟩ =>
      show k.val = if c = 1 then 0 else k.val
      split
      · have := k.isLt; omega
      · rfl)

/-- A row `[1, c]` given a unit axis and repeated to `[a, b, c]` reads, at `(i, j, k)`, the row at `k`. -/
theorem row_apply {a b c : ℕ} (v : (⟨2, ![1, c]⟩ : Shape).Idx → α)
    (hc : (⟨2, ![1, c]⟩ : Shape).ShapeCasts ⟨3, ![1, 1, c]⟩) (hb : (⟨3, ![1, 1, c]⟩ : Shape).Broadcasts ⟨3, ![a, b, c]⟩)
    (i : Fin a) (j : Fin b) (k : Fin c) :
    broadcastTo ⟨3, ![a, b, c]⟩ (shapeCast ⟨3, ![1, 1, c]⟩ v hc) hb (ix3 i j k) = v (ix2 (0 : Fin 1) k) := by
  rw [broadcastTo_11c_abc_apply, shapeCast_ac_a1c_apply]

/-- A matrix `[a, c]` given a middle unit axis and repeated to `[a, b, c]` reads, at `(i, j, k)`, the matrix at `(i, k)`. -/
theorem mid_apply {a b c : ℕ} (v : (⟨2, ![a, c]⟩ : Shape).Idx → α)
    (hc : (⟨2, ![a, c]⟩ : Shape).ShapeCasts ⟨3, ![a, 1, c]⟩) (hb : (⟨3, ![a, 1, c]⟩ : Shape).Broadcasts ⟨3, ![a, b, c]⟩)
    (i : Fin a) (j : Fin b) (k : Fin c) :
    broadcastTo ⟨3, ![a, b, c]⟩ (shapeCast ⟨3, ![a, 1, c]⟩ v hc) hb (ix3 i j k) = v (ix2 i k) := by
  rw [broadcastTo_a1c_abc_apply, shapeCast_ac_a1c_apply]

variable (g p n : FVec Ideal S1x256 .f32) (d : FVec Ideal S128x256 .f32) (xs : Vec Ideal S128x16 .f32)
  (A B : Vec Ideal S128x16x256 .f32)

/-- The first trace's tile: `d · (g·A − φ·B + n·x)`. -/
theorem tile_subIn : k0_pay33 g p n d xs A B = Cert.Spec.traceSubIn (D := 16) d g p n xs A B := by
  funext i
  obtain ⟨a, b, c, rfl⟩ : ∃ (a : Fin 128) (b : Fin 16) (c : Fin 256), i = ix3 a b c := ⟨i 0, i 1, i 2, eq_ix3 i⟩
  have eg := row_apply (a := 128) (b := 16) g shapeCasts_S1x256_S1x1x256 broadcasts_S1x1x256_S128x16x256 a b c
  have ep := row_apply (a := 128) (b := 16) p shapeCasts_S1x256_S1x1x256 broadcasts_S1x1x256_S128x16x256 a b c
  have en := row_apply (a := 128) (b := 16) n shapeCasts_S1x256_S1x1x256 broadcasts_S1x1x256_S128x16x256 a b c
  have ed := mid_apply (b := 16) d shapeCasts_S128x256_S128x1x256 broadcasts_S128x1x256_S128x16x256 a b c
  have ex := Cert.Lib.TrailingAxis.broadcastTo_shapeCast_trailing_apply (c := 256) xs shapeCasts_S128x16_S128x16x1
    broadcasts_S128x16x1_S128x16x256 a b c
  show broadcastTo S128x16x256 (shapeCast S128x1x256 d shapeCasts_S128x256_S128x1x256) broadcasts_S128x1x256_S128x16x256 (ix3 a b c)
      * (broadcastTo S128x16x256 (shapeCast S1x1x256 g shapeCasts_S1x256_S1x1x256) broadcasts_S1x1x256_S128x16x256 (ix3 a b c) * A (ix3 a b c)
        - broadcastTo S128x16x256 (shapeCast S1x1x256 p shapeCasts_S1x256_S1x1x256) broadcasts_S1x1x256_S128x16x256 (ix3 a b c) * B (ix3 a b c)
        + broadcastTo S128x16x256 (shapeCast S1x1x256 n shapeCasts_S1x256_S1x1x256) broadcasts_S1x1x256_S128x16x256 (ix3 a b c)
          * broadcastTo S128x16x256 (shapeCast S128x16x1 xs shapeCasts_S128x16_S128x16x1) broadcasts_S128x16x1_S128x16x256 (ix3 a b c))
    = d (ix2 a c) * (g (ix2 (0 : Fin 1) c) * A (ix3 a b c) - p (ix2 (0 : Fin 1) c) * B (ix3 a b c) + n (ix2 (0 : Fin 1) c) * xs (ix2 a b))
  rw [eg, ep, en, ed, ex]

/-- The second trace's tile: `d · (g·A + φ·B)`, `A` the second old trace and `B` the first. -/
theorem tile_add (A4 A5 : Vec Ideal S128x16x256 .f32) : k0_pay34 g p d A4 A5 = Cert.Spec.traceAdd (D := 16) d g p A5 A4 := by
  funext i
  obtain ⟨a, b, c, rfl⟩ : ∃ (a : Fin 128) (b : Fin 16) (c : Fin 256), i = ix3 a b c := ⟨i 0, i 1, i 2, eq_ix3 i⟩
  have eg := row_apply (a := 128) (b := 16) g shapeCasts_S1x256_S1x1x256 broadcasts_S1x1x256_S128x16x256 a b c
  have ep := row_apply (a := 128) (b := 16) p shapeCasts_S1x256_S1x1x256 broadcasts_S1x1x256_S128x16x256 a b c
  have ed := mid_apply (b := 16) d shapeCasts_S128x256_S128x1x256 broadcasts_S128x1x256_S128x16x256 a b c
  show broadcastTo S128x16x256 (shapeCast S128x1x256 d shapeCasts_S128x256_S128x1x256) broadcasts_S128x1x256_S128x16x256 (ix3 a b c)
      * (broadcastTo S128x16x256 (shapeCast S1x1x256 g shapeCasts_S1x256_S1x1x256) broadcasts_S1x1x256_S128x16x256 (ix3 a b c) * A5 (ix3 a b c)
        + broadcastTo S128x16x256 (shapeCast S1x1x256 p shapeCasts_S1x256_S1x1x256) broadcasts_S1x1x256_S128x16x256 (ix3 a b c) * A4 (ix3 a b c))
    = d (ix2 a c) * (g (ix2 (0 : Fin 1) c) * A5 (ix3 a b c) + p (ix2 (0 : Fin 1) c) * A4 (ix3 a b c))
  rw [eg, ep, ed]

/-- The third trace's tile: `d · (g·A − φ·B)`. -/
theorem tile_sub : k0_pay1 (k0_pay30 d) (k0_pay35 g p A B) = Cert.Spec.traceSub (D := 16) d g p A B := by
  funext i
  obtain ⟨a, b, c, rfl⟩ : ∃ (a : Fin 128) (b : Fin 16) (c : Fin 256), i = ix3 a b c := ⟨i 0, i 1, i 2, eq_ix3 i⟩
  have eg := row_apply (a := 128) (b := 16) g shapeCasts_S1x256_S1x1x256 broadcasts_S1x1x256_S128x16x256 a b c
  have ep := row_apply (a := 128) (b := 16) p shapeCasts_S1x256_S1x1x256 broadcasts_S1x1x256_S128x16x256 a b c
  have ed := mid_apply (b := 16) d shapeCasts_S128x256_S128x1x256 broadcasts_S128x1x256_S128x16x256 a b c
  show broadcastTo S128x16x256 (shapeCast S128x1x256 d shapeCasts_S128x256_S128x1x256) broadcasts_S128x1x256_S128x16x256 (ix3 a b c)
      * (broadcastTo S128x16x256 (shapeCast S1x1x256 g shapeCasts_S1x256_S1x1x256) broadcasts_S1x1x256_S128x16x256 (ix3 a b c) * A (ix3 a b c)
        - broadcastTo S128x16x256 (shapeCast S1x1x256 p shapeCasts_S1x256_S1x1x256) broadcasts_S1x1x256_S128x16x256 (ix3 a b c) * B (ix3 a b c))
    = d (ix2 a c) * (g (ix2 (0 : Fin 1) c) * A (ix3 a b c) - p (ix2 (0 : Fin 1) c) * B (ix3 a b c))
  rw [eg, ep, ed]

/-- The fourth trace's tile: `d · (g·A + φ·B + n·x)`, `A` the fourth old trace and `B` the third. -/
theorem tile_addIn (A6 A7 : Vec Ideal S128x16x256 .f32) :
    k0_pay2 (k0_pay28 g) (k0_pay29 p) (k0_pay31 d) (k0_pay32 n xs) A6 A7 = Cert.Spec.traceAddIn (D := 16) d g p n xs A7 A6 := by
  funext i
  obtain ⟨a, b, c, rfl⟩ : ∃ (a : Fin 128) (b : Fin 16) (c : Fin 256), i = ix3 a b c := ⟨i 0, i 1, i 2, eq_ix3 i⟩
  have eg := row_apply (a := 128) (b := 16) g shapeCasts_S1x256_S1x1x256 broadcasts_S1x1x256_S128x16x256 a b c
  have ep := row_apply (a := 128) (b := 16) p shapeCasts_S1x256_S1x1x256 broadcasts_S1x1x256_S128x16x256 a b c
  have en := row_apply (a := 128) (b := 16) n shapeCasts_S1x256_S1x1x256 broadcasts_S1x1x256_S128x16x256 a b c
  have ed := mid_apply (b := 16) d shapeCasts_S128x256_S128x1x256 broadcasts_S128x1x256_S128x16x256 a b c
  have ex := Cert.Lib.TrailingAxis.broadcastTo_shapeCast_trailing_apply (c := 256) xs shapeCasts_S128x16_S128x16x1
    broadcasts_S128x16x1_S128x16x256 a b c
  show broadcastTo S128x16x256 (shapeCast S128x1x256 d shapeCasts_S128x256_S128x1x256) broadcasts_S128x1x256_S128x16x256 (ix3 a b c)
      * (broadcastTo S128x16x256 (shapeCast S1x1x256 g shapeCasts_S1x256_S1x1x256) broadcasts_S1x1x256_S128x16x256 (ix3 a b c) * A7 (ix3 a b c)
        + broadcastTo S128x16x256 (shapeCast S1x1x256 p shapeCasts_S1x256_S1x1x256) broadcasts_S1x1x256_S128x16x256 (ix3 a b c) * A6 (ix3 a b c)
        + broadcastTo S128x16x256 (shapeCast S1x1x256 n shapeCasts_S1x256_S1x1x256) broadcasts_S1x1x256_S128x16x256 (ix3 a b c)
          * broadcastTo S128x16x256 (shapeCast S128x16x1 xs shapeCasts_S128x16_S128x16x1) broadcasts_S128x16x1_S128x16x256 (ix3 a b c))
    = d (ix2 a c) * (g (ix2 (0 : Fin 1) c) * A7 (ix3 a b c) + p (ix2 (0 : Fin 1) c) * A6 (ix3 a b c) + n (ix2 (0 : Fin 1) c) * xs (ix2 a b))
  rw [eg, ep, en, ed, ex]

end Cert.KernelTiles

end
-- ==== Proof.KernelArrays.lean ====
/-
  The ten result arrays after the kernel's run, each as one function of the argument arrays.

  At every grid point the body recomputes the two new states and the four parameter traces from operands that are staged
  whole, so what it leaves in those six outputs is the same at every point, and the one write-back (after the last point)
  writes the whole array. The four input-weight traces are written back tile by tile: point `t` writes features
  `16·t … 16·t + 15`, the tile of the updated trace there is the update of the old traces' tiles (Spec.lean), and the 16
  tiles cover the array.
-/
import proofs.«131562_j54863912239692_2_alg».proof.Proof.Gen.KernelIdeal.Value
import proofs.«131562_j54863912239692_2_alg».proof.Proof.KernelBlocks
import proofs.«131562_j54863912239692_2_alg».proof.Proof.KernelStores
import proofs.«131562_j54863912239692_2_alg».proof.Proof.KernelTileStores
import proofs.«131562_j54863912239692_2_alg».proof.Proof.KernelTiles
import proofs.«131562_j54863912239692_2_alg».proof.Proof.Spec
import proofs.«131562_j54863912239692_2_alg».proof.Proof.Quantities

set_option maxRecDepth 16384

noncomputable section

namespace Cert.KernelArrays

open Cert.KernelIdeal Cert.KernelIdeal.Gen Cert.Step Cert.KernelBlocks Idealize.ShloMosaic Idealize.ShloMosaic.TcCoe Idealize.SL.Sem
  Idealize.ShloMosaic.ValueIdx
open Idealize.ShloMosaic.Pipeline (Dat)

variable (m : (ℓ : Loc nD τ sig) → Buf (Elt Ideal) ℓ) (ρ : Dev nD → PrngReg)

/-! ## The argument arrays as launched, on core `c` -/

abbrev arg0 (c : Dev nD) : Vec Ideal S128x256 .f32 := m ((c : Thread nD τ).loc main_arg0)
abbrev arg1 (c : Dev nD) : Vec Ideal S128x256 .f32 := m ((c : Thread nD τ).loc main_arg1)
abbrev arg2 (c : Dev nD) : Vec Ideal S128x256 .f32 := m ((c : Thread nD τ).loc main_arg2)
abbrev arg3 (c : Dev nD) : Vec Ideal S128x256 .f32 := m ((c : Thread nD τ).loc main_arg3)
abbrev arg4 (c : Dev nD) : Vec Ideal S128x256 .f32 := m ((c : Thread nD τ).loc main_arg4)
abbrev arg5 (c : Dev nD) : Vec Ideal S128x256 .f32 := m ((c : Thread nD τ).loc main_arg5)
abbrev arg6 (c : Dev nD) : Vec Ideal S128x256 .f32 := m ((c : Thread nD τ).loc main_arg6)
abbrev arg7 (c : Dev nD) : Vec Ideal S128x256x256 .f32 := m ((c : Thread nD τ).loc main_arg7)
abbrev arg8 (c : Dev nD) : Vec Ideal S128x256x256 .f32 := m ((c : Thread nD τ).loc main_arg8)
abbrev arg9 (c : Dev nD) : Vec Ideal S128x256x256 .f32 := m ((c : Thread nD τ).loc main_arg9)
abbrev arg10 (c : Dev nD) : Vec Ideal S128x256x256 .f32 := m ((c : Thread nD τ).loc main_arg10)
abbrev arg11 (c : Dev nD) : Vec Ideal S1x256 .f32 := m ((c : Thread nD τ).loc main_arg11)
abbrev arg12 (c : Dev nD) : Vec Ideal S1x256 .f32 := m ((c : Thread nD τ).loc main_arg12)
abbrev arg13 (c : Dev nD) : Vec Ideal S256x256 .f32 := m ((c : Thread nD τ).loc main_arg13)
abbrev arg14 (c : Dev nD) : Vec Ideal S256x256 .f32 := m ((c : Thread nD τ).loc main_arg14)

/-! ## The result arrays -/

/-- The new first state. -/
abbrev res0 (c : Dev nD) : Buf (Elt Ideal) ((c : Thread nD τ).loc main_v0_0) :=
  post1 (arg11 m c) (arg12 m c) (arg0 m c) (arg13 m c) (arg1 m c) (arg2 m c)

/-- The new second state. -/
abbrev res1 (c : Dev nD) : Buf (Elt Ideal) ((c : Thread nD τ).loc main_v0_1) :=
  post2 (arg11 m c) (arg12 m c) (arg0 m c) (arg14 m c) (arg1 m c) (arg2 m c)

/-- The trace of `c1` with respect to the modulus parameter. -/
abbrev res2 (c : Dev nD) : Buf (Elt Ideal) ((c : Thread nD τ).loc main_v0_2) :=
  trace0 (arg11 m c) (arg12 m c) (arg0 m c) (arg13 m c) (arg1 m c) (arg2 m c) (arg3 m c) (arg4 m c)

/-- The trace of `c2` with respect to the modulus parameter. -/
abbrev res3 (c : Dev nD) : Buf (Elt Ideal) ((c : Thread nD τ).loc main_v0_3) :=
  trace1 (arg11 m c) (arg12 m c) (arg0 m c) (arg14 m c) (arg1 m c) (arg2 m c) (arg3 m c) (arg4 m c)

/-- The trace of `c1` with respect to the angle parameter. -/
abbrev res4 (c : Dev nD) : Buf (Elt Ideal) ((c : Thread nD τ).loc main_v0_4) :=
  trace2 (arg11 m c) (arg12 m c) (arg0 m c) (arg13 m c) (arg1 m c) (arg2 m c) (arg5 m c) (arg6 m c)

/-- The trace of `c2` with respect to the angle parameter. -/
abbrev res5 (c : Dev nD) : Buf (Elt Ideal) ((c : Thread nD τ).loc main_v0_5) :=
  trace3 (arg11 m c) (arg12 m c) (arg0 m c) (arg14 m c) (arg1 m c) (arg2 m c) (arg5 m c) (arg6 m c)

/-- The first input-weight trace, updated. -/
abbrev res6 (c : Dev nD) : Buf (Elt Ideal) ((c : Thread nD τ).loc main_v0_6) :=
  Cert.Spec.traceSubIn (D := 256) (act1 (arg11 m c) (arg12 m c) (arg0 m c) (arg13 m c) (arg1 m c) (arg2 m c)) (poleRe (arg11 m c) (arg12 m c)) (poleIm (arg11 m c) (arg12 m c)) (inNorm (arg11 m c)) (arg0 m c) (arg7 m c) (arg8 m c)

/-- The second input-weight trace, updated. -/
abbrev res7 (c : Dev nD) : Buf (Elt Ideal) ((c : Thread nD τ).loc main_v0_7) :=
  Cert.Spec.traceAdd (D := 256) (act2 (arg11 m c) (arg12 m c) (arg0 m c) (arg14 m c) (arg1 m c) (arg2 m c)) (poleRe (arg11 m c) (arg12 m c)) (poleIm (arg11 m c) (arg12 m c)) (arg8 m c) (arg7 m c)

/-- The third input-weight trace, updated. -/
abbrev res8 (c : Dev nD) : Buf (Elt Ideal) ((c : Thread nD τ).loc main_v0_8) :=
  Cert.Spec.traceSub (D := 256) (act1 (arg11 m c) (arg12 m c) (arg0 m c) (arg13 m c) (arg1 m c) (arg2 m c)) (poleRe (arg11 m c) (arg12 m c)) (poleIm (arg11 m c) (arg12 m c)) (arg9 m c) (arg10 m c)

/-- The fourth input-weight trace, updated. -/
abbrev res9 (c : Dev nD) : Buf (Elt Ideal) ((c : Thread nD τ).loc main_v0_9) :=
  Cert.Spec.traceAddIn (D := 256) (act2 (arg11 m c) (arg12 m c) (arg0 m c) (arg14 m c) (arg1 m c) (arg2 m c)) (poleRe (arg11 m c) (arg12 m c)) (poleIm (arg11 m c) (arg12 m c)) (inNorm (arg11 m c)) (arg0 m c) (arg10 m c) (arg9 m c)

/-! ## The output windows' index maps, decided over the grid -/

theorem oidx_15 : ∀ t : Fin cfg0.N, win0_15.index t (0 : Fin 2) = 0 ∧ win0_15.index t (1 : Fin 2) = 0 :=
  (by decide +kernel : ∀ t : Fin grid0.N, win0_15.index t (0 : Fin 2) = 0 ∧ win0_15.index t (1 : Fin 2) = 0)
theorem oidx_16 : ∀ t : Fin cfg0.N, win0_16.index t (0 : Fin 2) = 0 ∧ win0_16.index t (1 : Fin 2) = 0 :=
  (by decide +kernel : ∀ t : Fin grid0.N, win0_16.index t (0 : Fin 2) = 0 ∧ win0_16.index t (1 : Fin 2) = 0)
theorem oidx_17 : ∀ t : Fin cfg0.N, win0_17.index t (0 : Fin 2) = 0 ∧ win0_17.index t (1 : Fin 2) = 0 :=
  (by decide +kernel : ∀ t : Fin grid0.N, win0_17.index t (0 : Fin 2) = 0 ∧ win0_17.index t (1 : Fin 2) = 0)
theorem oidx_18 : ∀ t : Fin cfg0.N, win0_18.index t (0 : Fin 2) = 0 ∧ win0_18.index t (1 : Fin 2) = 0 :=
  (by decide +kernel : ∀ t : Fin grid0.N, win0_18.index t (0 : Fin 2) = 0 ∧ win0_18.index t (1 : Fin 2) = 0)
theorem oidx_19 : ∀ t : Fin cfg0.N, win0_19.index t (0 : Fin 2) = 0 ∧ win0_19.index t (1 : Fin 2) = 0 :=
  (by decide +kernel : ∀ t : Fin grid0.N, win0_19.index t (0 : Fin 2) = 0 ∧ win0_19.index t (1 : Fin 2) = 0)
theorem oidx_20 : ∀ t : Fin cfg0.N, win0_20.index t (0 : Fin 2) = 0 ∧ win0_20.index t (1 : Fin 2) = 0 :=
  (by decide +kernel : ∀ t : Fin grid0.N, win0_20.index t (0 : Fin 2) = 0 ∧ win0_20.index t (1 : Fin 2) = 0)
theorem oidx_21 : ∀ t : Fin cfg0.N, win0_21.index t (0 : Fin 3) = 0 ∧ win0_21.index t (1 : Fin 3) = t.val ∧ win0_21.index t (2 : Fin 3) = 0 :=
  (by decide +kernel : ∀ t : Fin grid0.N, win0_21.index t (0 : Fin 3) = 0 ∧ win0_21.index t (1 : Fin 3) = t.val ∧ win0_21.index t (2 : Fin 3) = 0)
theorem oidx_22 : ∀ t : Fin cfg0.N, win0_22.index t (0 : Fin 3) = 0 ∧ win0_22.index t (1 : Fin 3) = t.val ∧ win0_22.index t (2 : Fin 3) = 0 :=
  (by decide +kernel : ∀ t : Fin grid0.N, win0_22.index t (0 : Fin 3) = 0 ∧ win0_22.index t (1 : Fin 3) = t.val ∧ win0_22.index t (2 : Fin 3) = 0)
theorem oidx_23 : ∀ t : Fin cfg0.N, win0_23.index t (0 : Fin 3) = 0 ∧ win0_23.index t (1 : Fin 3) = t.val ∧ win0_23.index t (2 : Fin 3) = 0 :=
  (by decide +kernel : ∀ t : Fin grid0.N, win0_23.index t (0 : Fin 3) = 0 ∧ win0_23.index t (1 : Fin 3) = t.val ∧ win0_23.index t (2 : Fin 3) = 0)
theorem oidx_24 : ∀ t : Fin cfg0.N, win0_24.index t (0 : Fin 3) = 0 ∧ win0_24.index t (1 : Fin 3) = t.val ∧ win0_24.index t (2 : Fin 3) = 0 :=
  (by decide +kernel : ∀ t : Fin grid0.N, win0_24.index t (0 : Fin 3) = 0 ∧ win0_24.index t (1 : Fin 3) = t.val ∧ win0_24.index t (2 : Fin 3) = 0)

/-- The last grid point, after which the six whole outputs are written back. -/
def tLast : Fin cfg0.N := ⟨15, by rw [show cfg0.N = 16 from N_0]; decide⟩

/-! ## The six whole outputs -/

/-- An index is in output window 15's block at point `t` iff each coordinate is in the block's range. -/
theorem mem_blk15 (t : Fin cfg0.N) (i : S128x256.Idx) :
    i ∈ ((cfg0.win 15).blk t).view.set ↔ ∀ a : Fin 2, win0_15.index t a * S128x256.size a ≤ (i a).val ∧ (i a).val < win0_15.index t a * S128x256.size a + S128x256.size a := by
  show i ∈ ((View.whole main_v0_0).slice (win0_15.rect t)).set ↔ _
  rw [View.set_slice_whole, Rect.mem_set_unit]
  exact Iff.rfl

/-- What point `t` would write back to output window 15 is the whole of `res0`. -/
theorem flushed15_eq (c : Dev nD) (t : Fin cfg0.N) :
    (dats m 0 c).flushed 15 t = ((cfg0.win 15).blk t).view.read (Elt Ideal) (res0 m c) := by
  rw [Cert.KernelIdeal.Value.flushed15_A]
  refine (congrArg ((cfg0.win 15).cut (grid0.coords t)) (Cert.KernelStores.store_post1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t))).trans ?_
  rw [block_7 m c t, block_8 m c t, block_0 m c t, block_9 m c t, block_1 m c t, block_2 m c t]
  funext y
  obtain ⟨e0, e1⟩ := oidx_15 t
  rw [View.read_apply]
  show res0 m c _ = res0 m c _
  refine congrArg _ (funext fun a => Fin.ext ?_)
  match a with
  | ⟨0, _⟩ => show (y 0).val = win0_15.index t (0 : Fin 2) * 128 + 1 * (y 0).val; rw [e0]; omega
  | ⟨1, _⟩ => show (y 1).val = win0_15.index t (1 : Fin 2) * 256 + 1 * (y 1).val; rw [e1]; omega

/-- So the array ends holding `res0`: the last point's block is the whole array. -/
theorem final15 (c : Dev nD) : (dats m 0 c).arrAt 15 cfg0.N = res0 m c :=
  (dats m 0 c).arrAt_eq_of_cover 15 (res0 m c) (fun t _ => flushed15_eq m c t) fun i =>
    ⟨tLast, (flush0_15 tLast).mpr rfl, by
      rw [mem_blk15]
      obtain ⟨e0, e1⟩ := oidx_15 tLast
      have h0 : (i 0).val < 128 := (i 0).isLt
      have h1 : (i 1).val < 256 := (i 1).isLt
      intro a
      match a with
      | ⟨0, _⟩ => show win0_15.index tLast (0 : Fin 2) * 128 ≤ (i 0).val ∧ (i 0).val < win0_15.index tLast (0 : Fin 2) * 128 + 128; rw [e0]; omega
      | ⟨1, _⟩ => show win0_15.index tLast (1 : Fin 2) * 256 ≤ (i 1).val ∧ (i 1).val < win0_15.index tLast (1 : Fin 2) * 256 + 256; rw [e1]; omega⟩

/-- An index is in output window 16's block at point `t` iff each coordinate is in the block's range. -/
theorem mem_blk16 (t : Fin cfg0.N) (i : S128x256.Idx) :
    i ∈ ((cfg0.win 16).blk t).view.set ↔ ∀ a : Fin 2, win0_16.index t a * S128x256.size a ≤ (i a).val ∧ (i a).val < win0_16.index t a * S128x256.size a + S128x256.size a := by
  show i ∈ ((View.whole main_v0_1).slice (win0_16.rect t)).set ↔ _
  rw [View.set_slice_whole, Rect.mem_set_unit]
  exact Iff.rfl

/-- What point `t` would write back to output window 16 is the whole of `res1`. -/
theorem flushed16_eq (c : Dev nD) (t : Fin cfg0.N) :
    (dats m 0 c).flushed 16 t = ((cfg0.win 16).blk t).view.read (Elt Ideal) (res1 m c) := by
  rw [Cert.KernelIdeal.Value.flushed16_A]
  refine (congrArg ((cfg0.win 16).cut (grid0.coords t)) (Cert.KernelStores.store_post2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t))).trans ?_
  rw [block_7 m c t, block_8 m c t, block_0 m c t, block_10 m c t, block_1 m c t, block_2 m c t]
  funext y
  obtain ⟨e0, e1⟩ := oidx_16 t
  rw [View.read_apply]
  show res1 m c _ = res1 m c _
  refine congrArg _ (funext fun a => Fin.ext ?_)
  match a with
  | ⟨0, _⟩ => show (y 0).val = win0_16.index t (0 : Fin 2) * 128 + 1 * (y 0).val; rw [e0]; omega
  | ⟨1, _⟩ => show (y 1).val = win0_16.index t (1 : Fin 2) * 256 + 1 * (y 1).val; rw [e1]; omega

/-- So the array ends holding `res1`: the last point's block is the whole array. -/
theorem final16 (c : Dev nD) : (dats m 0 c).arrAt 16 cfg0.N = res1 m c :=
  (dats m 0 c).arrAt_eq_of_cover 16 (res1 m c) (fun t _ => flushed16_eq m c t) fun i =>
    ⟨tLast, (flush0_16 tLast).mpr rfl, by
      rw [mem_blk16]
      obtain ⟨e0, e1⟩ := oidx_16 tLast
      have h0 : (i 0).val < 128 := (i 0).isLt
      have h1 : (i 1).val < 256 := (i 1).isLt
      intro a
      match a with
      | ⟨0, _⟩ => show win0_16.index tLast (0 : Fin 2) * 128 ≤ (i 0).val ∧ (i 0).val < win0_16.index tLast (0 : Fin 2) * 128 + 128; rw [e0]; omega
      | ⟨1, _⟩ => show win0_16.index tLast (1 : Fin 2) * 256 ≤ (i 1).val ∧ (i 1).val < win0_16.index tLast (1 : Fin 2) * 256 + 256; rw [e1]; omega⟩

/-- An index is in output window 17's block at point `t` iff each coordinate is in the block's range. -/
theorem mem_blk17 (t : Fin cfg0.N) (i : S128x256.Idx) :
    i ∈ ((cfg0.win 17).blk t).view.set ↔ ∀ a : Fin 2, win0_17.index t a * S128x256.size a ≤ (i a).val ∧ (i a).val < win0_17.index t a * S128x256.size a + S128x256.size a := by
  show i ∈ ((View.whole main_v0_2).slice (win0_17.rect t)).set ↔ _
  rw [View.set_slice_whole, Rect.mem_set_unit]
  exact Iff.rfl

/-- What point `t` would write back to output window 17 is the whole of `res2`. -/
theorem flushed17_eq (c : Dev nD) (t : Fin cfg0.N) :
    (dats m 0 c).flushed 17 t = ((cfg0.win 17).blk t).view.read (Elt Ideal) (res2 m c) := by
  rw [Cert.KernelIdeal.Value.flushed17_A]
  refine (congrArg ((cfg0.win 17).cut (grid0.coords t)) (Cert.KernelStores.store_trace0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t))).trans ?_
  rw [block_7 m c t, block_8 m c t, block_0 m c t, block_9 m c t, block_1 m c t, block_2 m c t, block_3 m c t, block_4 m c t]
  funext y
  obtain ⟨e0, e1⟩ := oidx_17 t
  rw [View.read_apply]
  show res2 m c _ = res2 m c _
  refine congrArg _ (funext fun a => Fin.ext ?_)
  match a with
  | ⟨0, _⟩ => show (y 0).val = win0_17.index t (0 : Fin 2) * 128 + 1 * (y 0).val; rw [e0]; omega
  | ⟨1, _⟩ => show (y 1).val = win0_17.index t (1 : Fin 2) * 256 + 1 * (y 1).val; rw [e1]; omega

/-- So the array ends holding `res2`: the last point's block is the whole array. -/
theorem final17 (c : Dev nD) : (dats m 0 c).arrAt 17 cfg0.N = res2 m c :=
  (dats m 0 c).arrAt_eq_of_cover 17 (res2 m c) (fun t _ => flushed17_eq m c t) fun i =>
    ⟨tLast, (flush0_17 tLast).mpr rfl, by
      rw [mem_blk17]
      obtain ⟨e0, e1⟩ := oidx_17 tLast
      have h0 : (i 0).val < 128 := (i 0).isLt
      have h1 : (i 1).val < 256 := (i 1).isLt
      intro a
      match a with
      | ⟨0, _⟩ => show win0_17.index tLast (0 : Fin 2) * 128 ≤ (i 0).val ∧ (i 0).val < win0_17.index tLast (0 : Fin 2) * 128 + 128; rw [e0]; omega
      | ⟨1, _⟩ => show win0_17.index tLast (1 : Fin 2) * 256 ≤ (i 1).val ∧ (i 1).val < win0_17.index tLast (1 : Fin 2) * 256 + 256; rw [e1]; omega⟩

/-- An index is in output window 18's block at point `t` iff each coordinate is in the block's range. -/
theorem mem_blk18 (t : Fin cfg0.N) (i : S128x256.Idx) :
    i ∈ ((cfg0.win 18).blk t).view.set ↔ ∀ a : Fin 2, win0_18.index t a * S128x256.size a ≤ (i a).val ∧ (i a).val < win0_18.index t a * S128x256.size a + S128x256.size a := by
  show i ∈ ((View.whole main_v0_3).slice (win0_18.rect t)).set ↔ _
  rw [View.set_slice_whole, Rect.mem_set_unit]
  exact Iff.rfl

/-- What point `t` would write back to output window 18 is the whole of `res3`. -/
theorem flushed18_eq (c : Dev nD) (t : Fin cfg0.N) :
    (dats m 0 c).flushed 18 t = ((cfg0.win 18).blk t).view.read (Elt Ideal) (res3 m c) := by
  rw [Cert.KernelIdeal.Value.flushed18_A]
  refine (congrArg ((cfg0.win 18).cut (grid0.coords t)) (Cert.KernelStores.store_trace1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t))).trans ?_
  rw [block_7 m c t, block_8 m c t, block_0 m c t, block_10 m c t, block_1 m c t, block_2 m c t, block_3 m c t, block_4 m c t]
  funext y
  obtain ⟨e0, e1⟩ := oidx_18 t
  rw [View.read_apply]
  show res3 m c _ = res3 m c _
  refine congrArg _ (funext fun a => Fin.ext ?_)
  match a with
  | ⟨0, _⟩ => show (y 0).val = win0_18.index t (0 : Fin 2) * 128 + 1 * (y 0).val; rw [e0]; omega
  | ⟨1, _⟩ => show (y 1).val = win0_18.index t (1 : Fin 2) * 256 + 1 * (y 1).val; rw [e1]; omega

/-- So the array ends holding `res3`: the last point's block is the whole array. -/
theorem final18 (c : Dev nD) : (dats m 0 c).arrAt 18 cfg0.N = res3 m c :=
  (dats m 0 c).arrAt_eq_of_cover 18 (res3 m c) (fun t _ => flushed18_eq m c t) fun i =>
    ⟨tLast, (flush0_18 tLast).mpr rfl, by
      rw [mem_blk18]
      obtain ⟨e0, e1⟩ := oidx_18 tLast
      have h0 : (i 0).val < 128 := (i 0).isLt
      have h1 : (i 1).val < 256 := (i 1).isLt
      intro a
      match a with
      | ⟨0, _⟩ => show win0_18.index tLast (0 : Fin 2) * 128 ≤ (i 0).val ∧ (i 0).val < win0_18.index tLast (0 : Fin 2) * 128 + 128; rw [e0]; omega
      | ⟨1, _⟩ => show win0_18.index tLast (1 : Fin 2) * 256 ≤ (i 1).val ∧ (i 1).val < win0_18.index tLast (1 : Fin 2) * 256 + 256; rw [e1]; omega⟩

/-- An index is in output window 19's block at point `t` iff each coordinate is in the block's range. -/
theorem mem_blk19 (t : Fin cfg0.N) (i : S128x256.Idx) :
    i ∈ ((cfg0.win 19).blk t).view.set ↔ ∀ a : Fin 2, win0_19.index t a * S128x256.size a ≤ (i a).val ∧ (i a).val < win0_19.index t a * S128x256.size a + S128x256.size a := by
  show i ∈ ((View.whole main_v0_4).slice (win0_19.rect t)).set ↔ _
  rw [View.set_slice_whole, Rect.mem_set_unit]
  exact Iff.rfl

/-- What point `t` would write back to output window 19 is the whole of `res4`. -/
theorem flushed19_eq (c : Dev nD) (t : Fin cfg0.N) :
    (dats m 0 c).flushed 19 t = ((cfg0.win 19).blk t).view.read (Elt Ideal) (res4 m c) := by
  rw [Cert.KernelIdeal.Value.flushed19_A]
  refine (congrArg ((cfg0.win 19).cut (grid0.coords t)) (Cert.KernelStores.store_trace2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t))).trans ?_
  rw [block_7 m c t, block_8 m c t, block_0 m c t, block_9 m c t, block_1 m c t, block_2 m c t, block_5 m c t, block_6 m c t]
  funext y
  obtain ⟨e0, e1⟩ := oidx_19 t
  rw [View.read_apply]
  show res4 m c _ = res4 m c _
  refine congrArg _ (funext fun a => Fin.ext ?_)
  match a with
  | ⟨0, _⟩ => show (y 0).val = win0_19.index t (0 : Fin 2) * 128 + 1 * (y 0).val; rw [e0]; omega
  | ⟨1, _⟩ => show (y 1).val = win0_19.index t (1 : Fin 2) * 256 + 1 * (y 1).val; rw [e1]; omega

/-- So the array ends holding `res4`: the last point's block is the whole array. -/
theorem final19 (c : Dev nD) : (dats m 0 c).arrAt 19 cfg0.N = res4 m c :=
  (dats m 0 c).arrAt_eq_of_cover 19 (res4 m c) (fun t _ => flushed19_eq m c t) fun i =>
    ⟨tLast, (flush0_19 tLast).mpr rfl, by
      rw [mem_blk19]
      obtain ⟨e0, e1⟩ := oidx_19 tLast
      have h0 : (i 0).val < 128 := (i 0).isLt
      have h1 : (i 1).val < 256 := (i 1).isLt
      intro a
      match a with
      | ⟨0, _⟩ => show win0_19.index tLast (0 : Fin 2) * 128 ≤ (i 0).val ∧ (i 0).val < win0_19.index tLast (0 : Fin 2) * 128 + 128; rw [e0]; omega
      | ⟨1, _⟩ => show win0_19.index tLast (1 : Fin 2) * 256 ≤ (i 1).val ∧ (i 1).val < win0_19.index tLast (1 : Fin 2) * 256 + 256; rw [e1]; omega⟩

/-- An index is in output window 20's block at point `t` iff each coordinate is in the block's range. -/
theorem mem_blk20 (t : Fin cfg0.N) (i : S128x256.Idx) :
    i ∈ ((cfg0.win 20).blk t).view.set ↔ ∀ a : Fin 2, win0_20.index t a * S128x256.size a ≤ (i a).val ∧ (i a).val < win0_20.index t a * S128x256.size a + S128x256.size a := by
  show i ∈ ((View.whole main_v0_5).slice (win0_20.rect t)).set ↔ _
  rw [View.set_slice_whole, Rect.mem_set_unit]
  exact Iff.rfl

/-- What point `t` would write back to output window 20 is the whole of `res5`. -/
theorem flushed20_eq (c : Dev nD) (t : Fin cfg0.N) :
    (dats m 0 c).flushed 20 t = ((cfg0.win 20).blk t).view.read (Elt Ideal) (res5 m c) := by
  rw [Cert.KernelIdeal.Value.flushed20_A]
  refine (congrArg ((cfg0.win 20).cut (grid0.coords t)) (Cert.KernelStores.store_trace3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t))).trans ?_
  rw [block_7 m c t, block_8 m c t, block_0 m c t, block_10 m c t, block_1 m c t, block_2 m c t, block_5 m c t, block_6 m c t]
  funext y
  obtain ⟨e0, e1⟩ := oidx_20 t
  rw [View.read_apply]
  show res5 m c _ = res5 m c _
  refine congrArg _ (funext fun a => Fin.ext ?_)
  match a with
  | ⟨0, _⟩ => show (y 0).val = win0_20.index t (0 : Fin 2) * 128 + 1 * (y 0).val; rw [e0]; omega
  | ⟨1, _⟩ => show (y 1).val = win0_20.index t (1 : Fin 2) * 256 + 1 * (y 1).val; rw [e1]; omega

/-- So the array ends holding `res5`: the last point's block is the whole array. -/
theorem final20 (c : Dev nD) : (dats m 0 c).arrAt 20 cfg0.N = res5 m c :=
  (dats m 0 c).arrAt_eq_of_cover 20 (res5 m c) (fun t _ => flushed20_eq m c t) fun i =>
    ⟨tLast, (flush0_20 tLast).mpr rfl, by
      rw [mem_blk20]
      obtain ⟨e0, e1⟩ := oidx_20 tLast
      have h0 : (i 0).val < 128 := (i 0).isLt
      have h1 : (i 1).val < 256 := (i 1).isLt
      intro a
      match a with
      | ⟨0, _⟩ => show win0_20.index tLast (0 : Fin 2) * 128 ≤ (i 0).val ∧ (i 0).val < win0_20.index tLast (0 : Fin 2) * 128 + 128; rw [e0]; omega
      | ⟨1, _⟩ => show win0_20.index tLast (1 : Fin 2) * 256 ≤ (i 1).val ∧ (i 1).val < win0_20.index tLast (1 : Fin 2) * 256 + 256; rw [e1]; omega⟩

/-! ## The four tiled outputs -/

/-- An index is in output window 21's block at point `t` iff each coordinate is in the block's range. -/
theorem mem_blk21 (t : Fin cfg0.N) (i : S128x256x256.Idx) :
    i ∈ ((cfg0.win 21).blk t).view.set ↔ ∀ a : Fin 3, win0_21.index t a * S128x16x256.size a ≤ (i a).val ∧ (i a).val < win0_21.index t a * S128x16x256.size a + S128x16x256.size a := by
  show i ∈ ((View.whole main_v0_6).slice (win0_21.rect t)).set ↔ _
  rw [View.set_slice_whole, Rect.mem_set_unit]
  exact Iff.rfl

/-- What point `t` writes back to output window 21 is tile `t` of `res6`. -/
theorem flushed21_eq (c : Dev nD) (t : Fin cfg0.N) :
    (dats m 0 c).flushed 21 t = ((cfg0.win 21).blk t).view.read (Elt Ideal) (res6 m c) := by
  rw [Cert.KernelIdeal.Value.flushed21_A]
  refine (congrArg ((cfg0.win 21).cut (grid0.coords t)) (Cert.KernelTileStores.store_tile4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t))).trans ?_
  rw [block_7 m c t, block_8 m c t, block_0 m c t, block_9 m c t, block_1 m c t, block_2 m c t, block_11 m c t, block_12 m c t]
  rw [input_slice, Cert.KernelTiles.tile_subIn]
  funext y
  obtain ⟨e0, e1, e2⟩ := oidx_21 t
  have he : ((cfg0.win 21).blk t).view.emb y
      = ix3 (y 0) (⟨16 * t.val + (y 1).val, by have h : (y 1).val < 16 := (y 1).isLt; have := lt16 t; omega⟩ : Fin 256) (y 2) :=
    funext fun a => Fin.ext (by
      match a with
      | ⟨0, _⟩ => show win0_21.index t (0 : Fin 3) * 128 + 1 * (y 0).val = (y 0).val; rw [e0]; omega
      | ⟨1, _⟩ => show win0_21.index t (1 : Fin 3) * 16 + 1 * (y 1).val = 16 * t.val + (y 1).val; rw [e1]; omega
      | ⟨2, _⟩ => show win0_21.index t (2 : Fin 3) * 256 + 1 * (y 2).val = (y 2).val; rw [e2]; omega)
  rw [View.read_apply]
  refine Eq.trans ?_ (congrArg (res6 m c) he).symm
  rfl

/-- So the array ends holding `res6`: feature `b` is in the block of point `b / 16`. -/
theorem final21 (c : Dev nD) : (dats m 0 c).arrAt 21 cfg0.N = res6 m c :=
  (dats m 0 c).arrAt_eq_of_cover 21 (res6 m c) (fun t _ => flushed21_eq m c t) fun i => by
    have h0 : (i 0).val < 128 := (i 0).isLt
    have h1 : (i 1).val < 256 := (i 1).isLt
    have h2 : (i 2).val < 256 := (i 2).isLt
    refine ⟨⟨(i 1).val / 16, by rw [show cfg0.N = 16 from N_0]; omega⟩, flush0_21 _, ?_⟩
    rw [mem_blk21]
    obtain ⟨e0, e1, e2⟩ := oidx_21 ⟨(i 1).val / 16, by rw [show cfg0.N = 16 from N_0]; omega⟩
    intro a
    match a with
    | ⟨0, _⟩ => show win0_21.index _ (0 : Fin 3) * 128 ≤ (i 0).val ∧ (i 0).val < win0_21.index _ (0 : Fin 3) * 128 + 128; rw [e0]; omega
    | ⟨1, _⟩ => show win0_21.index _ (1 : Fin 3) * 16 ≤ (i 1).val ∧ (i 1).val < win0_21.index _ (1 : Fin 3) * 16 + 16; rw [e1]; show (i 1).val / 16 * 16 ≤ (i 1).val ∧ (i 1).val < (i 1).val / 16 * 16 + 16; omega
    | ⟨2, _⟩ => show win0_21.index _ (2 : Fin 3) * 256 ≤ (i 2).val ∧ (i 2).val < win0_21.index _ (2 : Fin 3) * 256 + 256; rw [e2]; omega

/-- An index is in output window 22's block at point `t` iff each coordinate is in the block's range. -/
theorem mem_blk22 (t : Fin cfg0.N) (i : S128x256x256.Idx) :
    i ∈ ((cfg0.win 22).blk t).view.set ↔ ∀ a : Fin 3, win0_22.index t a * S128x16x256.size a ≤ (i a).val ∧ (i a).val < win0_22.index t a * S128x16x256.size a + S128x16x256.size a := by
  show i ∈ ((View.whole main_v0_7).slice (win0_22.rect t)).set ↔ _
  rw [View.set_slice_whole, Rect.mem_set_unit]
  exact Iff.rfl

/-- What point `t` writes back to output window 22 is tile `t` of `res7`. -/
theorem flushed22_eq (c : Dev nD) (t : Fin cfg0.N) :
    (dats m 0 c).flushed 22 t = ((cfg0.win 22).blk t).view.read (Elt Ideal) (res7 m c) := by
  rw [Cert.KernelIdeal.Value.flushed22_A]
  refine (congrArg ((cfg0.win 22).cut (grid0.coords t)) (Cert.KernelTileStores.store_tile5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t))).trans ?_
  rw [block_7 m c t, block_8 m c t, block_0 m c t, block_10 m c t, block_1 m c t, block_2 m c t, block_11 m c t, block_12 m c t]
  rw [Cert.KernelTiles.tile_add]
  funext y
  obtain ⟨e0, e1, e2⟩ := oidx_22 t
  have he : ((cfg0.win 22).blk t).view.emb y
      = ix3 (y 0) (⟨16 * t.val + (y 1).val, by have h : (y 1).val < 16 := (y 1).isLt; have := lt16 t; omega⟩ : Fin 256) (y 2) :=
    funext fun a => Fin.ext (by
      match a with
      | ⟨0, _⟩ => show win0_22.index t (0 : Fin 3) * 128 + 1 * (y 0).val = (y 0).val; rw [e0]; omega
      | ⟨1, _⟩ => show win0_22.index t (1 : Fin 3) * 16 + 1 * (y 1).val = 16 * t.val + (y 1).val; rw [e1]; omega
      | ⟨2, _⟩ => show win0_22.index t (2 : Fin 3) * 256 + 1 * (y 2).val = (y 2).val; rw [e2]; omega)
  rw [View.read_apply]
  refine Eq.trans ?_ (congrArg (res7 m c) he).symm
  rfl

/-- So the array ends holding `res7`: feature `b` is in the block of point `b / 16`. -/
theorem final22 (c : Dev nD) : (dats m 0 c).arrAt 22 cfg0.N = res7 m c :=
  (dats m 0 c).arrAt_eq_of_cover 22 (res7 m c) (fun t _ => flushed22_eq m c t) fun i => by
    have h0 : (i 0).val < 128 := (i 0).isLt
    have h1 : (i 1).val < 256 := (i 1).isLt
    have h2 : (i 2).val < 256 := (i 2).isLt
    refine ⟨⟨(i 1).val / 16, by rw [show cfg0.N = 16 from N_0]; omega⟩, flush0_22 _, ?_⟩
    rw [mem_blk22]
    obtain ⟨e0, e1, e2⟩ := oidx_22 ⟨(i 1).val / 16, by rw [show cfg0.N = 16 from N_0]; omega⟩
    intro a
    match a with
    | ⟨0, _⟩ => show win0_22.index _ (0 : Fin 3) * 128 ≤ (i 0).val ∧ (i 0).val < win0_22.index _ (0 : Fin 3) * 128 + 128; rw [e0]; omega
    | ⟨1, _⟩ => show win0_22.index _ (1 : Fin 3) * 16 ≤ (i 1).val ∧ (i 1).val < win0_22.index _ (1 : Fin 3) * 16 + 16; rw [e1]; show (i 1).val / 16 * 16 ≤ (i 1).val ∧ (i 1).val < (i 1).val / 16 * 16 + 16; omega
    | ⟨2, _⟩ => show win0_22.index _ (2 : Fin 3) * 256 ≤ (i 2).val ∧ (i 2).val < win0_22.index _ (2 : Fin 3) * 256 + 256; rw [e2]; omega

/-- An index is in output window 23's block at point `t` iff each coordinate is in the block's range. -/
theorem mem_blk23 (t : Fin cfg0.N) (i : S128x256x256.Idx) :
    i ∈ ((cfg0.win 23).blk t).view.set ↔ ∀ a : Fin 3, win0_23.index t a * S128x16x256.size a ≤ (i a).val ∧ (i a).val < win0_23.index t a * S128x16x256.size a + S128x16x256.size a := by
  show i ∈ ((View.whole main_v0_8).slice (win0_23.rect t)).set ↔ _
  rw [View.set_slice_whole, Rect.mem_set_unit]
  exact Iff.rfl

/-- What point `t` writes back to output window 23 is tile `t` of `res8`. -/
theorem flushed23_eq (c : Dev nD) (t : Fin cfg0.N) :
    (dats m 0 c).flushed 23 t = ((cfg0.win 23).blk t).view.read (Elt Ideal) (res8 m c) := by
  rw [Cert.KernelIdeal.Value.flushed23_A]
  refine (congrArg ((cfg0.win 23).cut (grid0.coords t)) (Cert.KernelTileStores.store_tile6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t))).trans ?_
  rw [block_7 m c t, block_8 m c t, block_0 m c t, block_9 m c t, block_1 m c t, block_2 m c t, block_13 m c t, block_14 m c t]
  rw [Cert.KernelTiles.tile_sub]
  funext y
  obtain ⟨e0, e1, e2⟩ := oidx_23 t
  have he : ((cfg0.win 23).blk t).view.emb y
      = ix3 (y 0) (⟨16 * t.val + (y 1).val, by have h : (y 1).val < 16 := (y 1).isLt; have := lt16 t; omega⟩ : Fin 256) (y 2) :=
    funext fun a => Fin.ext (by
      match a with
      | ⟨0, _⟩ => show win0_23.index t (0 : Fin 3) * 128 + 1 * (y 0).val = (y 0).val; rw [e0]; omega
      | ⟨1, _⟩ => show win0_23.index t (1 : Fin 3) * 16 + 1 * (y 1).val = 16 * t.val + (y 1).val; rw [e1]; omega
      | ⟨2, _⟩ => show win0_23.index t (2 : Fin 3) * 256 + 1 * (y 2).val = (y 2).val; rw [e2]; omega)
  rw [View.read_apply]
  refine Eq.trans ?_ (congrArg (res8 m c) he).symm
  rfl

/-- So the array ends holding `res8`: feature `b` is in the block of point `b / 16`. -/
theorem final23 (c : Dev nD) : (dats m 0 c).arrAt 23 cfg0.N = res8 m c :=
  (dats m 0 c).arrAt_eq_of_cover 23 (res8 m c) (fun t _ => flushed23_eq m c t) fun i => by
    have h0 : (i 0).val < 128 := (i 0).isLt
    have h1 : (i 1).val < 256 := (i 1).isLt
    have h2 : (i 2).val < 256 := (i 2).isLt
    refine ⟨⟨(i 1).val / 16, by rw [show cfg0.N = 16 from N_0]; omega⟩, flush0_23 _, ?_⟩
    rw [mem_blk23]
    obtain ⟨e0, e1, e2⟩ := oidx_23 ⟨(i 1).val / 16, by rw [show cfg0.N = 16 from N_0]; omega⟩
    intro a
    match a with
    | ⟨0, _⟩ => show win0_23.index _ (0 : Fin 3) * 128 ≤ (i 0).val ∧ (i 0).val < win0_23.index _ (0 : Fin 3) * 128 + 128; rw [e0]; omega
    | ⟨1, _⟩ => show win0_23.index _ (1 : Fin 3) * 16 ≤ (i 1).val ∧ (i 1).val < win0_23.index _ (1 : Fin 3) * 16 + 16; rw [e1]; show (i 1).val / 16 * 16 ≤ (i 1).val ∧ (i 1).val < (i 1).val / 16 * 16 + 16; omega
    | ⟨2, _⟩ => show win0_23.index _ (2 : Fin 3) * 256 ≤ (i 2).val ∧ (i 2).val < win0_23.index _ (2 : Fin 3) * 256 + 256; rw [e2]; omega

/-- An index is in output window 24's block at point `t` iff each coordinate is in the block's range. -/
theorem mem_blk24 (t : Fin cfg0.N) (i : S128x256x256.Idx) :
    i ∈ ((cfg0.win 24).blk t).view.set ↔ ∀ a : Fin 3, win0_24.index t a * S128x16x256.size a ≤ (i a).val ∧ (i a).val < win0_24.index t a * S128x16x256.size a + S128x16x256.size a := by
  show i ∈ ((View.whole main_v0_9).slice (win0_24.rect t)).set ↔ _
  rw [View.set_slice_whole, Rect.mem_set_unit]
  exact Iff.rfl

/-- What point `t` writes back to output window 24 is tile `t` of `res9`. -/
theorem flushed24_eq (c : Dev nD) (t : Fin cfg0.N) :
    (dats m 0 c).flushed 24 t = ((cfg0.win 24).blk t).view.read (Elt Ideal) (res9 m c) := by
  rw [Cert.KernelIdeal.Value.flushed24_A]
  refine (congrArg ((cfg0.win 24).cut (grid0.coords t)) (Cert.KernelTileStores.store_tile7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t))).trans ?_
  rw [block_7 m c t, block_8 m c t, block_0 m c t, block_10 m c t, block_1 m c t, block_2 m c t, block_13 m c t, block_14 m c t]
  rw [input_slice, Cert.KernelTiles.tile_addIn]
  funext y
  obtain ⟨e0, e1, e2⟩ := oidx_24 t
  have he : ((cfg0.win 24).blk t).view.emb y
      = ix3 (y 0) (⟨16 * t.val + (y 1).val, by have h : (y 1).val < 16 := (y 1).isLt; have := lt16 t; omega⟩ : Fin 256) (y 2) :=
    funext fun a => Fin.ext (by
      match a with
      | ⟨0, _⟩ => show win0_24.index t (0 : Fin 3) * 128 + 1 * (y 0).val = (y 0).val; rw [e0]; omega
      | ⟨1, _⟩ => show win0_24.index t (1 : Fin 3) * 16 + 1 * (y 1).val = 16 * t.val + (y 1).val; rw [e1]; omega
      | ⟨2, _⟩ => show win0_24.index t (2 : Fin 3) * 256 + 1 * (y 2).val = (y 2).val; rw [e2]; omega)
  rw [View.read_apply]
  refine Eq.trans ?_ (congrArg (res9 m c) he).symm
  rfl

/-- So the array ends holding `res9`: feature `b` is in the block of point `b / 16`. -/
theorem final24 (c : Dev nD) : (dats m 0 c).arrAt 24 cfg0.N = res9 m c :=
  (dats m 0 c).arrAt_eq_of_cover 24 (res9 m c) (fun t _ => flushed24_eq m c t) fun i => by
    have h0 : (i 0).val < 128 := (i 0).isLt
    have h1 : (i 1).val < 256 := (i 1).isLt
    have h2 : (i 2).val < 256 := (i 2).isLt
    refine ⟨⟨(i 1).val / 16, by rw [show cfg0.N = 16 from N_0]; omega⟩, flush0_24 _, ?_⟩
    rw [mem_blk24]
    obtain ⟨e0, e1, e2⟩ := oidx_24 ⟨(i 1).val / 16, by rw [show cfg0.N = 16 from N_0]; omega⟩
    intro a
    match a with
    | ⟨0, _⟩ => show win0_24.index _ (0 : Fin 3) * 128 ≤ (i 0).val ∧ (i 0).val < win0_24.index _ (0 : Fin 3) * 128 + 128; rw [e0]; omega
    | ⟨1, _⟩ => show win0_24.index _ (1 : Fin 3) * 16 ≤ (i 1).val ∧ (i 1).val < win0_24.index _ (1 : Fin 3) * 16 + 16; rw [e1]; show (i 1).val / 16 * 16 ≤ (i 1).val ∧ (i 1).val < (i 1).val / 16 * 16 + 16; omega
    | ⟨2, _⟩ => show win0_24.index _ (2 : Fin 3) * 256 ≤ (i 2).val ∧ (i 2).val < win0_24.index _ (2 : Fin 3) * 256 + 256; rw [e2]; omega

/-! ## The run -/

/-- The kernel's run: every weakly fair execution ends with the ten result arrays at `res0 … res9` of the launch
    contents of the arguments, and the arguments unchanged. -/
theorem run : θ_run defs (onTc (τ := τ) (main (F := Ideal))) ⟨m, fun _ => 0, ρ⟩ fun r => ∀ c : Dev nD,
      r.2.mem ((c : Thread nD τ).loc main_v0_0) = res0 m c
      ∧       r.2.mem ((c : Thread nD τ).loc main_v0_1) = res1 m c
      ∧       r.2.mem ((c : Thread nD τ).loc main_v0_2) = res2 m c
      ∧       r.2.mem ((c : Thread nD τ).loc main_v0_3) = res3 m c
      ∧       r.2.mem ((c : Thread nD τ).loc main_v0_4) = res4 m c
      ∧       r.2.mem ((c : Thread nD τ).loc main_v0_5) = res5 m c
      ∧       r.2.mem ((c : Thread nD τ).loc main_v0_6) = res6 m c
      ∧       r.2.mem ((c : Thread nD τ).loc main_v0_7) = res7 m c
      ∧       r.2.mem ((c : Thread nD τ).loc main_v0_8) = res8 m c
      ∧       r.2.mem ((c : Thread nD τ).loc main_v0_9) = res9 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨(h c).1.trans (final15 m c),
      (h c).2.1.trans (final16 m c),
      (h c).2.2.1.trans (final17 m c),
      (h c).2.2.2.1.trans (final18 m c),
      (h c).2.2.2.2.1.trans (final19 m c),
      (h c).2.2.2.2.2.1.trans (final20 m c),
      (h c).2.2.2.2.2.2.1.trans (final21 m c),
      (h c).2.2.2.2.2.2.2.1.trans (final22 m c),
      (h c).2.2.2.2.2.2.2.2.1.trans (final23 m c),
      (h c).2.2.2.2.2.2.2.2.2.1.trans (final24 m c),
      (h c).2.2.2.2.2.2.2.2.2.2⟩)
    (Cert.KernelIdeal.Value.run_blocks m ρ)

end Cert.KernelArrays

end
-- ==== Proof.LibHostForms.lean ====
/-
  On the extended reals the host's spelling of an operation and the kernel's are one function, as whole vectors:
  a transcendental, a negation written `0 - x`, a comparison turned into 0/1 through a signed or an unsigned
  conversion, a matrix product into the zero accumulator against the host's `dot_general`, and a scalar constant
  spread over a shape.
-/
import Idealize.ShloMosaic.PureOps.Ideal
import Idealize.ShloMosaic.PureOps.Ideal.Laws
import Idealize.ShloMosaic.Lib.ValueIdx

noncomputable section

namespace Idealize.ShloMosaic.HostForms

open Idealize.ShloMosaic

variable {s : Shape}

/-- The host's exponential is the kernel's: both are `Ideal.exp` entry by entry. -/
theorem hostExp_eq (x : FVec Ideal s .f32) : Host.exp x = exp x := rfl
/-- The host's cosine is the kernel's. -/
theorem hostCos_eq (x : FVec Ideal s .f32) : Host.cos x = cos x := rfl
/-- The host's sine is the kernel's. -/
theorem hostSin_eq (x : FVec Ideal s .f32) : Host.sin x = sin x := rfl
/-- The host's square root is the kernel's. -/
theorem hostSqrt_eq (x : FVec Ideal s .f32) : Host.sqrt x = sqrt x := rfl
/-- The host's quotient is the kernel's: both are `Ideal.div`. -/
theorem hostDivf_eq (x y : FVec Ideal s .f32) : Host.divf x y = divf x y := rfl

/-- `-x` is `0 - x` on every extended real, so the host's negation is the kernel's subtraction from the zero splat. -/
theorem hostNegf_eq (x : FVec Ideal s .f32) :
    Host.negf x = subf (broadcast s (Scalar.ofBits (F := Ideal) .f32 0x00000000#32)) x := by
  funext i
  show -(x i) = Ideal.ofBits .f32 0x00000000#32 - x i
  rw [Ideal.ofBits_zero_f32, zero_sub]

/-- A one-bit word read as an unsigned integer is the same real (0 or 1) as its zero-extension to 32 bits read as a
    signed integer. -/
theorem bit_toInt (b : BitVec 1) : ((b.setWidth 32).toInt : ℝ) = (b.toNat : ℝ) := by
  have h : ∀ b : BitVec 1, (b.setWidth 32).toInt = (b.toNat : ℤ) := by decide
  rw [h b]; norm_cast

/-- So the 0/1 indicator of a comparison is the same vector whether it is converted unsigned from the bit or signed from
    the bit's zero-extension. -/
theorem uitofp_eq_sitofp_extui (v : IVec s 1) (h : 1 < 32) :
    (uitofp .f32 v : FVec Ideal s .f32) = sitofp .f32 (extui 32 v h) := by
  funext i
  show (((v i).toNat : ℝ) : EReal) = ((((v i).setWidth 32).toInt : ℝ) : EReal)
  rw [bit_toInt]

/-- A scalar constant spread over a shape by the host's `broadcast_in_dim` with no operand axis is the kernel's splat of
    the same word. -/
theorem bcastConst_eq (t : Shape) (w : BitVec 32) (dims : Fin (⟨0, ![]⟩ : Shape).rank → Fin t.rank)
    (h : (⟨0, ![]⟩ : Shape).BroadcastsInDim t dims) :
    broadcastInDim t dims h (constant (F := Ideal) ⟨0, ![]⟩ .f32 w) = broadcast t (Scalar.ofBits (F := Ideal) .f32 w) := rfl

/-- The host's `dot_general` is the kernel's matrix product into the zero accumulator: at these values both are the
    exact sum of products, and the zero word is the extended real 0. -/
theorem dotGeneral_eq_matmul_zero {sl sr so : Shape} (d : DotDims sl sr so) (p p' : Option ContractPrecision)
    (l : FVec Ideal sl .f32) (r : FVec Ideal sr .f32) :
    Host.dotGeneral d p l r = matmul d p' l r (constant so .f32 0x00000000#32) := by
  have hz : (constant (F := Ideal) so .f32 0x00000000#32) = fun _ => (0 : EReal) := by
    funext i; exact Ideal.ofBits_zero_f32
  show Ideal.matmul d l r (fun _ => 0) = Ideal.matmul d l r (constant (F := Ideal) so .f32 0x00000000#32)
  rw [hz]

end Idealize.ShloMosaic.HostForms

end
-- ==== Proof.RefSide.lean ====
/-
  The reference program, stage by stage, in the words of the recurrence: the pole, the input normalisation, the two
  drives, the two pre-activations and their activity indicators, and six of its results as named functions of the
  argument arrays: the two new states and the four traces of the pole's parameters, whole vectors over batch row and
  hidden unit. On the extended reals the host's spelling of an operation and the kernel's are one function, so every
  stage of the reference is the quantity of the same name, with the operands of every product and sum in the same order.
-/
import proofs.«131562_j54863912239692_2_alg».proof.Proof.Gen.ReferenceIdeal.Read
import proofs.«131562_j54863912239692_2_alg».proof.Proof.Quantities
import proofs.«131562_j54863912239692_2_alg».proof.Proof.LibHostForms

noncomputable section

namespace Cert.RefSide

open Cert.ReferenceIdeal.Read Idealize.ShloMosaic Idealize.ShloMosaic.HostForms

/-! ## Two spellings of one re-indexing -/

/-- A row of one value per hidden unit spread over the batch rows: the host names the axes the row keeps, the kernel
    aligns the row with the trailing axes. Both read the row at the entry's hidden unit. -/
theorem rowSpread_eq {α : Type}
    (h' : (⟨2, ![1, 256]⟩ : Shape).Broadcasts ⟨2, ![128, 256]⟩)
    (h : (⟨2, ![1, 256]⟩ : Shape).BroadcastsInDim ⟨2, ![128, 256]⟩ ![0, 1])
    (v : (⟨2, ![1, 256]⟩ : Shape).Idx → α) :
    broadcastInDim ⟨2, ![128, 256]⟩ ![0, 1] h v = broadcastTo ⟨2, ![128, 256]⟩ v h' := by
  funext j
  show v _ = v _
  congr 1
  funext a
  match a with
  | ⟨0, _⟩ => rfl
  | ⟨1, _⟩ => rfl

open Cert.Step

variable (x0 x1 x2 x3 x4 x5 x6 : Vec Ideal Cert.KernelIdeal.S128x256 .f32)
  (x11 x12 : Vec Ideal Cert.KernelIdeal.S1x256 .f32)
  (x13 x14 : Vec Ideal Cert.KernelIdeal.S256x256 .f32)

/-! ## The pole and the drives -/

/-- `exp ρ`. -/
theorem stage_expRho : val_main_v0 (F := Ideal) x11 = expRho x11 := rfl

/-- The pole's modulus `r = exp(−exp ρ)`: the host negates, the kernel subtracts from zero. -/
theorem stage_modulus : val_main_v2 (F := Ideal) x11 = modulus x11 := by
  unfold val_main_v2 val_main_v1
  rw [hostNegf_eq]
  rfl

/-- The pole's angle `θ = exp ϑ`. -/
theorem stage_angle : val_main_v3 (F := Ideal) x12 = angle x12 := rfl

/-- The pole's real part `g = r·cos θ`. -/
theorem stage_poleRe : val_main_v5 (F := Ideal) x11 x12 = poleRe x11 x12 := by
  unfold val_main_v5 val_main_v4
  rw [stage_modulus]
  rfl

/-- The pole's imaginary part `φ = r·sin θ`. -/
theorem stage_poleIm : val_main_v7 (F := Ideal) x11 x12 = poleIm x11 x12 := by
  unfold val_main_v7 val_main_v6
  rw [stage_modulus]
  rfl

/-- The input normalisation `n = √(1 − r·r)`. -/
theorem stage_inNorm : val_main_v11 (F := Ideal) x11 = inNorm x11 := by
  unfold val_main_v11 val_main_v10 val_main_v8
  rw [stage_modulus]
  rfl

/-- The input through the first weight matrix, `x·W1`: the exact sum of products on both sides. -/
theorem stage_drive1 : val_main_v12 (F := Ideal) x0 x13 = drive1 x0 x13 := by
  unfold val_main_v12
  rw [dotGeneral_eq_matmul_zero _ none (some .fp32)]
  rfl

/-- The input through the second weight matrix, `x·W2`. -/
theorem stage_drive2 : val_main_v13 (F := Ideal) x0 x14 = drive2 x0 x14 := by
  unfold val_main_v13
  rw [dotGeneral_eq_matmul_zero _ none (some .fp32)]
  rfl

/-! ## The new state and the activity indicators -/

/-- `c1 = g·h1 − φ·h2 + n·(x·W1)`. -/
theorem stage_pre1 : val_main_v21 (F := Ideal) x0 x1 x2 x11 x12 x13 = pre1 x11 x12 x0 x13 x1 x2 := by
  simp only [val_main_v21, val_main_v18, val_main_v20, val_main_v15, val_main_v17, val_main_v14, val_main_v16,
    val_main_v19, rowSpread_eq Cert.KernelIdeal.Gen.broadcasts_S1x256_S128x256,
    stage_poleRe, stage_poleIm, stage_inNorm, stage_drive1]
  rfl

/-- `c2 = g·h2 + φ·h1 + n·(x·W2)`. -/
theorem stage_pre2 : val_main_v29 (F := Ideal) x0 x1 x2 x11 x12 x14 = pre2 x11 x12 x0 x14 x1 x2 := by
  simp only [val_main_v29, val_main_v26, val_main_v28, val_main_v23, val_main_v25, val_main_v22, val_main_v24,
    val_main_v27, rowSpread_eq Cert.KernelIdeal.Gen.broadcasts_S1x256_S128x256,
    stage_poleRe, stage_poleIm, stage_inNorm, stage_drive2]
  rfl

/-- The indicator `[c1 > 0]`: 0 or 1, whether the comparison's bit is read unsigned or zero-extended and signed. -/
theorem stage_act1 : val_main_v34 (F := Ideal) x0 x1 x2 x11 x12 x13 = act1 x11 x12 x0 x13 x1 x2 := by
  unfold val_main_v34 val_main_v33
  rw [uitofp_eq_sitofp_extui _ Cert.KernelIdeal.Gen.natLt_1_32, stage_pre1]
  rfl

/-- The indicator `[c2 > 0]`. -/
theorem stage_act2 : val_main_v37 (F := Ideal) x0 x1 x2 x11 x12 x14 = act2 x11 x12 x0 x14 x1 x2 := by
  unfold val_main_v37 val_main_v36
  rw [uitofp_eq_sitofp_extui _ Cert.KernelIdeal.Gen.natLt_1_32, stage_pre2]
  rfl

/-- The new first state `max(c1, 0)`. -/
theorem result0 : val_main_v30 (F := Ideal) x0 x1 x2 x11 x12 x13 = post1 x11 x12 x0 x13 x1 x2 := by
  unfold val_main_v30
  rw [stage_pre1]
  rfl

/-- The new second state `max(c2, 0)`. -/
theorem result1 : val_main_v31 (F := Ideal) x0 x1 x2 x11 x12 x14 = post2 x11 x12 x0 x14 x1 x2 := by
  unfold val_main_v31
  rw [stage_pre2]
  rfl

/-! ## The traces of the pole's parameters -/

/-- The trace of `c1` with respect to `ρ`:
    `[c1 > 0] · (∂g/∂ρ·h1 + g·T0 − ∂φ/∂ρ·h2 − φ·T1 + ∂n/∂ρ·(x·W1))`, with `∂g/∂ρ = −exp ρ · g`,
    `∂φ/∂ρ = −exp ρ · φ` and `∂n/∂ρ = exp ρ · (r·r) / n`. -/
theorem result2 : val_main_v62 (F := Ideal) x0 x1 x2 x3 x4 x11 x12 x13 = trace0 x11 x12 x0 x13 x1 x2 x3 x4 := by
  simp only [val_main_v62, val_main_v61, val_main_v58, val_main_v55, val_main_v52, val_main_v49, val_main_v48,
    val_main_v39, val_main_v38, val_main_v51, val_main_v50, val_main_v54, val_main_v53, val_main_v41, val_main_v40,
    val_main_v57, val_main_v56, val_main_v60, val_main_v59, val_main_v47, val_main_v46, val_main_v45,
    rowSpread_eq Cert.KernelIdeal.Gen.broadcasts_S1x256_S128x256,
    hostNegf_eq, stage_act1, stage_poleRe, stage_poleIm, stage_inNorm, stage_drive1, stage_modulus,
    stage_expRho]
  rfl

/-- The trace of `c2` with respect to `ρ`:
    `[c2 > 0] · (∂g/∂ρ·h2 + g·T1 + ∂φ/∂ρ·h1 + φ·T0 + ∂n/∂ρ·(x·W2))`. -/
theorem result3 : val_main_v77 (F := Ideal) x0 x1 x2 x3 x4 x11 x12 x14 = trace1 x11 x12 x0 x14 x1 x2 x3 x4 := by
  simp only [val_main_v77, val_main_v76, val_main_v73, val_main_v70, val_main_v67, val_main_v64, val_main_v63,
    val_main_v39, val_main_v38, val_main_v66, val_main_v65, val_main_v69, val_main_v68, val_main_v41, val_main_v40,
    val_main_v72, val_main_v71, val_main_v75, val_main_v74, val_main_v47, val_main_v46, val_main_v45,
    rowSpread_eq Cert.KernelIdeal.Gen.broadcasts_S1x256_S128x256,
    hostNegf_eq, stage_act2, stage_poleRe, stage_poleIm, stage_inNorm, stage_drive2, stage_modulus,
    stage_expRho]
  rfl

/-- The trace of `c1` with respect to `ϑ`: `[c1 > 0] · (∂g/∂ϑ·h1 + g·T2 − ∂φ/∂ϑ·h2 − φ·T3)`, with
    `∂g/∂ϑ = −θ·φ` and `∂φ/∂ϑ = θ·g`. -/
theorem result4 : val_main_v89 (F := Ideal) x0 x1 x2 x5 x6 x11 x12 x13 = trace2 x11 x12 x0 x13 x1 x2 x5 x6 := by
  simp only [val_main_v89, val_main_v88, val_main_v85, val_main_v82, val_main_v79, val_main_v78, val_main_v43,
    val_main_v42, val_main_v81, val_main_v80, val_main_v84, val_main_v83, val_main_v44, val_main_v87, val_main_v86,
    rowSpread_eq Cert.KernelIdeal.Gen.broadcasts_S1x256_S128x256,
    hostNegf_eq, stage_act1, stage_poleRe, stage_poleIm, stage_angle]
  rfl

/-- The trace of `c2` with respect to `ϑ`: `[c2 > 0] · (∂g/∂ϑ·h2 + g·T3 + ∂φ/∂ϑ·h1 + φ·T2)`. -/
theorem result5 : val_main_v101 (F := Ideal) x0 x1 x2 x5 x6 x11 x12 x14 = trace3 x11 x12 x0 x14 x1 x2 x5 x6 := by
  simp only [val_main_v101, val_main_v100, val_main_v97, val_main_v94, val_main_v91, val_main_v90, val_main_v43,
    val_main_v42, val_main_v93, val_main_v92, val_main_v96, val_main_v95, val_main_v44, val_main_v99, val_main_v98,
    rowSpread_eq Cert.KernelIdeal.Gen.broadcasts_S1x256_S128x256,
    hostNegf_eq, stage_act2, stage_poleRe, stage_poleIm, stage_angle]
  rfl

end Cert.RefSide

end
-- ==== Proof.RefTraces.lean ====
/-
  The reference's four input-weight traces, entry by entry. Each is computed on whole `[128, 256, 256]` arrays from the
  pole `g + i·φ` and the normalisation `n` (rows `[1, 256]` given two unit axes and repeated), the activity indicator
  `d` (a matrix `[128, 256]` given a middle unit axis and repeated over the features) and the input (a matrix given a
  trailing unit axis and repeated over the hidden units). Read at an entry `(a, b, c)` the repetitions pick `g c`, `φ c`,
  `n c`, `d (a, c)` and `x (a, b)`, and what is left is one of the four update formulas of Spec.lean over the reference's
  own stages for `d`, `g`, `φ`, `n`.
-/
import proofs.«131562_j54863912239692_2_alg».proof.Proof.Gen.ReferenceIdeal.Read
import proofs.«131562_j54863912239692_2_alg».proof.Proof.Spec
import Idealize.ShloMosaic.Lib.ValueIdx

noncomputable section

namespace Cert.RefTraces

open Cert.ReferenceIdeal Cert.ReferenceIdeal.Read Idealize.ShloMosaic Idealize.ShloMosaic.ValueIdx

variable (x0 x1 x2 : (⟨S128x256, .f32⟩ : BufTy).Contents (Elt Ideal))
  (x7 x8 x9 x10 : (⟨S128x256x256, .f32⟩ : BufTy).Contents (Elt Ideal))
  (x11 x12 : (⟨S1x256, .f32⟩ : BufTy).Contents (Elt Ideal)) (x13 x14 : (⟨S256x256, .f32⟩ : BufTy).Contents (Elt Ideal))

/-- Two index maps built from coordinates agree when they agree on each of the two axes. -/
local macro "idx_eq" : tactic =>
  `(tactic| exact funext fun a => Fin.ext (by match a with | ⟨0, _⟩ => rfl | ⟨1, _⟩ => rfl))

/-- The first input-weight trace: `d1 · (g·T4 − φ·T5 + n·x)`. -/
theorem trace4 : val_main_v118 (F := Ideal) x0 x1 x2 x7 x8 x11 x12 x13
    = Cert.Spec.traceSubIn (D := 256) (val_main_v34 (F := Ideal) x0 x1 x2 x11 x12 x13) (val_main_v5 (F := Ideal) x11 x12)
        (val_main_v7 (F := Ideal) x11 x12) (val_main_v11 (F := Ideal) x11) x0 x7 x8 := by
  funext i
  simp only [val_main_v102_apply, val_main_v103_apply, val_main_v104_apply, val_main_v105_apply, val_main_v106_apply, val_main_v107_apply, val_main_v108_apply, val_main_v109_apply, val_main_v110_apply, val_main_v111_apply, val_main_v112_apply, val_main_v113_apply, val_main_v114_apply, val_main_v115_apply, val_main_v116_apply, val_main_v117_apply, val_main_v118_apply, val_main_v119_apply, val_main_v120_apply, val_main_v121_apply, val_main_v122_apply, val_main_v123_apply, val_main_v124_apply, val_main_v125_apply, val_main_v126_apply, val_main_v127_apply, val_main_v128_apply, val_main_v129_apply, val_main_v130_apply, val_main_v131_apply, val_main_v132_apply, val_main_v133_apply, val_main_v134_apply, val_main_v135_apply, val_main_v136_apply, val_main_v137_apply, val_main_v138_apply, val_main_v139_apply, val_main_v140_apply, val_main_v141_apply, val_main_v142_apply, val_main_v143_apply, val_main_v144_apply, val_main_v145_apply, val_main_v146_apply, val_main_v147_apply, val_main_v148_apply, val_main_v149_apply, val_main_v150_apply]
  have h0 : idx_main_v103 (idx_main_v117 i) = ix2 (i 0) (i 2) := by idx_eq
  have h1 : idx_main_v105 (idx_main_v106 i) = ix2 (0 : Fin 1) (i 2) := by idx_eq
  have h2 : idx_main_v108 (idx_main_v109 i) = ix2 (0 : Fin 1) (i 2) := by idx_eq
  have h3 : idx_main_v112 (idx_main_v113 i) = ix2 (0 : Fin 1) (i 2) := by idx_eq
  have h4 : idx_main_v102 (idx_main_v114 i) = ix2 (i 0) (i 1) := by idx_eq
  rw [h0, h1, h2, h3, h4]
  rfl

/-- The second input-weight trace: `d2 · (g·T5 + φ·T4)`. -/
theorem trace5 : val_main_v127 (F := Ideal) x0 x1 x2 x7 x8 x11 x12 x14
    = Cert.Spec.traceAdd (D := 256) (val_main_v37 (F := Ideal) x0 x1 x2 x11 x12 x14) (val_main_v5 (F := Ideal) x11 x12)
        (val_main_v7 (F := Ideal) x11 x12) x8 x7 := by
  funext i
  simp only [val_main_v102_apply, val_main_v103_apply, val_main_v104_apply, val_main_v105_apply, val_main_v106_apply, val_main_v107_apply, val_main_v108_apply, val_main_v109_apply, val_main_v110_apply, val_main_v111_apply, val_main_v112_apply, val_main_v113_apply, val_main_v114_apply, val_main_v115_apply, val_main_v116_apply, val_main_v117_apply, val_main_v118_apply, val_main_v119_apply, val_main_v120_apply, val_main_v121_apply, val_main_v122_apply, val_main_v123_apply, val_main_v124_apply, val_main_v125_apply, val_main_v126_apply, val_main_v127_apply, val_main_v128_apply, val_main_v129_apply, val_main_v130_apply, val_main_v131_apply, val_main_v132_apply, val_main_v133_apply, val_main_v134_apply, val_main_v135_apply, val_main_v136_apply, val_main_v137_apply, val_main_v138_apply, val_main_v139_apply, val_main_v140_apply, val_main_v141_apply, val_main_v142_apply, val_main_v143_apply, val_main_v144_apply, val_main_v145_apply, val_main_v146_apply, val_main_v147_apply, val_main_v148_apply, val_main_v149_apply, val_main_v150_apply]
  have h0 : idx_main_v104 (idx_main_v126 i) = ix2 (i 0) (i 2) := by idx_eq
  have h1 : idx_main_v119 (idx_main_v120 i) = ix2 (0 : Fin 1) (i 2) := by idx_eq
  have h2 : idx_main_v122 (idx_main_v123 i) = ix2 (0 : Fin 1) (i 2) := by idx_eq
  rw [h0, h1, h2]
  rfl

/-- The third input-weight trace: `d1 · (g·T6 − φ·T7)`. -/
theorem trace6 : val_main_v136 (F := Ideal) x0 x1 x2 x9 x10 x11 x12 x13
    = Cert.Spec.traceSub (D := 256) (val_main_v34 (F := Ideal) x0 x1 x2 x11 x12 x13) (val_main_v5 (F := Ideal) x11 x12)
        (val_main_v7 (F := Ideal) x11 x12) x9 x10 := by
  funext i
  simp only [val_main_v102_apply, val_main_v103_apply, val_main_v104_apply, val_main_v105_apply, val_main_v106_apply, val_main_v107_apply, val_main_v108_apply, val_main_v109_apply, val_main_v110_apply, val_main_v111_apply, val_main_v112_apply, val_main_v113_apply, val_main_v114_apply, val_main_v115_apply, val_main_v116_apply, val_main_v117_apply, val_main_v118_apply, val_main_v119_apply, val_main_v120_apply, val_main_v121_apply, val_main_v122_apply, val_main_v123_apply, val_main_v124_apply, val_main_v125_apply, val_main_v126_apply, val_main_v127_apply, val_main_v128_apply, val_main_v129_apply, val_main_v130_apply, val_main_v131_apply, val_main_v132_apply, val_main_v133_apply, val_main_v134_apply, val_main_v135_apply, val_main_v136_apply, val_main_v137_apply, val_main_v138_apply, val_main_v139_apply, val_main_v140_apply, val_main_v141_apply, val_main_v142_apply, val_main_v143_apply, val_main_v144_apply, val_main_v145_apply, val_main_v146_apply, val_main_v147_apply, val_main_v148_apply, val_main_v149_apply, val_main_v150_apply]
  have h0 : idx_main_v103 (idx_main_v135 i) = ix2 (i 0) (i 2) := by idx_eq
  have h1 : idx_main_v128 (idx_main_v129 i) = ix2 (0 : Fin 1) (i 2) := by idx_eq
  have h2 : idx_main_v131 (idx_main_v132 i) = ix2 (0 : Fin 1) (i 2) := by idx_eq
  rw [h0, h1, h2]
  rfl

/-- The fourth input-weight trace: `d2 · (g·T7 + φ·T6 + n·x)`. -/
theorem trace7 : val_main_v150 (F := Ideal) x0 x1 x2 x9 x10 x11 x12 x14
    = Cert.Spec.traceAddIn (D := 256) (val_main_v37 (F := Ideal) x0 x1 x2 x11 x12 x14) (val_main_v5 (F := Ideal) x11 x12)
        (val_main_v7 (F := Ideal) x11 x12) (val_main_v11 (F := Ideal) x11) x0 x10 x9 := by
  funext i
  simp only [val_main_v102_apply, val_main_v103_apply, val_main_v104_apply, val_main_v105_apply, val_main_v106_apply, val_main_v107_apply, val_main_v108_apply, val_main_v109_apply, val_main_v110_apply, val_main_v111_apply, val_main_v112_apply, val_main_v113_apply, val_main_v114_apply, val_main_v115_apply, val_main_v116_apply, val_main_v117_apply, val_main_v118_apply, val_main_v119_apply, val_main_v120_apply, val_main_v121_apply, val_main_v122_apply, val_main_v123_apply, val_main_v124_apply, val_main_v125_apply, val_main_v126_apply, val_main_v127_apply, val_main_v128_apply, val_main_v129_apply, val_main_v130_apply, val_main_v131_apply, val_main_v132_apply, val_main_v133_apply, val_main_v134_apply, val_main_v135_apply, val_main_v136_apply, val_main_v137_apply, val_main_v138_apply, val_main_v139_apply, val_main_v140_apply, val_main_v141_apply, val_main_v142_apply, val_main_v143_apply, val_main_v144_apply, val_main_v145_apply, val_main_v146_apply, val_main_v147_apply, val_main_v148_apply, val_main_v149_apply, val_main_v150_apply]
  have h0 : idx_main_v104 (idx_main_v149 i) = ix2 (i 0) (i 2) := by idx_eq
  have h1 : idx_main_v137 (idx_main_v138 i) = ix2 (0 : Fin 1) (i 2) := by idx_eq
  have h2 : idx_main_v140 (idx_main_v141 i) = ix2 (0 : Fin 1) (i 2) := by idx_eq
  have h3 : idx_main_v144 (idx_main_v145 i) = ix2 (0 : Fin 1) (i 2) := by idx_eq
  have h4 : idx_main_v102 (idx_main_v146 i) = ix2 (i 0) (i 1) := by idx_eq
  rw [h0, h1, h2, h3, h4]
  rfl

end Cert.RefTraces

end
-- ==== Proof.lean ====
/-
  One step of a recurrent unit with a complex pole, and of its eligibility traces: the kernel against the reference.

  For a batch of 128 rows and 256 hidden units the step takes the input `x`, the state `(h1, h2)`, four traces
  `[128, 256]` of the two pole parameters and four traces `[128, 256, 256]` of the two input weight matrices, and returns
  the new state and the eight new traces. With `r = exp(−exp ρ)`, `θ = exp ϑ`, `g = r·cos θ`, `φ = r·sin θ`,
  `n = √(1 − r²)`, `c1 = g·h1 − φ·h2 + n·(x·W1)`, `c2 = g·h2 + φ·h1 + n·(x·W2)` and `d = [c > 0]`:
  the new state is `max(c, 0)`, the parameter traces are `d` times a linear form in the old state, the old traces and
  `x·W`, and the input-weight traces are, entry by entry, `d·(g·A ∓ φ·B [+ n·x])`.

  The kernel computes the small quantities at every grid point from operands it holds whole, and the input-weight traces
  16 input features at a time; the reference computes everything on whole arrays. On the extended reals the two programs
  apply THE SAME operations to the same operands in the same order, so no law of arithmetic beyond `0 − a = −a` is needed
  and the precondition is never opened: what differs is only how a value is laid out (a row repeated over the batch, a
  matrix repeated over the features, a tile against the whole array), the spelling of a negation and of a 0/1 indicator,
  and a matrix product into a zero accumulator against the host's product.

  The kernel side: KernelStores / KernelTileStores (what the body stores), KernelBlocks (the blocks it is handed),
  KernelTiles (a tile's payload entry by entry), KernelArrays (the ten arrays after the run). The reference side:
  RefSide (each whole-vector stage is the quantity of the same name) and RefTraces (the four input-weight traces entry by entry). The frames of both kernels are the generated ones; the
  reference's frame is its generated run with the results dropped. The idealization rewrote nothing, so
  `preserves` is `True`.
-/
import proofs.«131562_j54863912239692_2_alg».proof.Defs
import proofs.«131562_j54863912239692_2_alg».proof.Proof.Gen.Kernel
import proofs.«131562_j54863912239692_2_alg».proof.Proof.Gen.Kernel.Frame
import proofs.«131562_j54863912239692_2_alg».proof.Proof.Gen.KernelIdeal
import proofs.«131562_j54863912239692_2_alg».proof.Proof.Gen.KernelIdeal.Frame
import proofs.«131562_j54863912239692_2_alg».proof.Proof.Gen.KernelIdeal.Value
import proofs.«131562_j54863912239692_2_alg».proof.Proof.Gen.ReferenceIdeal
import proofs.«131562_j54863912239692_2_alg».proof.Proof.Gen.ReferenceIdeal.Run
import proofs.«131562_j54863912239692_2_alg».proof.Proof.Gen.ReferenceIdeal.Read
import proofs.«131562_j54863912239692_2_alg».proof.Proof.Gen.Pre_finite_inputs
import proofs.«131562_j54863912239692_2_alg».proof.Proof.KernelArrays
import proofs.«131562_j54863912239692_2_alg».proof.Proof.RefSide
import proofs.«131562_j54863912239692_2_alg».proof.Proof.RefTraces
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference's run, its ten results forgotten. -/
theorem frame_ri : Cert.frame_ReferenceIdeal := fun m ρ _ =>
  (θ_run Cert.ReferenceIdeal.defs _ _).mono (fun _ h c => (h c).2.2.2.2.2.2.2.2.2.2)
    (Cert.ReferenceIdeal.Value.run (F := Ideal) m ρ)

/-- The idealization rewrote no operation. -/
theorem preserves : Cert.preserves_Kernel_KernelIdeal := trivial

/-- From memories that agree on the arguments, the kernel's ten arrays (KernelArrays.run) and the reference's ten
    results (its generated run, each result's term being the stage of that name, RefSide) are the same ten functions of
    the arguments. -/
theorem algebraic : Cert.algebraic_KernelIdeal_ReferenceIdeal := by
  intro m ρ m' ρ' _ hagree
  refine ⟨fun c => Cert.KernelArrays.res0 m c, fun c => Cert.KernelArrays.res1 m c, fun c => Cert.KernelArrays.res2 m c, fun c => Cert.KernelArrays.res3 m c, fun c => Cert.KernelArrays.res4 m c, fun c => Cert.KernelArrays.res5 m c, fun c => Cert.KernelArrays.res6 m c, fun c => Cert.KernelArrays.res7 m c, fun c => Cert.KernelArrays.res8 m c, fun c => Cert.KernelArrays.res9 m c,
    Cert.KernelArrays.run m ρ, ?_⟩
  refine (θ_run Cert.ReferenceIdeal.defs _ _).mono (fun r h c => ?_) (Cert.ReferenceIdeal.Value.run (F := Ideal) m' ρ')
  obtain ⟨g0, g1, g2, g3, g4, g5, g6, g7, g8, g9, g10, g11, g12, g13, g14⟩ := hagree c
  obtain ⟨h0, h1, h2, h3, h4, h5, h6, h7, h8, h9, hkeep⟩ := h c
  refine ⟨h0.trans ?_, h1.trans ?_, h2.trans ?_, h3.trans ?_, h4.trans ?_, h5.trans ?_, h6.trans ?_, h7.trans ?_,
    h8.trans ?_, h9.trans ?_, hkeep⟩
  · rw [Cert.ReferenceIdeal.Read.val_main_v30_eq, g0, g1, g2, g11, g12, g13]
    exact Cert.RefSide.result0 _ _ _ _ _ _
  · rw [Cert.ReferenceIdeal.Read.val_main_v31_eq, g0, g1, g2, g11, g12, g14]
    exact Cert.RefSide.result1 _ _ _ _ _ _
  · rw [Cert.ReferenceIdeal.Read.val_main_v62_eq, g0, g1, g2, g3, g4, g11, g12, g13]
    exact Cert.RefSide.result2 _ _ _ _ _ _ _ _
  · rw [Cert.ReferenceIdeal.Read.val_main_v77_eq, g0, g1, g2, g3, g4, g11, g12, g14]
    exact Cert.RefSide.result3 _ _ _ _ _ _ _ _
  · rw [Cert.ReferenceIdeal.Read.val_main_v89_eq, g0, g1, g2, g5, g6, g11, g12, g13]
    exact Cert.RefSide.result4 _ _ _ _ _ _ _ _
  · rw [Cert.ReferenceIdeal.Read.val_main_v101_eq, g0, g1, g2, g5, g6, g11, g12, g14]
    exact Cert.RefSide.result5 _ _ _ _ _ _ _ _
  · rw [Cert.ReferenceIdeal.Read.val_main_v118_eq, g0, g1, g2, g7, g8, g11, g12, g13, Cert.RefTraces.trace4, Cert.RefSide.stage_act1, Cert.RefSide.stage_poleRe,
      Cert.RefSide.stage_poleIm, Cert.RefSide.stage_inNorm]
  · rw [Cert.ReferenceIdeal.Read.val_main_v127_eq, g0, g1, g2, g7, g8, g11, g12, g14, Cert.RefTraces.trace5, Cert.RefSide.stage_act2, Cert.RefSide.stage_poleRe,
      Cert.RefSide.stage_poleIm]
  · rw [Cert.ReferenceIdeal.Read.val_main_v136_eq, g0, g1, g2, g9, g10, g11, g12, g13, Cert.RefTraces.trace6, Cert.RefSide.stage_act1, Cert.RefSide.stage_poleRe,
      Cert.RefSide.stage_poleIm]
  · rw [Cert.ReferenceIdeal.Read.val_main_v150_eq, g0, g1, g2, g9, g10, g11, g12, g14, Cert.RefTraces.trace7, Cert.RefSide.stage_act2, Cert.RefSide.stage_poleRe,
      Cert.RefSide.stage_poleIm, Cert.RefSide.stage_inNorm]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
